-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x500x4x32x64 : Shape := ⟨5, ![8, 500, 4, 32, 64]⟩
abbrev S8x500x256 : Shape := ⟨3, ![8, 500, 256]⟩
abbrev S32768x256 : Shape := ⟨2, ![32768, 256]⟩
abbrev S32768 : Shape := ⟨1, ![32768]⟩
abbrev S256x32768 : Shape := ⟨2, ![256, 32768]⟩
abbrev S256 : Shape := ⟨1, ![256]⟩
abbrev S_ : Shape := ⟨0, ![]⟩

class Facts : Prop where
  bcast_S_S8x500x4x32x64 : S_.BroadcastsInDim S8x500x4x32x64 (![] : Fin 0 → Fin S8x500x4x32x64.rank)
  reducesTo_S8x500x4x32x64_S_d0_1_2_3_4 : S8x500x4x32x64.ReducesTo [0, 1, 2, 3, 4] S_
  h_S_ : 0 < S_.numel
  bcast_S_S8x500x256 : S_.BroadcastsInDim S8x500x256 (![] : Fin 0 → Fin S8x500x256.rank)
  reducesTo_S8x500x256_S_d0_1_2 : S8x500x256.ReducesTo [0, 1, 2] S_
  bcast_S_S32768x256 : S_.BroadcastsInDim S32768x256 (![] : Fin 0 → Fin S32768x256.rank)
  reducesTo_S32768x256_S_d0_1 : S32768x256.ReducesTo [0, 1] S_
  bcast_S_S32768 : S_.BroadcastsInDim S32768 (![] : Fin 0 → Fin S32768.rank)
  reducesTo_S32768_S_d0 : S32768.ReducesTo [0] S_
  bcast_S_S256x32768 : S_.BroadcastsInDim S256x32768 (![] : Fin 0 → Fin S256x32768.rank)
  reducesTo_S256x32768_S_d0_1 : S256x32768.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x32768 .f32) (main_arg5 : FVec F S256 .f32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S256x32768 .f32 := Host.absf main_arg4
  let main_cst_6 : FVec F S_ .f32 := constant S_ .f32 0x7F800000#32
  let main_v20 : FVec F S256x32768 .f32 := broadcastInDim S256x32768 ![] bcast_S_S256x32768 main_cst_6
  let main_v21 : IVec S256x32768 1 := cmpf .olt main_v19 main_v20
  let main_c_7 : IVec S_ 1 := constantI S_ 1 1#1
  let main_v22 : IVec S_ 1 := (fun x v => Host.reduce IntOp.andi x v reducesTo_S256x32768_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8x500x4x32x64 .f32) (main_arg1 : FVec F S8x500x256 .f32) (main_arg2 : FVec F S32768x256 .f32) (main_arg3 : FVec F S32768 .f32) (main_arg4 : FVec F S256x32768 .f32) (main_arg5 : FVec F S256 .f32) : IVec S_ 1 :=
  let main_v0 : FVec F S8x500x4x32x64 .f32 := Host.absf main_arg0
  let main_cst : FVec F S_ .f32 := constant S_ .f32 0x7F800000#32
  let main_v1 : FVec F S8x500x4x32x64 .f32 := broadcastInDim S8x500x4x32x64 ![] bcast_S_S8x500x4x32x64 main_cst
  let main_v2 : IVec S8x500x4x32x64 1 := cmpf .olt main_v0 main_v1
  let main_c : IVec S_ 1 := constantI S_ 1 1#1
  let main_v3 : IVec S_ 1 := (fun x v => Host.reduce IntOp.andi x v reducesTo_S8x500x4x32x64_S_d0_1_2_3_4 h_S_) main_v2 main_c
  let main_v4 : FVec F S8x500x256 .f32 := Host.absf main_arg1
  let main_cst_0 : FVec F S_ .f32 := constant S_ .f32 0x7F800000#32
  let main_v5 : FVec F S8x500x256 .f32 := broadcastInDim S8x500x256 ![] bcast_S_S8x500x256 main_cst_0
  let main_v6 : IVec S8x500x256 1 := cmpf .olt main_v4 main_v5
  let main_c_1 : IVec S_ 1 := constantI S_ 1 1#1
  let main_v7 : IVec S_ 1 := (fun x v => Host.reduce IntOp.andi x v reducesTo_S8x500x256_S_d0_1_2 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg4 main_arg5 main_v13 main_v16
-- ==== Kernel.lean ====
abbrev S8x500x4x32x64 : Shape := ⟨5, ![8, 500, 4, 32, 64]⟩
abbrev S8x500x256 : Shape := ⟨3, ![8, 500, 256]⟩
abbrev S32768x256 : Shape := ⟨2, ![32768, 256]⟩
abbrev S32768 : Shape := ⟨1, ![32768]⟩
abbrev S256x32768 : Shape := ⟨2, ![256, 32768]⟩
abbrev S256 : Shape := ⟨1, ![256]⟩
abbrev S4000x4x32x64 : Shape := ⟨4, ![4000, 4, 32, 64]⟩
abbrev S4000x256 : Shape := ⟨2, ![4000, 256]⟩
abbrev S4x8192x256 : Shape := ⟨3, ![4, 8192, 256]⟩
abbrev S4x4096x256 : Shape := ⟨3, ![4, 4096, 256]⟩
abbrev S16384x256 : Shape := ⟨2, ![16384, 256]⟩
abbrev S4x8192 : Shape := ⟨2, ![4, 8192]⟩
abbrev S4x4096 : Shape := ⟨2, ![4, 4096]⟩
abbrev S16384 : Shape := ⟨1, ![16384]⟩
abbrev S256x4x8192 : Shape := ⟨3, ![256, 4, 8192]⟩
abbrev S4x256x8192 : Shape := ⟨3, ![4, 256, 8192]⟩
abbrev S32x256 : Shape := ⟨2, ![32, 256]⟩
abbrev S32x4x32x64 : Shape := ⟨4, ![32, 4, 32, 64]⟩
abbrev S4096x256 : Shape := ⟨2, ![4096, 256]⟩
abbrev S4096 : Shape := ⟨1, ![4096]⟩
abbrev S32x4096 : Shape := ⟨2, ![32, 4096]⟩
abbrev S1x4096 : Shape := ⟨2, ![1, 4096]⟩
abbrev S32x64x64 : Shape := ⟨3, ![32, 64, 64]⟩
abbrev S32x1x32x64 : Shape := ⟨4, ![32, 1, 32, 64]⟩
abbrev S32x32x64 : Shape := ⟨3, ![32, 32, 64]⟩
abbrev S32x32 : Shape := ⟨2, ![32, 32]⟩
abbrev S32x32x1 : Shape := ⟨3, ![32, 32, 1]⟩
abbrev S32x1 : Shape := ⟨2, ![32, 1]⟩
abbrev S32x1x1 : Shape := ⟨3, ![32, 1, 1]⟩
abbrev S32x128x32 : Shape := ⟨3, ![32, 128, 32]⟩
abbrev S32x128x64 : Shape := ⟨3, ![32, 128, 64]⟩
abbrev S32x128 : Shape := ⟨2, ![32, 128]⟩
abbrev S32x128x1 : Shape := ⟨3, ![32, 128, 1]⟩
abbrev S32x8192 : Shape := ⟨2, ![32, 8192]⟩
abbrev S1x256x8192 : Shape := ⟨3, ![1, 256, 8192]⟩
abbrev S256x8192 : Shape := ⟨2, ![256, 8192]⟩
abbrev S1x256 : Shape := ⟨2, ![1, 256]⟩

abbrev nBuf : Space → Nat
  | .hbm => 25
  | .vmem => 12
  | .smem => 0
  | _ => 0

abbrev bufTy : (tb : Table) → Fin (tcTables nBuf tb) → BufTy
  | .hbm, ⟨0, _⟩ => ⟨S8x500x4x32x64, .f32⟩
  | .hbm, ⟨1, _⟩ => ⟨S8x500x256, .f32⟩
  | .hbm, ⟨2, _⟩ => ⟨S32768x256, .f32⟩
  | .hbm, ⟨3, _⟩ => ⟨S32768, .f32⟩
  | .hbm, ⟨4, _⟩ => ⟨S256x32768, .f32⟩
  | .hbm, ⟨5, _⟩ => ⟨S256, .f32⟩
  | .hbm, ⟨6, _⟩ => ⟨S4000x4x32x64, .f32⟩
  | .hbm, ⟨7, _⟩ => ⟨S4000x256, .f32⟩
  | .hbm, ⟨8, _⟩ => ⟨S4x8192x256, .f32⟩
  | .hbm, ⟨9, _⟩ => ⟨S4x4096x256, .f32⟩
  | .hbm, ⟨10, _⟩ => ⟨S16384x256, .f32⟩
  | .hbm, ⟨11, _⟩ => ⟨S16384x256, .bf16⟩
  | .hbm, ⟨12, _⟩ => ⟨S4x4096x256, .f32⟩
  | .hbm, ⟨13, _⟩ => ⟨S16384x256, .f32⟩
  | .hbm, ⟨14, _⟩ => ⟨S16384x256, .bf16⟩
  | .hbm, ⟨15, _⟩ => ⟨S4x8192, .f32⟩
  | .hbm, ⟨16, _⟩ => ⟨S4x4096, .f32⟩
  | .hbm, ⟨17, _⟩ => ⟨S16384, .f32⟩
  | .hbm, ⟨18, _⟩ => ⟨S4x4096, .f32⟩
  | .hbm, ⟨19, _⟩ => ⟨S16384, .f32⟩
  | .hbm, ⟨20, _⟩ => ⟨S256x4x8192, .f32⟩
  | .hbm, ⟨21, _⟩ => ⟨S4x256x8192, .f32⟩
  | .hbm, ⟨22, _⟩ => ⟨S4x256x8192, .bf16⟩
  | .hbm, ⟨23, _⟩ => ⟨S4000x256, .f32⟩
  | .hbm, ⟨24, _⟩ => ⟨S8x500x256, .f32⟩
  | .local _ .vmem, ⟨0, _⟩ => ⟨S32x256, .f32⟩
  | .local _ .vmem, ⟨1, _⟩ => ⟨S32x256, .f32⟩
  | .local _ .vmem, ⟨2, _⟩ => ⟨S32x4x32x64, .f32⟩
  | .local _ .vmem, ⟨3, _⟩ => ⟨S32x4x32x64, .f32⟩
  | .local _ .vmem, ⟨4, _⟩ => ⟨S16384x256, .bf16⟩
  | .local _ .vmem, ⟨5, _⟩ => ⟨S16384x256, .bf16⟩
  | .local _ .vmem, ⟨6, _⟩ => ⟨S16384, .f32⟩
  | .local _ .vmem, ⟨7, _⟩ => ⟨S16384, .f32⟩
  | .local _ .vmem, ⟨8, _⟩ => ⟨S4x256x8192, .bf16⟩
  | .local _ .vmem, ⟨9, _⟩ => ⟨S256, .f32⟩
  | .local _ .vmem, ⟨10, _⟩ => ⟨S32x256, .f32⟩
  | .local _ .vmem, ⟨11, _⟩ => ⟨S32x256, .f32⟩
  | _, _ => ⟨S8x500x4x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16384x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8x500x4x32x64_S4000x4x32x64 : S8x500x4x32x64.ShapeCasts S4000x4x32x64
  shapeCasts_S8x500x256_S4000x256 : S8x500x256.ShapeCasts S4000x256
  shapeCasts_S32768x256_S4x8192x256 : S32768x256.ShapeCasts S4x8192x256
  slices_S4x8192x256_S4x4096x256_0_0_0 : S4x8192x256.Slices ![0, 0, 0] S4x4096x256
  shapeCasts_S4x4096x256_S16384x256 : S4x4096x256.ShapeCasts S16384x256
  bitsLt_bf16_f32 : FTy.bits .bf16 < FTy.bits .f32
  slices_S4x8192x256_S4x4096x256_0_4096_0 : S4x8192x256.Slices ![0, 4096, 0] S4x4096x256
  shapeCasts_S32768_S4x8192 : S32768.ShapeCasts S4x8192
  slices_S4x8192_S4x4096_0_0 : S4x8192.Slices ![0, 0] S4x4096
  shapeCasts_S4x4096_S16384 : S4x4096.ShapeCasts S16384
  slices_S4x8192_S4x4096_0_4096 : S4x8192.Slices ![0, 4096] S4x4096
  shapeCasts_S256x32768_S256x4x8192 : S256x32768.ShapeCasts S256x4x8192
  transposes_S256x4x8192_S4x256x8192_1_0_2 : S256x4x8192.Transposes [1, 0, 2] S4x256x8192
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x4x32x64_S32x4x32x64_0_0_0_0 : ∀ a, (![0, 0, 0, 0] : Fin 4 → Nat) a + S32x4x32x64.size a ≤ S32x4x32x64.size a
  h_S32x4x32x64 : 0 < S32x4x32x64.numel
  shapeCasts_S32x4x32x64_S32x4x32x64 : S32x4x32x64.ShapeCasts S32x4x32x64
  inb_S16384x256_S4096x256_0_0 : ∀ a, (![0, 0] : Fin 2 → Nat) a + S4096x256.size a ≤ S16384x256.size a
  h_S4096x256 : 0 < S4096x256.numel
  shapeCasts_S4096x256_S4096x256 : S4096x256.ShapeCasts S4096x256
  inb_S16384_S4096_0 : ∀ a, (![0] : Fin 1 → Nat) a + S4096.size a ≤ S16384.size a
  h_S4096 : 0 < S4096.numel
  shapeCasts_S4096_S4096 : S4096.ShapeCasts S4096
  shapeCasts_S4096_S1x4096 : S4096.ShapeCasts S1x4096
  broadcasts_S1x4096_S32x4096 : S1x4096.Broadcasts S32x4096
  shapeCasts_S32x4096_S32x64x64 : S32x4096.ShapeCasts S32x64x64
  slices_S32x4x32x64_o0_0_0_0_S32x1x32x64 : S32x4x32x64.Slices ![0, 0, 0, 0] S32x1x32x64
  shapeCasts_S32x1x32x64_S32x32x64 : S32x1x32x64.ShapeCasts S32x32x64
  reduces_S32x32x64_S32x32 : S32x32x64.Reduces [2] S32x32
  shapeCasts_S32x32_S32x32x1 : S32x32.ShapeCasts S32x32x1
  reduces_S32x32x1_S32x1 : S32x32x1.Reduces [1] S32x1
  shapeCasts_S32x1_S32x1x1 : S32x1.ShapeCasts S32x1x1
  broadcasts_S32x1x1_S32x32x64 : S32x1x1.Broadcasts S32x32x64
  shapeCasts_S32x4096_S32x128x32 : S32x4096.ShapeCasts S32x128x32
  reduces_S32x128x64_S32x128 : S32x128x64.Reduces [2] S32x128
  shapeCasts_S32x128_S32x128x1 : S32x128.ShapeCasts S32x128x1
  reduces_S32x128x1_S32x1 : S32x128x1.Reduces [1] S32x1
  broadcasts_S32x1x1_S32x128x64 : S32x1x1.Broadcasts S32x128x64
  shapeCasts_S32x128x64_S32x8192 : S32x128x64.ShapeCasts S32x8192
  inb_S4x256x8192_S1x256x8192_0_0_0 : ∀ a, (![0, 0, 0] : Fin 3 → Nat) a + S1x256x8192.size a ≤ S4x256x8192.size a
  h_S1x256x8192 : 0 < S1x256x8192.numel
  shapeCasts_S1x256x8192_S256x8192 : S1x256x8192.ShapeCasts S256x8192
  inb_S16384x256_S4096x256_4096_0 : ∀ a, (![4096, 0] : Fin 2 → Nat) a + S4096x256.size a ≤ S16384x256.size a
  inb_S16384_S4096_4096 : ∀ a, (![4096] : Fin 1 → Nat) a + S4096.size a ≤ S16384.size a
  slices_S32x4x32x64_o0_1_0_0_S32x1x32x64 : S32x4x32x64.Slices ![0, 1, 0, 0] S32x1x32x64
  inb_S4x256x8192_S1x256x8192_1_0_0 : ∀ a, (![1, 0, 0] : Fin 3 → Nat) a + S1x256x8192.size a ≤ S4x256x8192.size a
  inb_S16384x256_S4096x256_8192_0 : ∀ a, (![8192, 0] : Fin 2 → Nat) a + S4096x256.size a ≤ S16384x256.size a
  inb_S16384_S4096_8192 : ∀ a, (![8192] : Fin 1 → Nat) a + S4096.size a ≤ S16384.size a
  slices_S32x4x32x64_o0_2_0_0_S32x1x32x64 : S32x4x32x64.Slices ![0, 2, 0, 0] S32x1x32x64
  inb_S4x256x8192_S1x256x8192_2_0_0 : ∀ a, (![2, 0, 0] : Fin 3 → Nat) a + S1x256x8192.size a ≤ S4x256x8192.size a
  inb_S16384x256_S4096x256_12288_0 : ∀ a, (![12288, 0] : Fin 2 → Nat) a + S4096x256.size a ≤ S16384x256.size a
  inb_S16384_S4096_12288 : ∀ a, (![12288] : Fin 1 → Nat) a + S4096.size a ≤ S16384.size a
  slices_S32x4x32x64_o0_3_0_0_S32x1x32x64 : S32x4x32x64.Slices ![0, 3, 0, 0] S32x1x32x64
  inb_S4x256x8192_S1x256x8192_3_0_0 : ∀ a, (![3, 0, 0] : Fin 3 → Nat) a + S1x256x8192.size a ≤ S4x256x8192.size a
  inb_S256_S256_0 : ∀ a, (![0] : Fin 1 → Nat) a + S256.size a ≤ S256.size a
  h_S256 : 0 < S256.numel
  shapeCasts_S256_S1x256 : S256.ShapeCasts S1x256
  broadcasts_S1x256_S32x256 : S1x256.Broadcasts S32x256
  shapeCasts_S4000x256_S8x500x256 : S4000x256.ShapeCasts S8x500x256
  dot_S32x256_S4096x256_S32x4096_1_1_0_0_n_n_wf : DotDims.WF S32x256 S4096x256 S32x4096 [1] [1] [0] [0] [] []
  dot_S32x32x64_S32x64x64_S32x32x64_2_1_1_2_0_0_wf : DotDims.WF S32x32x64 S32x64x64 S32x32x64 [2] [1] [1] [2] [0] [0]
  dot_S32x128x32_S32x32x64_S32x128x64_2_1_1_2_0_0_wf : DotDims.WF S32x128x32 S32x32x64 S32x128x64 [2] [1] [1] [2] [0] [0]
  dot_S32x8192_S256x8192_S32x256_1_1_0_0_n_n_wf : DotDims.WF S32x8192 S256x8192 S32x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S4000x256.size a
  hwx0_0 : ∀ i : grid0.Coords, EltTy.bits .f32 = 32 ∨ (Rect.block (s := S4000x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x4x32x64.size a ≤ S4000x4x32x64.size a
  hwx0_1 : ∀ i : grid0.Coords, EltTy.bits .f32 = 32 ∨ (Rect.block (s := S4000x4x32x64) S32x4x32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x256.size a ≤ S16384x256.size a
  hwx0_2 : ∀ i : grid0.Coords, EltTy.bits .bf16 = 32 ∨ (Rect.block (s := S16384x256) S16384x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16384x256.size a ≤ S16384x256.size a
  hwx0_3 : ∀ i : grid0.Coords, EltTy.bits .bf16 = 32 ∨ (Rect.block (s := S16384x256) S16384x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16384.size a ≤ S16384.size a
  hwx0_4 : ∀ i : grid0.Coords, EltTy.bits .f32 = 32 ∨ (Rect.block (s := S16384) S16384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16384.size a ≤ S16384.size a
  hwx0_5 : ∀ i : grid0.Coords, EltTy.bits .f32 = 32 ∨ (Rect.block (s := S16384) S16384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x256x8192.size a ≤ S4x256x8192.size a
  hwx0_6 : ∀ i : grid0.Coords, EltTy.bits .bf16 = 32 ∨ (Rect.block (s := S4x256x8192) S4x256x8192.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x256.size a ≤ S4000x256.size a
  hwx0_8 : ∀ i : grid0.Coords, EltTy.bits .f32 = 32 ∨ (Rect.block (s := S4000x256) S32x256.size (cc0_transform_8 i) (hinb0_8 i)).WholeWords (EltTy.packing .f32)

variable [Facts₀]

def dot_S32x256_S4096x256_S32x4096_1_1_0_0_n_n : DotDims S32x256 S4096x256 S32x4096 where
  lhsContracting := [1]
  rhsContracting := [1]
  lhsNonContracting := [0]
  rhsNonContracting := [0]
  lhsBatch := []
  rhsBatch := []
  wf := dot_S32x256_S4096x256_S32x4096_1_1_0_0_n_n_wf
def dot_S32x32x64_S32x64x64_S32x32x64_2_1_1_2_0_0 : DotDims S32x32x64 S32x64x64 S32x32x64 where
  lhsContracting := [2]
  rhsContracting := [1]
  lhsNonContracting := [1]
  rhsNonContracting := [2]
  lhsBatch := [0]
  rhsBatch := [0]
  wf := dot_S32x32x64_S32x64x64_S32x32x64_2_1_1_2_0_0_wf
def dot_S32x128x32_S32x32x64_S32x128x64_2_1_1_2_0_0 : DotDims S32x128x32 S32x32x64 S32x128x64 where
  lhsContracting := [2]
  rhsContracting := [1]
  lhsNonContracting := [1]
  rhsNonContracting := [2]
  lhsBatch := [0]
  rhsBatch := [0]
  wf := dot_S32x128x32_S32x32x64_S32x128x64_2_1_1_2_0_0_wf
def dot_S32x8192_S256x8192_S32x256_1_1_0_0_n_n : DotDims S32x8192 S256x8192 S32x256 where
  lhsContracting := [1]
  rhsContracting := [1]
  lhsNonContracting := [0]
  rhsNonContracting := [0]
  lhsBatch := []
  rhsBatch := []
  wf := dot_S32x8192_S256x8192_S32x256_1_1_0_0_n_n_wf

abbrev win0_0 : Pipeline.Window sig grid0 :=
  Pipeline.Window.ofSpec (Memref.whole main_v1) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x4x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16384x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S16384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S16384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S16384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S4x256x8192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S32x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x500x4x32x64 : Shape := ⟨5, ![8, 500, 4, 32, 64]⟩
abbrev S8x500x256 : Shape := ⟨3, ![8, 500, 256]⟩
abbrev S32768x256 : Shape := ⟨2, ![32768, 256]⟩
abbrev S32768 : Shape := ⟨1, ![32768]⟩
abbrev S256x32768 : Shape := ⟨2, ![256, 32768]⟩
abbrev S256 : Shape := ⟨1, ![256]⟩
abbrev S8x500x32768 : Shape := ⟨3, ![8, 500, 32768]⟩
abbrev S1x1x32768 : Shape := ⟨3, ![1, 1, 32768]⟩
abbrev S8x500x4x8192 : Shape := ⟨4, ![8, 500, 4, 8192]⟩
abbrev S8x500x4x4096 : Shape := ⟨4, ![8, 500, 4, 4096]⟩
abbrev S8x500x4x64x64 : Shape := ⟨5, ![8, 500, 4, 64, 64]⟩
abbrev S8x500x4x128x32 : Shape := ⟨5, ![8, 500, 4, 128, 32]⟩
abbrev S_ : Shape := ⟨0, ![]⟩
abbrev S8x500x4 : Shape := ⟨3, ![8, 500, 4]⟩
abbrev S8x500x4x1x1 : Shape := ⟨5, ![8, 500, 4, 1, 1]⟩
abbrev S8x500x4x128x64 : Shape := ⟨5, ![8, 500, 4, 128, 64]⟩
abbrev S1x1x256 : Shape := ⟨3, ![1, 1, 256]⟩

abbrev nBuf : Space → Nat
  | .hbm => 105
  | .vmem => 0
  | .smem => 0
  | _ => 0

abbrev bufTy : (tb : Table) → Fin (tcTables nBuf tb) → BufTy
  | .hbm, ⟨0, _⟩ => ⟨S8x500x4x32x64, .f32⟩
  | .hbm, ⟨1, _⟩ => ⟨S8x500x256, .f32⟩
  | .hbm, ⟨2, _⟩ => ⟨S32768x256, .f32⟩
  | .hbm, ⟨3, _⟩ => ⟨S32768, .f32⟩
  | .hbm, ⟨4, _⟩ => ⟨S256x32768, .f32⟩
  | .hbm, ⟨5, _⟩ => ⟨S256, .f32⟩
  | .hbm, ⟨6, _⟩ => ⟨S8x500x32768, .f32⟩
  | .hbm, ⟨7, _⟩ => ⟨S1x1x32768, .f32⟩
  | .hbm, ⟨8, _⟩ => ⟨S8x500x32768, .f32⟩
  | .hbm, ⟨9, _⟩ => ⟨S8x500x32768, .f32⟩
  | .hbm, ⟨10, _⟩ => ⟨S8x500x4x8192, .f32⟩
  | .hbm, ⟨11, _⟩ => ⟨S8x500x4x4096, .f32⟩
  | .hbm, ⟨12, _⟩ => ⟨S8x500x4x64x64, .f32⟩
  | .hbm, ⟨13, _⟩ => ⟨S8x500x4x4096, .f32⟩
  | .hbm, ⟨14, _⟩ => ⟨S8x500x4x128x32, .f32⟩
  | .hbm, ⟨15, _⟩ => ⟨S8x500x4x32x64, .f32⟩
  | .hbm, ⟨16, _⟩ => ⟨S_, .f32⟩
  | .hbm, ⟨17, _⟩ => ⟨S8x500x4, .f32⟩
  | .hbm, ⟨18, _⟩ => ⟨S8x500x4x1x1, .f32⟩
  | .hbm, ⟨19, _⟩ => ⟨S_, .f32⟩
  | .hbm, ⟨20, _⟩ => ⟨S8x500x4x1x1, .f32⟩
  | .hbm, ⟨21, _⟩ => ⟨S8x500x4x1x1, .f32⟩
  | .hbm, ⟨22, _⟩ => ⟨S_, .i32⟩
  | .hbm, ⟨23, _⟩ => ⟨S_, .f32⟩
  | .hbm, ⟨24, _⟩ => ⟨S8x500x4, .f32⟩
  | .hbm, ⟨25, _⟩ => ⟨S8x500x4x1x1, .f32⟩
  | .hbm, ⟨26, _⟩ => ⟨S_, .f32⟩
  | .hbm, ⟨27, _⟩ => ⟨S8x500x4x1x1, .f32⟩
  | .hbm, ⟨28, _⟩ => ⟨S8x500x4x1x1, .f32⟩
  | .hbm, ⟨29, _⟩ => ⟨S8x500x4x32x64, .f32⟩
  | .hbm, ⟨30, _⟩ => ⟨S8x500x4x32x64, .f32⟩
  | .hbm, ⟨31, _⟩ => ⟨S8x500x4x32x64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8x500x4, .f32⟩
  | .hbm, ⟨37, _⟩ => ⟨S8x500x4x1x1, .f32⟩
  | .hbm, ⟨38, _⟩ => ⟨S8x500x4x1x1, .f32⟩
  | .hbm, ⟨39, _⟩ => ⟨S8x500x4x1x1, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S8x500x4x1x1, .f32⟩
  | .hbm, ⟨45, _⟩ => ⟨S8x500x4x1x1, .f32⟩
  | .hbm, ⟨46, _⟩ => ⟨S8x500x4x32x64, .f32⟩
  | .hbm, ⟨47, _⟩ => ⟨S8x500x4x32x64, .f32⟩
  | .hbm, ⟨48, _⟩ => ⟨S_, .f32⟩
  | .hbm, ⟨49, _⟩ => ⟨S8x500x4x1x1, .f32⟩
  | .hbm, ⟨50, _⟩ => ⟨S8x500x4x1x1, .f32⟩
  | .hbm, ⟨51, _⟩ => ⟨S8x500x4x1x1, .f32⟩
  | .hbm, ⟨52, _⟩ => ⟨S8x500x4x32x64, .f32⟩
  | .hbm, ⟨53, _⟩ => ⟨S8x500x4x32x64, .f32⟩
  | .hbm, ⟨54, _⟩ => ⟨S_, .f32⟩
  | .hbm, ⟨55, _⟩ => ⟨S8x500x4x32x64, .f32⟩
  | .hbm, ⟨56, _⟩ => ⟨S8x500x4x32x64, .f32⟩
  | .hbm, ⟨57, _⟩ => ⟨S8x500x4x128x64, .f32⟩
  | .hbm, ⟨58, _⟩ => ⟨S_, .f32⟩
  | .hbm, ⟨59, _⟩ => ⟨S8x500x4, .f32⟩
  | .hbm, ⟨60, _⟩ => ⟨S8x500x4x1x1, .f32⟩
  | .hbm, ⟨61, _⟩ => ⟨S_, .f32⟩
  | .hbm, ⟨62, _⟩ => ⟨S8x500x4x1x1, .f32⟩
  | .hbm, ⟨63, _⟩ => ⟨S8x500x4x1x1, .f32⟩
  | .hbm, ⟨64, _⟩ => ⟨S_, .i32⟩
  | .hbm, ⟨65, _⟩ => ⟨S_, .f32⟩
  | .hbm, ⟨66, _⟩ => ⟨S8x500x4, .f32⟩
  | .hbm, ⟨67, _⟩ => ⟨S8x500x4x1x1, .f32⟩
  | .hbm, ⟨68, _⟩ => ⟨S_, .f32⟩
  | .hbm, ⟨69, _⟩ => ⟨S8x500x4x1x1, .f32⟩
  | .hbm, ⟨70, _⟩ => ⟨S8x500x4x1x1, .f32⟩
  | .hbm, ⟨71, _⟩ => ⟨S8x500x4x128x64, .f32⟩
  | .hbm, ⟨72, _⟩ => ⟨S8x500x4x128x64, .f32⟩
  | .hbm, ⟨73, _⟩ => ⟨S8x500x4x128x64, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8x500x4, .f32⟩
  | .hbm, ⟨79, _⟩ => ⟨S8x500x4x1x1, .f32⟩
  | .hbm, ⟨80, _⟩ => ⟨S8x500x4x1x1, .f32⟩
  | .hbm, ⟨81, _⟩ => ⟨S8x500x4x1x1, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S8x500x4x1x1, .f32⟩
  | .hbm, ⟨87, _⟩ => ⟨S8x500x4x1x1, .f32⟩
  | .hbm, ⟨88, _⟩ => ⟨S8x500x4x128x64, .f32⟩
  | .hbm, ⟨89, _⟩ => ⟨S8x500x4x128x64, .f32⟩
  | .hbm, ⟨90, _⟩ => ⟨S_, .f32⟩
  | .hbm, ⟨91, _⟩ => ⟨S8x500x4x1x1, .f32⟩
  | .hbm, ⟨92, _⟩ => ⟨S8x500x4x1x1, .f32⟩
  | .hbm, ⟨93, _⟩ => ⟨S8x500x4x1x1, .f32⟩
  | .hbm, ⟨94, _⟩ => ⟨S8x500x4x128x64, .f32⟩
  | .hbm, ⟨95, _⟩ => ⟨S8x500x4x128x64, .f32⟩
  | .hbm, ⟨96, _⟩ => ⟨S_, .f32⟩
  | .hbm, ⟨97, _⟩ => ⟨S8x500x4x128x64, .f32⟩
  | .hbm, ⟨98, _⟩ => ⟨S8x500x4x128x64, .f32⟩
  | .hbm, ⟨99, _⟩ => ⟨S8x500x32768, .f32⟩
  | .hbm, ⟨100, _⟩ => ⟨S8x500x256, .f32⟩
  | .hbm, ⟨101, _⟩ => ⟨S1x1x256, .f32⟩
  | .hbm, ⟨102, _⟩ => ⟨S8x500x256, .f32⟩
  | .hbm, ⟨103, _⟩ => ⟨S8x500x256, .f32⟩
  | .hbm, ⟨104, _⟩ => ⟨S8x500x256, .f32⟩
  | _, _ => ⟨S8x500x4x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_1 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_call1_cst : Ref sig .tc := ⟨.hbm, 54, rfl⟩
abbrev main_call1_v0 : Ref sig .tc := ⟨.hbm, 55, rfl⟩
abbrev main_v22 : Ref sig .tc := ⟨.hbm, 56, rfl⟩
abbrev main_v23 : Ref sig .tc := ⟨.hbm, 57, rfl⟩
abbrev main_cst_2 : Ref sig .tc := ⟨.hbm, 58, rfl⟩
abbrev main_v24 : Ref sig .tc := ⟨.hbm, 59, rfl⟩
abbrev main_v25 : Ref sig .tc := ⟨.hbm, 60, rfl⟩
abbrev main_cst_3 : Ref sig .tc := ⟨.hbm, 61, rfl⟩
abbrev main_v26 : Ref sig .tc := ⟨.hbm, 62, rfl⟩
abbrev main_v27 : Ref sig .tc := ⟨.hbm, 63, rfl⟩
abbrev main_c_4 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_cst_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_cst_1 : Ref sig .tc := ⟨.hbm, 75, rfl⟩
abbrev main_call2_v8 : Ref sig .tc := ⟨.hbm, 76, rfl⟩
abbrev main_call2_cst_2 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_cst_3 : Ref sig .tc := ⟨.hbm, 82, rfl⟩
abbrev main_call2_v13 : Ref sig .tc := ⟨.hbm, 83, rfl⟩
abbrev main_call2_cst_4 : Ref sig .tc := ⟨.hbm, 84, rfl⟩
abbrev main_call2_call0_v0 : Ref sig .tc := ⟨.hbm, 85, rfl⟩
abbrev main_call2_call0_v1 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_cst_5 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_call3_cst : Ref sig .tc := ⟨.hbm, 96, rfl⟩
abbrev main_call3_v0 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩

abbrev nD : Nat := 1
abbrev τ : Topo := Topo.v7x

variable {F : FTy → Type} [FloatOps F]

class Facts₀ : Prop where
  bcast_S32768_S1x1x32768_2 : S32768.BroadcastsInDim S1x1x32768 (![2] : Fin 1 → Fin S1x1x32768.rank)
  bcast_S1x1x32768_S8x500x32768_0_1_2 : S1x1x32768.BroadcastsInDim S8x500x32768 (![0, 1, 2] : Fin 3 → Fin S8x500x32768.rank)
  shapeCasts_S8x500x32768_S8x500x4x8192 : S8x500x32768.ShapeCasts S8x500x4x8192
  slices_S8x500x4x8192_S8x500x4x4096_0_0_0_0 : S8x500x4x8192.Slices ![0, 0, 0, 0] S8x500x4x4096
  shapeCasts_S8x500x4x4096_S8x500x4x64x64 : S8x500x4x4096.ShapeCasts S8x500x4x64x64
  slices_S8x500x4x8192_S8x500x4x4096_0_0_0_4096 : S8x500x4x8192.Slices ![0, 0, 0, 4096] S8x500x4x4096
  shapeCasts_S8x500x4x4096_S8x500x4x128x32 : S8x500x4x4096.ShapeCasts S8x500x4x128x32
  reducesTo_S8x500x4x32x64_S8x500x4_d3_4 : S8x500x4x32x64.ReducesTo [3, 4] S8x500x4
  h_S_ : 0 < S_.numel
  bcast_S8x500x4_S8x500x4x1x1_0_1_2 : S8x500x4.BroadcastsInDim S8x500x4x1x1 (![0, 1, 2] : Fin 3 → Fin S8x500x4x1x1.rank)
  bcast_S_S8x500x4x1x1 : S_.BroadcastsInDim S8x500x4x1x1 (![] : Fin 0 → Fin S8x500x4x1x1.rank)
  bcast_S8x500x4x1x1_S8x500x4x32x64_0_1_2_3_4 : S8x500x4x1x1.BroadcastsInDim S8x500x4x32x64 (![0, 1, 2, 3, 4] : Fin 5 → Fin S8x500x4x32x64.rank)
  bcast_S_S8x500x4x32x64 : S_.BroadcastsInDim S8x500x4x32x64 (![] : Fin 0 → Fin S8x500x4x32x64.rank)
  reducesTo_S8x500x4x128x64_S8x500x4_d3_4 : S8x500x4x128x64.ReducesTo [3, 4] S8x500x4
  bcast_S8x500x4x1x1_S8x500x4x128x64_0_1_2_3_4 : S8x500x4x1x1.BroadcastsInDim S8x500x4x128x64 (![0, 1, 2, 3, 4] : Fin 5 → Fin S8x500x4x128x64.rank)
  bcast_S_S8x500x4x128x64 : S_.BroadcastsInDim S8x500x4x128x64 (![] : Fin 0 → Fin S8x500x4x128x64.rank)
  shapeCasts_S8x500x4x128x64_S8x500x32768 : S8x500x4x128x64.ShapeCasts S8x500x32768
  bcast_S256_S1x1x256_2 : S256.BroadcastsInDim S1x1x256 (![2] : Fin 1 → Fin S1x1x256.rank)
  bcast_S1x1x256_S8x500x256_0_1_2 : S1x1x256.BroadcastsInDim S8x500x256 (![0, 1, 2] : Fin 3 → Fin S8x500x256.rank)
  dot_S8x500x256_S32768x256_S8x500x32768_2_1_01_0_n_n_wf : DotDims.WF S8x500x256 S32768x256 S8x500x32768 [2] [1] [0, 1] [0] [] []
  dot_S8x500x4x32x64_S8x500x4x64x64_S8x500x4x32x64_4_3_3_4_012_012_wf : DotDims.WF S8x500x4x32x64 S8x500x4x64x64 S8x500x4x32x64 [4] [3] [3] [4] [0, 1, 2] [0, 1, 2]
  dot_S8x500x4x128x32_S8x500x4x32x64_S8x500x4x128x64_4_3_3_4_012_012_wf : DotDims.WF S8x500x4x128x32 S8x500x4x32x64 S8x500x4x128x64 [4] [3] [3] [4] [0, 1, 2] [0, 1, 2]
  dot_S8x500x32768_S256x32768_S8x500x256_2_1_01_0_n_n_wf : DotDims.WF S8x500x32768 S256x32768 S8x500x256 [2] [1] [0, 1] [0] [] []

variable [Facts₀]

def dot_S8x500x256_S32768x256_S8x500x32768_2_1_01_0_n_n : DotDims S8x500x256 S32768x256 S8x500x32768 where
  lhsContracting := [2]
  rhsContracting := [1]
  lhsNonContracting := [0, 1]
  rhsNonContracting := [0]
  lhsBatch := []
  rhsBatch := []
  wf := dot_S8x500x256_S32768x256_S8x500x32768_2_1_01_0_n_n_wf
def dot_S8x500x4x32x64_S8x500x4x64x64_S8x500x4x32x64_4_3_3_4_012_012 : DotDims S8x500x4x32x64 S8x500x4x64x64 S8x500x4x32x64 where
  lhsContracting := [4]
  rhsContracting := [3]
  lhsNonContracting := [3]
  rhsNonContracting := [4]
  lhsBatch := [0, 1, 2]
  rhsBatch := [0, 1, 2]
  wf := dot_S8x500x4x32x64_S8x500x4x64x64_S8x500x4x32x64_4_3_3_4_012_012_wf
def dot_S8x500x4x128x32_S8x500x4x32x64_S8x500x4x128x64_4_3_3_4_012_012 : DotDims S8x500x4x128x32 S8x500x4x32x64 S8x500x4x128x64 where
  lhsContracting := [4]
  rhsContracting := [3]
  lhsNonContracting := [3]
  rhsNonContracting := [4]
  lhsBatch := [0, 1, 2]
  rhsBatch := [0, 1, 2]
  wf := dot_S8x500x4x128x32_S8x500x4x32x64_S8x500x4x128x64_4_3_3_4_012_012_wf
def dot_S8x500x32768_S256x32768_S8x500x256_2_1_01_0_n_n : DotDims S8x500x32768 S256x32768 S8x500x256 where
  lhsContracting := [2]
  rhsContracting := [1]
  lhsNonContracting := [0, 1]
  rhsNonContracting := [0]
  lhsBatch := []
  rhsBatch := []
  wf := dot_S8x500x32768_S256x32768_S8x500x256_2_1_01_0_n_n_wf

class Facts : Prop extends Facts₀ where

variable [Facts]
-- ==== Proof.MixSpec.lean ====
/-
  The specification both programs are proved against: one row of an adaptive mixing layer, written over plain
  families indexed by `Fin`, on the extended reals.

  A row has a query vector q (256 entries) and, per group g of 4, a 32 x 64 tile of sampled features. A linear
  generator turns q into 32768 parameters (8192 per group): the first 4096 of a group are a 64 x 64 channel-mixing
  matrix M, the last 4096 a 128 x 32 point-mixing matrix S. The tile is multiplied by M, normalised over the whole
  tile and clipped at zero; S is applied, the result normalised over its 128 x 64 tile and clipped again; the four
  groups' tiles, flattened, go through the output projection, and the bias and the query are added.

  Sums are nested sums over each axis; a program that sums in another order or grouping is brought to this form by
  commutativity and associativity of addition on the extended reals alone.
-/
import Idealize.ShloMosaic.PureOps.Ideal
import Idealize.ShloMosaic.Lib.ValueIdx

noncomputable section

namespace Cert.Mix

open Idealize.ShloMosaic Idealize.ShloMosaic.ValueIdx

/-- Parameter j of group g among the 32768 generated ones. -/
def pIdx (g : Fin 4) (j : Fin 8192) : Fin 32768 := ⟨g.val * 8192 + j.val, by have := g.isLt; have := j.isLt; omega⟩
/-- Entry (c, d) of a group's channel-mixing matrix among its 8192 parameters. -/
def mIdx (c d : Fin 64) : Fin 8192 := ⟨c.val * 64 + d.val, by have := c.isLt; have := d.isLt; omega⟩
/-- Entry (o, p) of a group's point-mixing matrix among its 8192 parameters (after the 4096 of the channel matrix). -/
def sIdx (o : Fin 128) (p : Fin 32) : Fin 8192 := ⟨4096 + (o.val * 32 + p.val), by have := o.isLt; have := p.isLt; omega⟩
/-- Position of entry (o, c) of a group's 128 x 64 output tile when the tile is flattened. -/
def fIdx (o : Fin 128) (c : Fin 64) : Fin 8192 := ⟨o.val * 64 + c.val, by have := o.isLt; have := c.isLt; omega⟩

/-- One generated parameter: the query against one weight row, plus that row's bias. -/
def par (q : Fin 256 → EReal) (wp : Fin 32768 → Fin 256 → EReal) (bp : Fin 32768 → EReal) (j : Fin 32768) : EReal :=
  (∑ k : Fin 256, q k * wp j k) + bp j

/-- The mean of a tile: the sum of its entries divided by the count n. -/
def mean {P C : ℕ} (n : EReal) (t : Fin P → Fin C → EReal) : EReal := Ideal.div (∑ p : Fin P, ∑ c : Fin C, t p c) n

/-- A tile centred at its mean. -/
def centred {P C : ℕ} (n : EReal) (t : Fin P → Fin C → EReal) (p : Fin P) (c : Fin C) : EReal := t p c - mean n t

/-- Normalisation over the whole tile (no affine part), then the positive part: the centred entry times the reciprocal
    square root of the mean squared deviation plus eps, clipped at zero. -/
def lnRelu {P C : ℕ} (n eps : EReal) (t : Fin P → Fin C → EReal) (p : Fin P) (c : Fin C) : EReal :=
  max (centred n t p c * Ideal.rsqrt (mean n (fun a b => centred n t a b * centred n t a b) + eps)) 0

/-- The count of a 32 x 64 tile, of a 128 x 64 tile, and eps, as the f32 words both programs carry. -/
def n1 : EReal := Ideal.ofBits .f32 0x45000000#32
def n2 : EReal := Ideal.ofBits .f32 0x46000000#32
def eps : EReal := Ideal.ofBits .f32 0x3727C5AC#32

/-- Channel mixing of group g's tile by the generated 64 x 64 matrix. -/
def chan (q : Fin 256 → EReal) (x : Fin 4 → Fin 32 → Fin 64 → EReal) (wp : Fin 32768 → Fin 256 → EReal) (bp : Fin 32768 → EReal)
    (g : Fin 4) (p : Fin 32) (d : Fin 64) : EReal :=
  ∑ c : Fin 64, x g p c * par q wp bp (pIdx g (mIdx c d))

/-- The first stage's output: channel mixing, normalised and clipped. -/
def y1 (q : Fin 256 → EReal) (x : Fin 4 → Fin 32 → Fin 64 → EReal) (wp : Fin 32768 → Fin 256 → EReal) (bp : Fin 32768 → EReal)
    (g : Fin 4) : Fin 32 → Fin 64 → EReal := lnRelu n1 eps (chan q x wp bp g)

/-- Point mixing of the first stage's output by the generated 128 x 32 matrix. -/
def pnt (q : Fin 256 → EReal) (x : Fin 4 → Fin 32 → Fin 64 → EReal) (wp : Fin 32768 → Fin 256 → EReal) (bp : Fin 32768 → EReal)
    (g : Fin 4) (o : Fin 128) (c : Fin 64) : EReal :=
  ∑ p : Fin 32, par q wp bp (pIdx g (sIdx o p)) * y1 q x wp bp g p c

/-- The second stage's output: point mixing, normalised and clipped. -/
def y2 (q : Fin 256 → EReal) (x : Fin 4 → Fin 32 → Fin 64 → EReal) (wp : Fin 32768 → Fin 256 → EReal) (bp : Fin 32768 → EReal)
    (g : Fin 4) : Fin 128 → Fin 64 → EReal := lnRelu n2 eps (pnt q x wp bp g)

/-- Group g's contribution to output entry d: its flattened tile against the matching 8192 columns of the output weight. -/
def proj (q : Fin 256 → EReal) (x : Fin 4 → Fin 32 → Fin 64 → EReal) (wp : Fin 32768 → Fin 256 → EReal) (bp : Fin 32768 → EReal)
    (wo : Fin 256 → Fin 32768 → EReal) (g : Fin 4) (d : Fin 256) : EReal :=
  ∑ o : Fin 128, ∑ c : Fin 64, y2 q x wp bp g o c * wo d (pIdx g (fIdx o c))

/-- One row's result at entry d: the query entry plus (the four groups' contributions plus the output bias). -/
def res (q : Fin 256 → EReal) (x : Fin 4 → Fin 32 → Fin 64 → EReal) (wp : Fin 32768 → Fin 256 → EReal) (bp : Fin 32768 → EReal)
    (wo : Fin 256 → Fin 32768 → EReal) (bo : Fin 256 → EReal) (d : Fin 256) : EReal :=
  q d + ((∑ g : Fin 4, proj q x wp bp wo g d) + bo d)

/-! ## The result as one function of the six argument arrays -/

abbrev SX : Shape := ⟨5, ![8, 500, 4, 32, 64]⟩
abbrev SQ : Shape := ⟨3, ![8, 500, 256]⟩
abbrev SWp : Shape := ⟨2, ![32768, 256]⟩
abbrev SBp : Shape := ⟨1, ![32768]⟩
abbrev SWo : Shape := ⟨2, ![256, 32768]⟩
abbrev SBo : Shape := ⟨1, ![256]⟩
abbrev SFlat : Shape := ⟨2, ![4000, 256]⟩

/-- Row (b, n) of the query array. -/
def qRow (Q : SQ.Idx → EReal) (b : Fin 8) (n : Fin 500) : Fin 256 → EReal := fun k => Q (ix3 b n k)
/-- Row (b, n) of the feature array. -/
def xRow (X : SX.Idx → EReal) (b : Fin 8) (n : Fin 500) : Fin 4 → Fin 32 → Fin 64 → EReal := fun g p c => X (ix5 b n g p c)
def wpOf (Wp : SWp.Idx → EReal) : Fin 32768 → Fin 256 → EReal := fun j k => Wp (ix2 j k)
def bpOf (Bp : SBp.Idx → EReal) : Fin 32768 → EReal := fun j => Bp (ix1 j)
def woOf (Wo : SWo.Idx → EReal) : Fin 256 → Fin 32768 → EReal := fun d f => Wo (ix2 d f)
def boOf (Bo : SBo.Idx → EReal) : Fin 256 → EReal := fun d => Bo (ix1 d)

/-- The result at row (b, n), entry d. -/
def at3 (X : SX.Idx → EReal) (Q : SQ.Idx → EReal) (Wp : SWp.Idx → EReal) (Bp : SBp.Idx → EReal) (Wo : SWo.Idx → EReal)
    (Bo : SBo.Idx → EReal) (b : Fin 8) (n : Fin 500) (d : Fin 256) : EReal :=
  res (qRow Q b n) (xRow X b n) (wpOf Wp) (bpOf Bp) (woOf Wo) (boOf Bo) d

/-- The whole result array, [8, 500, 256]. -/
def G (X : SX.Idx → EReal) (Q : SQ.Idx → EReal) (Wp : SWp.Idx → EReal) (Bp : SBp.Idx → EReal) (Wo : SWo.Idx → EReal)
    (Bo : SBo.Idx → EReal) : SQ.Idx → EReal :=
  fun i => at3 X Q Wp Bp Wo Bo (i 0) (i 1) (i 2)

theorem G_ix3 (X : SX.Idx → EReal) (Q : SQ.Idx → EReal) (Wp : SWp.Idx → EReal) (Bp : SBp.Idx → EReal) (Wo : SWo.Idx → EReal)
    (Bo : SBo.Idx → EReal) (b : Fin 8) (n : Fin 500) (d : Fin 256) :
    G X Q Wp Bp Wo Bo (ix3 b n d) = at3 X Q Wp Bp Wo Bo b n d := rfl

/-- The batch and the position of flat row r among 4000 = 8 x 500. -/
def rowB (r : Fin 4000) : Fin 8 := ⟨r.val / 500, by have := r.isLt; omega⟩
def rowN (r : Fin 4000) : Fin 500 := ⟨r.val % 500, Nat.mod_lt _ (by decide)⟩

/-- The same result with the two leading axes flattened, [4000, 256]: row r is row (r / 500, r % 500). -/
def GFlat (X : SX.Idx → EReal) (Q : SQ.Idx → EReal) (Wp : SWp.Idx → EReal) (Bp : SBp.Idx → EReal) (Wo : SWo.Idx → EReal)
    (Bo : SBo.Idx → EReal) : SFlat.Idx → EReal :=
  fun i => at3 X Q Wp Bp Wo Bo (rowB (i 0)) (rowN (i 0)) (i 1)

theorem GFlat_ix2 (X : SX.Idx → EReal) (Q : SQ.Idx → EReal) (Wp : SWp.Idx → EReal) (Bp : SBp.Idx → EReal) (Wo : SWo.Idx → EReal)
    (Bo : SBo.Idx → EReal) (r : Fin 4000) (d : Fin 256) :
    GFlat X Q Wp Bp Wo Bo (ix2 r d) = at3 X Q Wp Bp Wo Bo (rowB r) (rowN r) d := rfl

/-! ## Sums over a flattened pair of axes -/

/-- A sum over the a*b positions of a flattened [a, b] tile is the nested sum over rows and columns. -/
theorem sum_fin_mul {M : Type*} [AddCommMonoid M] (a b : ℕ) (h : Fin (a * b) → M) :
    ∑ f : Fin (a * b), h f
      = ∑ i : Fin a, ∑ j : Fin b, h ⟨i.val * b + j.val, by
          have hi := i.isLt; have hj := j.isLt
          calc i.val * b + j.val < i.val * b + b := by omega
            _ = (i.val + 1) * b := by ring
            _ ≤ a * b := Nat.mul_le_mul_right b hi⟩ := by
  rw [← finProdFinEquiv.sum_comp, Fintype.sum_prod_type]
  refine Finset.sum_congr rfl fun i _ => Finset.sum_congr rfl fun j _ => ?_
  refine congrArg h (Fin.ext ?_)
  simp only [finProdFinEquiv_apply_val]
  ring

end Cert.Mix

end
-- ==== Proof.MixKernelSide.lean ====
/-
  The kernel is handed the generator's weight and bias in two halves (the rows of each group's channel-mixing matrix
  stacked, and the rows of each group's point-mixing matrix stacked) and the output weight with the group axis in
  front. These definitions read the three back as the single families the specification is written over.
-/
import proofs.«133475_j28819230556787_2_alg».proof.Proof.MixSpec

noncomputable section

namespace Cert.Mix

open Idealize.ShloMosaic Idealize.ShloMosaic.ValueIdx

abbrev SHalfW : Shape := ⟨2, ![16384, 256]⟩
abbrev SHalfB : Shape := ⟨1, ![16384]⟩
abbrev SWoG : Shape := ⟨3, ![4, 256, 8192]⟩

/-- Row j of the generator's weight from the two halves: group j / 8192, and inside the group the first 4096 rows
    come from the first half, the last 4096 from the second. -/
def wpK (a b : SHalfW.Idx → EReal) (j : Fin 32768) (k : Fin 256) : EReal :=
  if j.val % 8192 < 4096 then
    a (ix2 ⟨j.val / 8192 * 4096 + j.val % 8192 % 4096, by have := j.isLt; omega⟩ k)
  else
    b (ix2 ⟨j.val / 8192 * 4096 + j.val % 8192 % 4096, by have := j.isLt; omega⟩ k)

/-- Entry j of the generator's bias from its two halves, in the same way. -/
def bpK (a b : SHalfB.Idx → EReal) (j : Fin 32768) : EReal :=
  if j.val % 8192 < 4096 then
    a (ix1 ⟨j.val / 8192 * 4096 + j.val % 8192 % 4096, by have := j.isLt; omega⟩)
  else
    b (ix1 ⟨j.val / 8192 * 4096 + j.val % 8192 % 4096, by have := j.isLt; omega⟩)

/-- Entry (d, f) of the output weight from the array with the group axis in front. -/
def woK (w : SWoG.Idx → EReal) (d : Fin 256) (f : Fin 32768) : EReal :=
  w (ix3 ⟨f.val / 8192, by have := f.isLt; omega⟩ d ⟨f.val % 8192, Nat.mod_lt _ (by decide)⟩)

theorem wpK_m (a b : SHalfW.Idx → EReal) (g : Fin 4) (c d : Fin 64) (k : Fin 256) :
    wpK a b (pIdx g (mIdx c d)) k
      = a (ix2 ⟨g.val * 4096 + (c.val * 64 + d.val), by have := g.isLt; have := c.isLt; have := d.isLt; omega⟩ k) := by
  have hg := g.isLt; have hc := c.isLt; have hd := d.isLt
  unfold wpK pIdx mIdx
  have h1 : (g.val * 8192 + (c.val * 64 + d.val)) % 8192 = c.val * 64 + d.val := by omega
  have h2 : (g.val * 8192 + (c.val * 64 + d.val)) / 8192 = g.val := by omega
  simp only [h1, h2]
  rw [if_pos (by omega)]
  refine congrArg a (congrArg (fun z => ix2 z k) (Fin.ext ?_))
  show g.val * 4096 + (c.val * 64 + d.val) % 4096 = g.val * 4096 + (c.val * 64 + d.val)
  omega

theorem wpK_s (a b : SHalfW.Idx → EReal) (g : Fin 4) (o : Fin 128) (p : Fin 32) (k : Fin 256) :
    wpK a b (pIdx g (sIdx o p)) k
      = b (ix2 ⟨g.val * 4096 + (o.val * 32 + p.val), by have := g.isLt; have := o.isLt; have := p.isLt; omega⟩ k) := by
  have hg := g.isLt; have ho := o.isLt; have hp := p.isLt
  unfold wpK pIdx sIdx
  have h1 : (g.val * 8192 + (4096 + (o.val * 32 + p.val))) % 8192 = 4096 + (o.val * 32 + p.val) := by omega
  have h2 : (g.val * 8192 + (4096 + (o.val * 32 + p.val))) / 8192 = g.val := by omega
  simp only [h1, h2]
  rw [if_neg (by omega)]
  refine congrArg b (congrArg (fun z => ix2 z k) (Fin.ext ?_))
  show g.val * 4096 + (4096 + (o.val * 32 + p.val)) % 4096 = g.val * 4096 + (o.val * 32 + p.val)
  omega

theorem bpK_m (a b : SHalfB.Idx → EReal) (g : Fin 4) (c d : Fin 64) :
    bpK a b (pIdx g (mIdx c d))
      = a (ix1 ⟨g.val * 4096 + (c.val * 64 + d.val), by have := g.isLt; have := c.isLt; have := d.isLt; omega⟩) := by
  have hg := g.isLt; have hc := c.isLt; have hd := d.isLt
  unfold bpK pIdx mIdx
  have h1 : (g.val * 8192 + (c.val * 64 + d.val)) % 8192 = c.val * 64 + d.val := by omega
  have h2 : (g.val * 8192 + (c.val * 64 + d.val)) / 8192 = g.val := by omega
  simp only [h1, h2]
  rw [if_pos (by omega)]
  refine congrArg a (congrArg (fun z => ix1 z) (Fin.ext ?_))
  show g.val * 4096 + (c.val * 64 + d.val) % 4096 = g.val * 4096 + (c.val * 64 + d.val)
  omega

theorem bpK_s (a b : SHalfB.Idx → EReal) (g : Fin 4) (o : Fin 128) (p : Fin 32) :
    bpK a b (pIdx g (sIdx o p))
      = b (ix1 ⟨g.val * 4096 + (o.val * 32 + p.val), by have := g.isLt; have := o.isLt; have := p.isLt; omega⟩) := by
  have hg := g.isLt; have ho := o.isLt; have hp := p.isLt
  unfold bpK pIdx sIdx
  have h1 : (g.val * 8192 + (4096 + (o.val * 32 + p.val))) % 8192 = 4096 + (o.val * 32 + p.val) := by omega
  have h2 : (g.val * 8192 + (4096 + (o.val * 32 + p.val))) / 8192 = g.val := by omega
  simp only [h1, h2]
  rw [if_neg (by omega)]
  refine congrArg b (congrArg (fun z => ix1 z) (Fin.ext ?_))
  show g.val * 4096 + (4096 + (o.val * 32 + p.val)) % 4096 = g.val * 4096 + (o.val * 32 + p.val)
  omega

theorem woK_f (w : SWoG.Idx → EReal) (d : Fin 256) (g : Fin 4) (o : Fin 128) (c : Fin 64) :
    woK w d (pIdx g (fIdx o c))
      = w (ix3 g d ⟨o.val * 64 + c.val, by have := o.isLt; have := c.isLt; omega⟩) := by
  have hg := g.isLt; have ho := o.isLt; have hc := c.isLt
  unfold woK pIdx fIdx
  refine congrArg w ?_
  have e1 : (⟨(g.val * 8192 + (o.val * 64 + c.val)) / 8192, by omega⟩ : Fin 4) = g := Fin.ext (by show (g.val * 8192 + (o.val * 64 + c.val)) / 8192 = g.val; omega)
  have e2 : (⟨(g.val * 8192 + (o.val * 64 + c.val)) % 8192, Nat.mod_lt _ (by decide)⟩ : Fin 8192) = ⟨o.val * 64 + c.val, by omega⟩ :=
    Fin.ext (by show (g.val * 8192 + (o.val * 64 + c.val)) % 8192 = o.val * 64 + c.val; omega)
  rw [e1, e2]

end Cert.Mix

end
-- ==== Proof.KHost.lean ====
/-
  The arrays the region finds in its windows, read at an index in terms of the six argument arrays.

  Before the region the host reshapes the query to [4000, 256] and the features to [4000, 4, 32, 64] (row r of the
  flat arrays is row (r / 500, r % 500)), cuts the generator's weight and bias, seen as 4 groups of 8192 rows, into
  the first and the last 4096 rows of every group, and brings the group axis of the output weight to the front. Read
  back through Cert.Mix.wpK, bpK and woK, the cut and regrouped arrays are the original weight, bias and output weight.
-/
import proofs.«133475_j28819230556787_2_alg».proof.Proof.Gen.KernelIdeal.Frame
import proofs.«133475_j28819230556787_2_alg».proof.Proof.MixKernelSide
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx

/-! ## The host's layout chains as functions of one array, and each read at an index -/

/-- Row r of the query flattened to [4000, 256] is row (r / 500, r % 500). -/
theorem flatQ_apply (Q : S8x500x256.Idx → EReal) (h : S8x500x256.ShapeCasts S4000x256) (r : Fin 4000) (k : Fin 256) :
    shapeCast S4000x256 Q h (ix2 r k) = Q (ix3 (Cert.Mix.rowB r) (Cert.Mix.rowN r) k) := by
  refine shapeCast_apply Q h _ _ ?_
  rw [Shape.rowMajor_val_three, Shape.rowMajor_val_two]
  show (r.val / 500 * 500 + r.val % 500) * 256 + k.val = r.val * 256 + k.val
  omega

/-- Row r of the features flattened to [4000, 4, 32, 64] is row (r / 500, r % 500). -/
theorem flatX_apply (X : S8x500x4x32x64.Idx → EReal) (h : S8x500x4x32x64.ShapeCasts S4000x4x32x64) (r : Fin 4000) (g : Fin 4)
    (p : Fin 32) (c : Fin 64) :
    shapeCast S4000x4x32x64 X h (ix4 r g p c) = X (ix5 (Cert.Mix.rowB r) (Cert.Mix.rowN r) g p c) := by
  refine shapeCast_apply X h _ _ ?_
  rw [Shape.rowMajor_val_five, Shape.rowMajor_val_four]
  show ((((r.val / 500 * 500 + r.val % 500) * 4 + g.val) * 32 + p.val) * 64 + c.val) = ((r.val * 4 + g.val) * 32 + p.val) * 64 + c.val
  omega

/-- The rows o … o + 4095 of every group of the generator's weight, stacked: [16384, 256]. -/
def halfW (o : Nat) (hs : S4x8192x256.Slices ![0, o, 0] S4x4096x256) (Wp : FVec Ideal S32768x256 .f32) : FVec Ideal S16384x256 .bf16 :=
  truncf .bf16 (shapeCast S16384x256 (extractStridedSlice S4x4096x256 ![0, o, 0]
    (shapeCast S4x8192x256 Wp shapeCasts_S32768x256_S4x8192x256) hs) shapeCasts_S4x4096x256_S16384x256) bitsLt_bf16_f32

/-- Row j of that stack is row o + j % 4096 of group j / 4096. -/
theorem halfW_apply (o : Nat) (ho : o + 4096 ≤ 8192) (hs : S4x8192x256.Slices ![0, o, 0] S4x4096x256) (Wp : FVec Ideal S32768x256 .f32)
    (j : Fin 16384) (k : Fin 256) :
    halfW o hs Wp (ix2 j k) = Wp (ix2 ⟨j.val / 4096 * 8192 + (o + j.val % 4096), by have := j.isLt; omega⟩ k) := by
  have hj := j.isLt
  unfold halfW
  rw [truncf_apply]
  refine (shapeCast_apply _ shapeCasts_S4x4096x256_S16384x256 (ix2 j k)
    (ix3 (⟨j.val / 4096, by omega⟩ : Fin 4) (⟨j.val % 4096, by omega⟩ : Fin 4096) k) ?_).trans ?_
  · rw [Shape.rowMajor_val_three, Shape.rowMajor_val_two]
    show (j.val / 4096 * 4096 + j.val % 4096) * 256 + k.val = j.val * 256 + k.val
    omega
  refine (extractStridedSlice_apply _ _ hs _
    (ix3 (⟨j.val / 4096, by omega⟩ : Fin 4) (⟨o + j.val % 4096, by omega⟩ : Fin 8192) k) (fun a => ?_)).trans ?_
  · match a with
    | ⟨0, _⟩ => show j.val / 4096 = 0 + j.val / 4096; omega
    | ⟨1, _⟩ => rfl
    | ⟨2, _⟩ => show k.val = 0 + k.val; omega
  refine shapeCast_apply Wp shapeCasts_S32768x256_S4x8192x256 _ _ ?_
  rw [Shape.rowMajor_val_three, Shape.rowMajor_val_two]
  show (j.val / 4096 * 8192 + (o + j.val % 4096)) * 256 + k.val = (j.val / 4096 * 8192 + (o + j.val % 4096)) * 256 + k.val
  rfl

/-- The two halves, read back as one family, are the generator's weight. -/
theorem wpK_halfW (hs0 : S4x8192x256.Slices ![0, 0, 0] S4x4096x256) (hs1 : S4x8192x256.Slices ![0, 4096, 0] S4x4096x256)
    (Wp : FVec Ideal S32768x256 .f32) : Cert.Mix.wpK (halfW 0 hs0 Wp) (halfW 4096 hs1 Wp) = Cert.Mix.wpOf Wp := by
  funext j k
  have hj := j.isLt
  unfold Cert.Mix.wpK Cert.Mix.wpOf
  split
  · rename_i hlt
    rw [halfW_apply 0 (by omega)]
    refine congrArg Wp (congrArg (fun z => ix2 z k) (Fin.ext ?_))
    show (j.val / 8192 * 4096 + j.val % 8192 % 4096) / 4096 * 8192 + (0 + (j.val / 8192 * 4096 + j.val % 8192 % 4096) % 4096) = j.val
    omega
  · rename_i hge
    rw [halfW_apply 4096 (by omega)]
    refine congrArg Wp (congrArg (fun z => ix2 z k) (Fin.ext ?_))
    show (j.val / 8192 * 4096 + j.val % 8192 % 4096) / 4096 * 8192 + (4096 + (j.val / 8192 * 4096 + j.val % 8192 % 4096) % 4096) = j.val
    omega

/-- The entries o … o + 4095 of every group of the generator's bias, stacked: [16384]. -/
def halfB (o : Nat) (hs : S4x8192.Slices ![0, o] S4x4096) (Bp : FVec Ideal S32768 .f32) : FVec Ideal S16384 .f32 :=
  shapeCast S16384 (extractStridedSlice S4x4096 ![0, o] (shapeCast S4x8192 Bp shapeCasts_S32768_S4x8192) hs) shapeCasts_S4x4096_S16384

theorem halfB_apply (o : Nat) (ho : o + 4096 ≤ 8192) (hs : S4x8192.Slices ![0, o] S4x4096) (Bp : FVec Ideal S32768 .f32) (j : Fin 16384) :
    halfB o hs Bp (ix1 j) = Bp (ix1 ⟨j.val / 4096 * 8192 + (o + j.val % 4096), by have := j.isLt; omega⟩) := by
  have hj := j.isLt
  unfold halfB
  refine (shapeCast_apply _ shapeCasts_S4x4096_S16384 (ix1 j)
    (ix2 (⟨j.val / 4096, by omega⟩ : Fin 4) (⟨j.val % 4096, by omega⟩ : Fin 4096)) ?_).trans ?_
  · rw [Shape.rowMajor_val_two, Shape.rowMajor_val_one]
    show j.val / 4096 * 4096 + j.val % 4096 = j.val
    omega
  refine (extractStridedSlice_apply _ _ hs _
    (ix2 (⟨j.val / 4096, by omega⟩ : Fin 4) (⟨o + j.val % 4096, by omega⟩ : Fin 8192)) (fun a => ?_)).trans ?_
  · match a with
    | ⟨0, _⟩ => show j.val / 4096 = 0 + j.val / 4096; omega
    | ⟨1, _⟩ => rfl
  refine shapeCast_apply Bp shapeCasts_S32768_S4x8192 _ _ ?_
  rw [Shape.rowMajor_val_two, Shape.rowMajor_val_one]
  rfl

theorem bpK_halfB (hs0 : S4x8192.Slices ![0, 0] S4x4096) (hs1 : S4x8192.Slices ![0, 4096] S4x4096)
    (Bp : FVec Ideal S32768 .f32) : Cert.Mix.bpK (halfB 0 hs0 Bp) (halfB 4096 hs1 Bp) = Cert.Mix.bpOf Bp := by
  funext j
  have hj := j.isLt
  unfold Cert.Mix.bpK Cert.Mix.bpOf
  split
  · rename_i hlt
    rw [halfB_apply 0 (by omega)]
    refine congrArg Bp (congrArg (fun z => ix1 z) (Fin.ext ?_))
    show (j.val / 8192 * 4096 + j.val % 8192 % 4096) / 4096 * 8192 + (0 + (j.val / 8192 * 4096 + j.val % 8192 % 4096) % 4096) = j.val
    omega
  · rename_i hge
    rw [halfB_apply 4096 (by omega)]
    refine congrArg Bp (congrArg (fun z => ix1 z) (Fin.ext ?_))
    show (j.val / 8192 * 4096 + j.val % 8192 % 4096) / 4096 * 8192 + (4096 + (j.val / 8192 * 4096 + j.val % 8192 % 4096) % 4096) = j.val
    omega

/-- The output weight with its 32768 columns seen as 4 groups of 8192 and the group axis in front: [4, 256, 8192]. -/
def groupWo (Wo : FVec Ideal S256x32768 .f32) : FVec Ideal S4x256x8192 .bf16 :=
  truncf .bf16 (transpose S4x256x8192 [1, 0, 2] (shapeCast S256x4x8192 Wo shapeCasts_S256x32768_S256x4x8192)
    transposes_S256x4x8192_S4x256x8192_1_0_2) bitsLt_bf16_f32

theorem groupWo_apply (Wo : FVec Ideal S256x32768 .f32) (g : Fin 4) (d : Fin 256) (f : Fin 8192) :
    groupWo Wo (ix3 g d f) = Wo (ix2 d ⟨g.val * 8192 + f.val, by have := g.isLt; have := f.isLt; omega⟩) := by
  unfold groupWo
  rw [truncf_apply]
  refine (transpose_apply _ _ transposes_S256x4x8192_S4x256x8192_1_0_2 (ix3 g d f) (ix3 d g f) (fun b => ?_)).trans ?_
  · match b with
    | ⟨0, _⟩ => rfl
    | ⟨1, _⟩ => rfl
    | ⟨2, _⟩ => rfl
  refine shapeCast_apply Wo shapeCasts_S256x32768_S256x4x8192 _ _ ?_
  rw [Shape.rowMajor_val_three, Shape.rowMajor_val_two]
  show d.val * 32768 + (g.val * 8192 + f.val) = (d.val * 4 + g.val) * 8192 + f.val
  omega

theorem woK_groupWo (Wo : FVec Ideal S256x32768 .f32) : Cert.Mix.woK (groupWo Wo) = Cert.Mix.woOf Wo := by
  funext d f
  have hf := f.isLt
  unfold Cert.Mix.woK Cert.Mix.woOf
  rw [groupWo_apply]
  refine congrArg Wo (congrArg (fun z => ix2 d z) (Fin.ext ?_))
  show f.val / 8192 * 8192 + f.val % 8192 = f.val
  omega

/-! ## The windows' arrays as the region finds them -/

variable (m : (ℓ : Loc nD τ sig) → Buf (Elt Ideal) ℓ)

/-- Window 0's array: the query, flattened. -/
theorem V_v1 (c : Dev nD) :
    (V m c main_v1 : S4000x256.Idx → EReal)
      = shapeCast S4000x256 (m ((c : Thread nD τ).loc main_arg1) : S8x500x256.Idx → EReal) shapeCasts_S8x500x256_S4000x256 := by
  show StableHlo.after hostOps0 (fun b => m (c, b)) (Proc.devRef .tc main_v1) = _
  after_results
  rfl

/-- Window 1's array: the features, flattened. -/
theorem V_v0 (c : Dev nD) :
    (V m c main_v0 : S4000x4x32x64.Idx → EReal)
      = shapeCast S4000x4x32x64 (m ((c : Thread nD τ).loc main_arg0) : S8x500x4x32x64.Idx → EReal) shapeCasts_S8x500x4x32x64_S4000x4x32x64 := by
  show StableHlo.after hostOps0 (fun b => m (c, b)) (Proc.devRef .tc main_v0) = _
  after_results
  rfl

/-- Window 2's array: the first halves of the groups of the generator's weight. -/
theorem V_v5 (c : Dev nD) :
    (V m c main_v5 : S16384x256.Idx → EReal)
      = halfW 0 slices_S4x8192x256_S4x4096x256_0_0_0 (m ((c : Thread nD τ).loc main_arg2) : S32768x256.Idx → EReal) := by
  show StableHlo.after hostOps0 (fun b => m (c, b)) (Proc.devRef .tc main_v5) = _
  after_results
  rfl

/-- Window 3's array: the second halves. -/
theorem V_v8 (c : Dev nD) :
    (V m c main_v8 : S16384x256.Idx → EReal)
      = halfW 4096 slices_S4x8192x256_S4x4096x256_0_4096_0 (m ((c : Thread nD τ).loc main_arg2) : S32768x256.Idx → EReal) := by
  show StableHlo.after hostOps0 (fun b => m (c, b)) (Proc.devRef .tc main_v8) = _
  after_results
  rfl

/-- Window 4's array: the first halves of the groups of the generator's bias. -/
theorem V_v11 (c : Dev nD) :
    (V m c main_v11 : S16384.Idx → EReal)
      = halfB 0 slices_S4x8192_S4x4096_0_0 (m ((c : Thread nD τ).loc main_arg3) : S32768.Idx → EReal) := by
  show StableHlo.after hostOps0 (fun b => m (c, b)) (Proc.devRef .tc main_v11) = _
  after_results
  rfl

/-- Window 5's array: the second halves. -/
theorem V_v13 (c : Dev nD) :
    (V m c main_v13 : S16384.Idx → EReal)
      = halfB 4096 slices_S4x8192_S4x4096_0_4096 (m ((c : Thread nD τ).loc main_arg3) : S32768.Idx → EReal) := by
  show StableHlo.after hostOps0 (fun b => m (c, b)) (Proc.devRef .tc main_v13) = _
  after_results
  rfl

/-- Window 6's array: the output weight, group axis in front. -/
theorem V_v16 (c : Dev nD) :
    (V m c main_v16 : S4x256x8192.Idx → EReal)
      = groupWo (m ((c : Thread nD τ).loc main_arg4) : S256x32768.Idx → EReal) := by
  show StableHlo.after hostOps0 (fun b => m (c, b)) (Proc.devRef .tc main_v16) = _
  after_results
  rfl

end Cert.KernelIdeal.KValue

end
-- ==== Proof.KBlocks.lean ====
/-
  The windows' blocks at a grid point, read in terms of the six argument arrays.

  The grid has 125 points. At point t the query window, the feature window and the output window hold rows
  32 t … 32 t + 31 of their flat arrays; the five weight and bias windows and the output-bias window hold their whole
  array at every point. So at point t, row r of the query block is row (32 t + r) of the flattened query, that is row
  ((32 t + r) / 500, (32 t + r) % 500) of the query, and likewise for the features; and the weight, bias and
  output-weight blocks, read back as single families, are the generator's weight and bias and the output weight.
-/
import proofs.«133475_j28819230556787_2_alg».proof.Proof.KHost

noncomputable section

namespace Cert.KernelIdeal.KValue

open Cert.KernelIdeal Cert.KernelIdeal.Gen Idealize.ShloMosaic Idealize.ShloMosaic.TcCoe Idealize.SL.Sem
open Idealize.ShloMosaic.ValueIdx

/-! ## The index maps over the grid -/

/-- The three row-blocked windows take block t at point t. -/
theorem idx_rows : ∀ t : Fin cfg0.N, win0_0.index t (0 : Fin 2) = t.val ∧ win0_0.index t (1 : Fin 2) = 0
    ∧ win0_1.index t (0 : Fin 4) = t.val ∧ win0_1.index t (1 : Fin 4) = 0 ∧ win0_1.index t (2 : Fin 4) = 0
    ∧ win0_1.index t (3 : Fin 4) = 0
    ∧ win0_8.index t (0 : Fin 2) = t.val ∧ win0_8.index t (1 : Fin 2) = 0 :=
  (by decide +kernel : ∀ t : Fin grid0.N, _)

/-- The other windows take block 0, their whole array, at every point. -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 3) = 0 ∧ win0_6.index t (1 : Fin 3) = 0 ∧ win0_6.index t (2 : Fin 3) = 0
    ∧ win0_7.index t (0 : Fin 1) = 0 :=
  (by decide +kernel : ∀ t : Fin grid0.N, _)

/-- A point's number is below 125. -/
theorem point_lt (t : Fin cfg0.N) : t.val < 125 := Nat.lt_of_lt_of_eq t.isLt N_0

/-- Row r of the block at point t is row 32 t + r of the flat array. -/
def rowAt (t : Fin cfg0.N) (r : Fin 32) : Fin 4000 :=
  ⟨32 * t.val + r.val, by have := point_lt t; have := r.isLt; omega⟩

variable (m : (ℓ : Loc nD τ sig) → Buf (Elt Ideal) ℓ)

/-! ## The row-blocked inputs -/

/-- An entry of the query block at point t is the entry of the flattened query 32 t rows further down. -/
theorem blk0_apply (c : Dev nD) (t : Fin cfg0.N) (x : S32x256.Idx) (k : S4000x256.Idx)
    (hk0 : (k 0).val = 32 * t.val + (x 0).val) (hk1 : (k 1).val = (x 1).val) :
    (iblk m c 0 t : Vec Ideal S32x256 .f32) x = (V m c main_v1 : S4000x256.Idx → EReal) k := by
  obtain ⟨e0, e1, -⟩ := idx_rows t
  unfold iblk
  rw [View.read_apply]
  show V m c main_v1 _ = V m c main_v1 _
  congr 1
  funext a
  apply Fin.ext
  match a with
  | ⟨0, _⟩ => show win0_0.index t 0 * 32 + 1 * (x 0).val = (k 0).val; rw [e0, hk0]; omega
  | ⟨1, _⟩ => show win0_0.index t 1 * 256 + 1 * (x 1).val = (k 1).val; rw [e1, hk1]; omega

/-- Row r of the query block at point t is the query's row (32 t + r) / 500, (32 t + r) % 500. -/
theorem blk_q (c : Dev nD) (t : Fin cfg0.N) (r : Fin 32) :
    (fun k : Fin 256 => (iblk m c 0 t : Vec Ideal S32x256 .f32) (ix2 r k))
      = Cert.Mix.qRow (m ((c : Thread nD τ).loc main_arg1)) (Cert.Mix.rowB (rowAt t r)) (Cert.Mix.rowN (rowAt t r)) := by
  funext k
  rw [blk0_apply m c t (ix2 r k) (ix2 (rowAt t r) k) rfl rfl, V_v1, flatQ_apply]
  rfl

/-- An entry of the feature block at point t is the entry of the flattened features 32 t rows further down. -/
theorem blk1_apply (c : Dev nD) (t : Fin cfg0.N) (x : S32x4x32x64.Idx) (k : S4000x4x32x64.Idx)
    (hk0 : (k 0).val = 32 * t.val + (x 0).val) (hk1 : (k 1).val = (x 1).val) (hk2 : (k 2).val = (x 2).val)
    (hk3 : (k 3).val = (x 3).val) :
    (iblk m c 1 t : Vec Ideal S32x4x32x64 .f32) x = (V m c main_v0 : S4000x4x32x64.Idx → EReal) k := by
  obtain ⟨-, -, e0, e1, e2, e3, -⟩ := idx_rows t
  unfold iblk
  rw [View.read_apply]
  show V m c main_v0 _ = V m c main_v0 _
  congr 1
  funext a
  apply Fin.ext
  match a with
  | ⟨0, _⟩ => show win0_1.index t 0 * 32 + 1 * (x 0).val = (k 0).val; rw [e0, hk0]; omega
  | ⟨1, _⟩ => show win0_1.index t 1 * 4 + 1 * (x 1).val = (k 1).val; rw [e1, hk1]; omega
  | ⟨2, _⟩ => show win0_1.index t 2 * 32 + 1 * (x 2).val = (k 2).val; rw [e2, hk2]; omega
  | ⟨3, _⟩ => show win0_1.index t 3 * 64 + 1 * (x 3).val = (k 3).val; rw [e3, hk3]; omega

/-- Row r of the feature block at point t is the features' row (32 t + r) / 500, (32 t + r) % 500. -/
theorem blk_x (c : Dev nD) (t : Fin cfg0.N) (r : Fin 32) :
    (fun (g : Fin 4) (p : Fin 32) (c' : Fin 64) => (iblk m c 1 t : Vec Ideal S32x4x32x64 .f32) (ix4 r g p c'))
      = Cert.Mix.xRow (m ((c : Thread nD τ).loc main_arg0)) (Cert.Mix.rowB (rowAt t r)) (Cert.Mix.rowN (rowAt t r)) := by
  funext g p c'
  rw [blk1_apply m c t (ix4 r g p c') (ix4 (rowAt t r) g p c') rfl rfl rfl rfl, V_v0, flatX_apply]
  rfl

/-! ## The windows that hold their whole array -/

theorem blk2_eq (c : Dev nD) (t : Fin cfg0.N) :
    (iblk m c 2 t : Vec Ideal S16384x256 .bf16) = (V m c main_v5 : S16384x256.Idx → EReal) := by
  obtain ⟨e0, e1, -⟩ := idx_whole t
  funext x
  unfold iblk
  rw [View.read_apply]
  show V m c main_v5 _ = V m c main_v5 x
  congr 1
  funext a
  apply Fin.ext
  match a with
  | ⟨0, _⟩ => show win0_2.index t 0 * 16384 + 1 * (x 0).val = (x 0).val; rw [e0]; omega
  | ⟨1, _⟩ => show win0_2.index t 1 * 256 + 1 * (x 1).val = (x 1).val; rw [e1]; omega

theorem blk3_eq (c : Dev nD) (t : Fin cfg0.N) :
    (iblk m c 3 t : Vec Ideal S16384x256 .bf16) = (V m c main_v8 : S16384x256.Idx → EReal) := by
  obtain ⟨-, -, e0, e1, -⟩ := idx_whole t
  funext x
  unfold iblk
  rw [View.read_apply]
  show V m c main_v8 _ = V m c main_v8 x
  congr 1
  funext a
  apply Fin.ext
  match a with
  | ⟨0, _⟩ => show win0_3.index t 0 * 16384 + 1 * (x 0).val = (x 0).val; rw [e0]; omega
  | ⟨1, _⟩ => show win0_3.index t 1 * 256 + 1 * (x 1).val = (x 1).val; rw [e1]; omega

theorem blk4_eq (c : Dev nD) (t : Fin cfg0.N) :
    (iblk m c 4 t : Vec Ideal S16384 .f32) = (V m c main_v11 : S16384.Idx → EReal) := by
  obtain ⟨-, -, -, -, e0, -⟩ := idx_whole t
  funext x
  unfold iblk
  rw [View.read_apply]
  show V m c main_v11 _ = V m c main_v11 x
  congr 1
  funext a
  apply Fin.ext
  match a with
  | ⟨0, _⟩ => show win0_4.index t 0 * 16384 + 1 * (x 0).val = (x 0).val; rw [e0]; omega

theorem blk5_eq (c : Dev nD) (t : Fin cfg0.N) :
    (iblk m c 5 t : Vec Ideal S16384 .f32) = (V m c main_v13 : S16384.Idx → EReal) := by
  obtain ⟨-, -, -, -, -, e0, -⟩ := idx_whole t
  funext x
  unfold iblk
  rw [View.read_apply]
  show V m c main_v13 _ = V m c main_v13 x
  congr 1
  funext a
  apply Fin.ext
  match a with
  | ⟨0, _⟩ => show win0_5.index t 0 * 16384 + 1 * (x 0).val = (x 0).val; rw [e0]; omega

theorem blk6_eq (c : Dev nD) (t : Fin cfg0.N) :
    (iblk m c 6 t : Vec Ideal S4x256x8192 .bf16) = (V m c main_v16 : S4x256x8192.Idx → EReal) := by
  obtain ⟨-, -, -, -, -, -, e0, e1, e2, -⟩ := idx_whole t
  funext x
  unfold iblk
  rw [View.read_apply]
  show V m c main_v16 _ = V m c main_v16 x
  congr 1
  funext a
  apply Fin.ext
  match a with
  | ⟨0, _⟩ => show win0_6.index t 0 * 4 + 1 * (x 0).val = (x 0).val; rw [e0]; omega
  | ⟨1, _⟩ => show win0_6.index t 1 * 256 + 1 * (x 1).val = (x 1).val; rw [e1]; omega
  | ⟨2, _⟩ => show win0_6.index t 2 * 8192 + 1 * (x 2).val = (x 2).val; rw [e2]; omega

theorem blk7_eq (c : Dev nD) (t : Fin cfg0.N) :
    (iblk m c 7 t : Vec Ideal S256 .f32) = (m ((c : Thread nD τ).loc main_arg5) : S256.Idx → EReal) := by
  obtain ⟨-, -, -, -, -, -, -, -, -, e0⟩ := idx_whole t
  funext x
  unfold iblk
  rw [View.read_apply]
  show V m c main_arg5 _ = _
  rw [V_main_arg5]
  congr 1
  funext a
  apply Fin.ext
  match a with
  | ⟨0, _⟩ => show win0_7.index t 0 * 256 + 1 * (x 0).val = (x 0).val; rw [e0]; omega

/-- The two weight blocks, read back as one family, are the generator's weight. -/
theorem blk_wp (c : Dev nD) (t : Fin cfg0.N) :
    Cert.Mix.wpK (iblk m c 2 t) (iblk m c 3 t) = Cert.Mix.wpOf (m ((c : Thread nD τ).loc main_arg2)) := by
  rw [blk2_eq m c t, blk3_eq m c t, V_v5, V_v8]
  exact wpK_halfW _ _ _

/-- The two bias blocks, read back as one family, are the generator's bias. -/
theorem blk_bp (c : Dev nD) (t : Fin cfg0.N) :
    Cert.Mix.bpK (iblk m c 4 t) (iblk m c 5 t) = Cert.Mix.bpOf (m ((c : Thread nD τ).loc main_arg3)) := by
  rw [blk4_eq m c t, blk5_eq m c t, V_v11, V_v13]
  exact bpK_halfB _ _ _

/-- The output-weight block, read back, is the output weight. -/
theorem blk_wo (c : Dev nD) (t : Fin cfg0.N) :
    Cert.Mix.woK (iblk m c 6 t) = Cert.Mix.woOf (m ((c : Thread nD τ).loc main_arg4)) := by
  rw [blk6_eq m c t, V_v16]
  exact woK_groupWo _

/-- The output-bias block is the output bias. -/
theorem blk_bo (c : Dev nD) (t : Fin cfg0.N) :
    (fun e : Fin 256 => (iblk m c 7 t : Vec Ideal S256 .f32) (ix1 e)) = Cert.Mix.boOf (m ((c : Thread nD τ).loc main_arg5)) := by
  rw [blk7_eq m c t]
  rfl

end Cert.KernelIdeal.KValue

end
-- ==== Proof.KStages.lean ====
/-
  The kernel body restated stage by stage. One grid point handles a block of 32 rows and runs, for each of the four
  groups, the same five stages on whole vectors: the generator (the query block against a 4096-row slab of weights,
  plus the slab's bias), a batched product over the 32 rows, the normalisation of a tile in its pieces (the centred
  tile; the reciprocal root of the mean square plus eps; their product clipped at zero), and the projection of the
  flattened tile. The printed body cuts this sequence into payloads by statement count; each stage below is the
  printed operations, unchanged, under a name of its own, and `out_eq` says the output block's payload is their
  composition.
-/
import proofs.«133475_j28819230556787_2_alg».proof.Proof.Gen.KernelIdeal.Frame
import Idealize.ShloMosaic.PureOps.Ideal
import Idealize.ShloMosaic.Lib.Pipeline.Value

noncomputable section

namespace Cert.KernelIdeal.Body

open Idealize.ShloMosaic Cert.KernelIdeal Cert.KernelIdeal.Gen

variable {F : FTy → Type} [FloatOps F]

/-- The generator on a slab: the query block times the transpose of 4096 weight rows, plus their bias down the rows. -/
def gen (qb : FVec F S32x256 .bf16) (w : Vec F S4096x256 .bf16) (b : Vec F S4096 .f32) : FVec F S32x4096 .f32 :=
  addf (matmul dot_S32x256_S4096x256_S32x4096_1_1_0_0_n_n none qb (shapeCast S4096x256 w shapeCasts_S4096x256_S4096x256 : FVec F S4096x256 .bf16)
      (constant S32x4096 .f32 0x00000000#32))
    (broadcastTo S32x4096 (shapeCast S1x4096 (shapeCast S4096 b shapeCasts_S4096_S4096 : FVec F S4096 .f32) shapeCasts_S4096_S1x4096) broadcasts_S1x4096_S32x4096)

/-- Channel mixing: per row, the group's 32 x 64 tile times the generated 64 x 64 matrix. -/
def chanProd (xs : FVec F S32x1x32x64 .bf16) (mm : FVec F S32x4096 .f32) : FVec F S32x32x64 .f32 :=
  matmul dot_S32x32x64_S32x64x64_S32x32x64_2_1_1_2_0_0 none (shapeCast S32x32x64 xs shapeCasts_S32x1x32x64_S32x32x64)
    (shapeCast S32x64x64 (truncf .bf16 mm bitsLt_bf16_f32) shapeCasts_S32x4096_S32x64x64) (constant S32x32x64 .f32 0x00000000#32)

/-- A 32 x 64 tile's sum over both axes divided by 2048, per row, kept as [32, 1, 1]. -/
def mean1 (t : FVec F S32x32x64 .f32) : FVec F S32x1x1 .f32 :=
  divf (shapeCast S32x1x1 (multiReduction .add [1] S32x1 (shapeCast S32x32x1 (multiReduction .add [2] S32x32 t 0x00000000#32 reduces_S32x32x64_S32x32 (.inl rfl) rfl) shapeCasts_S32x32_S32x32x1) 0x00000000#32 reduces_S32x32x1_S32x1 (.inl rfl) rfl) shapeCasts_S32x1_S32x1x1)
    (broadcast S32x1x1 (Scalar.ofBits .f32 0x45000000#32))

/-- The tile centred at its mean. -/
def ctr1 (t : FVec F S32x32x64 .f32) : FVec F S32x32x64 .f32 :=
  subf t (broadcastTo S32x32x64 (mean1 t) broadcasts_S32x1x1_S32x32x64)

/-- The reciprocal root of the mean square of a centred tile plus eps. -/
def rs1 (dd : FVec F S32x32x64 .f32) : FVec F S32x1x1 .f32 :=
  rsqrt (addf (mean1 (mulf dd dd)) (broadcast S32x1x1 (Scalar.ofBits .f32 0x3727C5AC#32)))

/-- The normalised tile (before clipping). -/
def nrm1 (dd : FVec F S32x32x64 .f32) : FVec F S32x32x64 .f32 :=
  mulf dd (broadcastTo S32x32x64 (rs1 dd) broadcasts_S32x1x1_S32x32x64)

/-- Clipped at zero and narrowed. -/
def relu1 (y : FVec F S32x32x64 .f32) : FVec F S32x32x64 .bf16 :=
  truncf .bf16 (maximumf y (broadcast S32x32x64 (Scalar.ofBits .f32 0x00000000#32))) bitsLt_bf16_f32

/-- Point mixing: per row, the generated 128 x 32 matrix times the 32 x 64 tile. -/
def pntProd (ss : FVec F S32x4096 .f32) (y : FVec F S32x32x64 .bf16) : FVec F S32x128x64 .f32 :=
  matmul dot_S32x128x32_S32x32x64_S32x128x64_2_1_1_2_0_0 none
    (shapeCast S32x128x32 (truncf .bf16 ss bitsLt_bf16_f32) shapeCasts_S32x4096_S32x128x32) y (constant S32x128x64 .f32 0x00000000#32)

/-- A 128 x 64 tile's sum over both axes divided by 8192, per row. -/
def mean2 (t : FVec F S32x128x64 .f32) : FVec F S32x1x1 .f32 :=
  divf (shapeCast S32x1x1 (multiReduction .add [1] S32x1 (shapeCast S32x128x1 (multiReduction .add [2] S32x128 t 0x00000000#32 reduces_S32x128x64_S32x128 (.inl rfl) rfl) shapeCasts_S32x128_S32x128x1) 0x00000000#32 reduces_S32x128x1_S32x1 (.inl rfl) rfl) shapeCasts_S32x1_S32x1x1)
    (broadcast S32x1x1 (Scalar.ofBits .f32 0x46000000#32))

def ctr2 (t : FVec F S32x128x64 .f32) : FVec F S32x128x64 .f32 :=
  subf t (broadcastTo S32x128x64 (mean2 t) broadcasts_S32x1x1_S32x128x64)

def rs2 (dd : FVec F S32x128x64 .f32) : FVec F S32x1x1 .f32 :=
  rsqrt (addf (mean2 (mulf dd dd)) (broadcast S32x1x1 (Scalar.ofBits .f32 0x3727C5AC#32)))

/-- The second tile normalised, clipped at zero, narrowed and flattened to [32, 8192]. -/
def flat2 (dd : FVec F S32x128x64 .f32) (rs : FVec F S32x1x1 .f32) : FVec F S32x8192 .bf16 :=
  shapeCast S32x8192
    (truncf .bf16 (maximumf (mulf dd (broadcastTo S32x128x64 rs broadcasts_S32x1x1_S32x128x64))
      (broadcast S32x128x64 (Scalar.ofBits .f32 0x00000000#32))) bitsLt_bf16_f32) shapeCasts_S32x128x64_S32x8192

/-- The projection of a flattened tile by the group's [256, 8192] output weight. -/
def prj (f : FVec F S32x8192 .bf16) (w : Vec F S1x256x8192 .bf16) : FVec F S32x256 .f32 :=
  matmul dot_S32x8192_S256x8192_S32x256_1_1_0_0_n_n none f (shapeCast S256x8192 w shapeCasts_S1x256x8192_S256x8192 : FVec F S256x8192 .bf16)
    (constant S32x256 .f32 0x00000000#32)

/-- The query block narrowed, as every generator product reads it. -/
def qbf (l0 : Vec F S32x256 .f32) : FVec F S32x256 .bf16 :=
  truncf .bf16 (shapeCast S32x256 l0 shapeCasts_S32x256_S32x256 : FVec F S32x256 .f32) bitsLt_bf16_f32

/-- The feature block narrowed. -/
def xbf (l1 : Vec F S32x4x32x64 .f32) : FVec F S32x4x32x64 .bf16 :=
  truncf .bf16 (shapeCast S32x4x32x64 l1 shapeCasts_S32x4x32x64_S32x4x32x64 : FVec F S32x4x32x64 .f32) bitsLt_bf16_f32

/-- The first stage's output of a group, from its slice of the features and its two slabs. -/
def stage1 (l0 : Vec F S32x256 .f32) (xs : FVec F S32x1x32x64 .bf16) (wm : Vec F S4096x256 .bf16) (bm : Vec F S4096 .f32) :
    FVec F S32x32x64 .bf16 :=
  relu1 (nrm1 (ctr1 (chanProd xs (gen (qbf l0) wm bm))))

/-- A group's contribution to the output block. -/
def contrib (l0 : Vec F S32x256 .f32) (xs : FVec F S32x1x32x64 .bf16) (wm : Vec F S4096x256 .bf16) (bm : Vec F S4096 .f32)
    (ws : Vec F S4096x256 .bf16) (bs : Vec F S4096 .f32) (wo : Vec F S1x256x8192 .bf16) : FVec F S32x256 .f32 :=
  prj (flat2 (ctr2 (pntProd (gen (qbf l0) ws bs) (stage1 l0 xs wm bm))) (rs2 (ctr2 (pntProd (gen (qbf l0) ws bs) (stage1 l0 xs wm bm))))) wo

theorem pay6_eq (v0 : Vec F S32x256 .f32) (v3 : Vec F S32x4x32x64 .f32) (v7 : Vec F S4096x256 .bf16) (v9 : Vec F S4096 .f32) :
    k0_pay6 v0 v3 v7 v9
      = nrm1 (ctr1 (chanProd (extractStridedSlice S32x1x32x64 ![0, 0, 0, 0] (xbf v3) slices_S32x4x32x64_o0_0_0_0_S32x1x32x64) (gen (qbf v0) v7 v9))) := rfl

/-- Group g's slice of the narrowed feature block, [32, 1, 32, 64]. -/
abbrev xs0 (l1 : Vec F S32x4x32x64 .f32) : FVec F S32x1x32x64 .bf16 := extractStridedSlice S32x1x32x64 ![0, 0, 0, 0] (xbf l1) slices_S32x4x32x64_o0_0_0_0_S32x1x32x64
abbrev xs1 (l1 : Vec F S32x4x32x64 .f32) : FVec F S32x1x32x64 .bf16 := extractStridedSlice S32x1x32x64 ![0, 1, 0, 0] (xbf l1) slices_S32x4x32x64_o0_1_0_0_S32x1x32x64
abbrev xs2 (l1 : Vec F S32x4x32x64 .f32) : FVec F S32x1x32x64 .bf16 := extractStridedSlice S32x1x32x64 ![0, 2, 0, 0] (xbf l1) slices_S32x4x32x64_o0_2_0_0_S32x1x32x64
abbrev xs3 (l1 : Vec F S32x4x32x64 .f32) : FVec F S32x1x32x64 .bf16 := extractStridedSlice S32x1x32x64 ![0, 3, 0, 0] (xbf l1) slices_S32x4x32x64_o0_3_0_0_S32x1x32x64

/-- The output block: the query block plus the four contributions accumulated from zero, plus the output bias down the rows. -/
def outBlock (l0 : Vec F S32x256 .f32) (p0 p1 p2 p3 : FVec F S32x256 .f32) (bo : Vec F S256 .f32) : FVec F S32x256 .f32 :=
  addf (addf (shapeCast S32x256 l0 shapeCasts_S32x256_S32x256 : FVec F S32x256 .f32)
      (addf (addf (addf (addf (broadcast S32x256 (Scalar.ofBits .f32 0x00000000#32)) p0) p1) p2) p3))
    (broadcastTo S32x256 (shapeCast S1x256 bo shapeCasts_S256_S1x256 : FVec F S1x256 .f32) broadcasts_S1x256_S32x256)

/-- What the one store of the body writes is the composition of the stages over the loaded slabs. -/
theorem out_eq (x0 : Vec F S32x256 .f32) (x1 : Vec F S32x4x32x64 .f32) (x2 x3 : Vec F S16384x256 .bf16)
    (x4 x5 : Vec F S16384 .f32) (x6 : Vec F S4x256x8192 .bf16) (x7 : Vec F S256 .f32) :
    out0_8 x0 x1 x2 x3 x4 x5 x6 x7
      = outBlock (View.ld x0 r0_0)
          (contrib (View.ld x0 r0_0) (xs0 (View.ld x1 r0_1)) (View.ld x2 r0_2) (View.ld x4 r0_3) (View.ld x3 r0_2) (View.ld x5 r0_3) (View.ld x6 r0_4))
          (contrib (View.ld x0 r0_0) (xs1 (View.ld x1 r0_1)) (View.ld x2 r0_5) (View.ld x4 r0_6) (View.ld x3 r0_5) (View.ld x5 r0_6) (View.ld x6 r0_7))
          (contrib (View.ld x0 r0_0) (xs2 (View.ld x1 r0_1)) (View.ld x2 r0_8) (View.ld x4 r0_9) (View.ld x3 r0_8) (View.ld x5 r0_9) (View.ld x6 r0_10))
          (contrib (View.ld x0 r0_0) (xs3 (View.ld x1 r0_1)) (View.ld x2 r0_11) (View.ld x4 r0_12) (View.ld x3 r0_11) (View.ld x5 r0_12) (View.ld x6 r0_13))
          (View.ld x7 r0_14) := by
  unfold out0_8
  rw [View.canon_unit_zero (by funext a; match a with | ⟨0, _⟩ => rfl | ⟨1, _⟩ => rfl)]
  rfl

end Cert.KernelIdeal.Body

end
-- ==== Proof.KDots.lean ====
/-
  The matrix unit's four products of one grid point, read at an entry over the extended reals: each is the plain sum
  over the one contracted axis of the two operands' entries, with no accumulator left (it is the zero splat).
-/
import proofs.«133475_j28819230556787_2_alg».proof.Proof.KStages
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.KernelIdeal.Body

open Idealize.ShloMosaic Idealize.ShloMosaic.ValueIdx Cert.KernelIdeal Cert.KernelIdeal.Gen

/-- [32, 256] against the transpose of [4096, 256]: entry (r, j) sums over the 256 shared columns. -/
theorem dotQ_apply (l : FVec Ideal S32x256 .bf16) (w : FVec Ideal S4096x256 .bf16) (r : Fin 32) (j : Fin 4096) :
    matmul dot_S32x256_S4096x256_S32x4096_1_1_0_0_n_n none l w (constant S32x4096 .f32 0x00000000#32) (ix2 r j)
      = ∑ k : Fin 256, l (ix2 r k) * w (ix2 j k) := by
  refine (Ideal.matmul_constant_zero_apply _ none l w (ix2 r j)).trans ?_
  rw [← Equiv.sum_comp (contrEquiv1 dot_S32x256_S4096x256_S32x4096_1_1_0_0_n_n 256 rfl rfl).symm]
  refine Finset.sum_congr rfl fun k _ => ?_
  have hk := contrEquiv1_symm_val dot_S32x256_S4096x256_S32x4096_1_1_0_0_n_n 256 rfl rfl k
  have el : dot_S32x256_S4096x256_S32x4096_1_1_0_0_n_n.lhsIdx (ix2 r j)
      ((contrEquiv1 dot_S32x256_S4096x256_S32x4096_1_1_0_0_n_n 256 rfl rfl).symm k) = ix2 r k :=
    funext fun a => Fin.ext (by
      match a with
      | ⟨0, _⟩ => rfl
      | ⟨1, _⟩ => exact (dot_S32x256_S4096x256_S32x4096_1_1_0_0_n_n.lhsIdx_val_of_single rfl _ _).trans hk)
  have er : dot_S32x256_S4096x256_S32x4096_1_1_0_0_n_n.rhsIdx (ix2 r j)
      ((contrEquiv1 dot_S32x256_S4096x256_S32x4096_1_1_0_0_n_n 256 rfl rfl).symm k) = ix2 j k :=
    funext fun a => Fin.ext (by
      match a with
      | ⟨0, _⟩ => rfl
      | ⟨1, _⟩ => exact (dot_S32x256_S4096x256_S32x4096_1_1_0_0_n_n.rhsIdx_val_of_single rfl _ _).trans hk)
  rw [el, er]

/-- [32, 8192] against the transpose of [256, 8192]: entry (r, d) sums over the 8192 shared columns. -/
theorem dotO_apply (l : FVec Ideal S32x8192 .bf16) (w : FVec Ideal S256x8192 .bf16) (r : Fin 32) (d : Fin 256) :
    matmul dot_S32x8192_S256x8192_S32x256_1_1_0_0_n_n none l w (constant S32x256 .f32 0x00000000#32) (ix2 r d)
      = ∑ k : Fin 8192, l (ix2 r k) * w (ix2 d k) := by
  refine (Ideal.matmul_constant_zero_apply _ none l w (ix2 r d)).trans ?_
  rw [← Equiv.sum_comp (contrEquiv1 dot_S32x8192_S256x8192_S32x256_1_1_0_0_n_n 8192 rfl rfl).symm]
  refine Finset.sum_congr rfl fun k _ => ?_
  have hk := contrEquiv1_symm_val dot_S32x8192_S256x8192_S32x256_1_1_0_0_n_n 8192 rfl rfl k
  have el : dot_S32x8192_S256x8192_S32x256_1_1_0_0_n_n.lhsIdx (ix2 r d)
      ((contrEquiv1 dot_S32x8192_S256x8192_S32x256_1_1_0_0_n_n 8192 rfl rfl).symm k) = ix2 r k :=
    funext fun a => Fin.ext (by
      match a with
      | ⟨0, _⟩ => rfl
      | ⟨1, _⟩ => exact (dot_S32x8192_S256x8192_S32x256_1_1_0_0_n_n.lhsIdx_val_of_single rfl _ _).trans hk)
  have er : dot_S32x8192_S256x8192_S32x256_1_1_0_0_n_n.rhsIdx (ix2 r d)
      ((contrEquiv1 dot_S32x8192_S256x8192_S32x256_1_1_0_0_n_n 8192 rfl rfl).symm k) = ix2 d k :=
    funext fun a => Fin.ext (by
      match a with
      | ⟨0, _⟩ => rfl
      | ⟨1, _⟩ => exact (dot_S32x8192_S256x8192_S32x256_1_1_0_0_n_n.rhsIdx_val_of_single rfl _ _).trans hk)
  rw [el, er]

/-- Per row r, [32, 64] times [64, 64]: entry (r, p, d) sums over the 64 channels. -/
theorem dotC_apply (l : FVec Ideal S32x32x64 .bf16) (w : FVec Ideal S32x64x64 .bf16) (r : Fin 32) (p : Fin 32) (d : Fin 64) :
    matmul dot_S32x32x64_S32x64x64_S32x32x64_2_1_1_2_0_0 none l w (constant S32x32x64 .f32 0x00000000#32) (ix3 r p d)
      = ∑ c : Fin 64, l (ix3 r p c) * w (ix3 r c d) := by
  refine (Ideal.matmul_constant_zero_apply _ none l w (ix3 r p d)).trans ?_
  rw [← Equiv.sum_comp (contrEquiv1 dot_S32x32x64_S32x64x64_S32x32x64_2_1_1_2_0_0 64 rfl rfl).symm]
  refine Finset.sum_congr rfl fun k _ => ?_
  have hk := contrEquiv1_symm_val dot_S32x32x64_S32x64x64_S32x32x64_2_1_1_2_0_0 64 rfl rfl k
  have el : dot_S32x32x64_S32x64x64_S32x32x64_2_1_1_2_0_0.lhsIdx (ix3 r p d)
      ((contrEquiv1 dot_S32x32x64_S32x64x64_S32x32x64_2_1_1_2_0_0 64 rfl rfl).symm k) = ix3 r p k :=
    funext fun a => Fin.ext (by
      match a with
      | ⟨0, _⟩ => rfl
      | ⟨1, _⟩ => rfl
      | ⟨2, _⟩ => exact (dot_S32x32x64_S32x64x64_S32x32x64_2_1_1_2_0_0.lhsIdx_val_of_single rfl _ _).trans hk)
  have er : dot_S32x32x64_S32x64x64_S32x32x64_2_1_1_2_0_0.rhsIdx (ix3 r p d)
      ((contrEquiv1 dot_S32x32x64_S32x64x64_S32x32x64_2_1_1_2_0_0 64 rfl rfl).symm k) = ix3 r k d :=
    funext fun a => Fin.ext (by
      match a with
      | ⟨0, _⟩ => rfl
      | ⟨1, _⟩ => exact (dot_S32x32x64_S32x64x64_S32x32x64_2_1_1_2_0_0.rhsIdx_val_of_single rfl _ _).trans hk
      | ⟨2, _⟩ => rfl)
  rw [el, er]

/-- Per row r, [128, 32] times [32, 64]: entry (r, o, c) sums over the 32 points. -/
theorem dotP_apply (l : FVec Ideal S32x128x32 .bf16) (w : FVec Ideal S32x32x64 .bf16) (r : Fin 32) (o : Fin 128) (c : Fin 64) :
    matmul dot_S32x128x32_S32x32x64_S32x128x64_2_1_1_2_0_0 none l w (constant S32x128x64 .f32 0x00000000#32) (ix3 r o c)
      = ∑ p : Fin 32, l (ix3 r o p) * w (ix3 r p c) := by
  refine (Ideal.matmul_constant_zero_apply _ none l w (ix3 r o c)).trans ?_
  rw [← Equiv.sum_comp (contrEquiv1 dot_S32x128x32_S32x32x64_S32x128x64_2_1_1_2_0_0 32 rfl rfl).symm]
  refine Finset.sum_congr rfl fun k _ => ?_
  have hk := contrEquiv1_symm_val dot_S32x128x32_S32x32x64_S32x128x64_2_1_1_2_0_0 32 rfl rfl k
  have el : dot_S32x128x32_S32x32x64_S32x128x64_2_1_1_2_0_0.lhsIdx (ix3 r o c)
      ((contrEquiv1 dot_S32x128x32_S32x32x64_S32x128x64_2_1_1_2_0_0 32 rfl rfl).symm k) = ix3 r o k :=
    funext fun a => Fin.ext (by
      match a with
      | ⟨0, _⟩ => rfl
      | ⟨1, _⟩ => rfl
      | ⟨2, _⟩ => exact (dot_S32x128x32_S32x32x64_S32x128x64_2_1_1_2_0_0.lhsIdx_val_of_single rfl _ _).trans hk)
  have er : dot_S32x128x32_S32x32x64_S32x128x64_2_1_1_2_0_0.rhsIdx (ix3 r o c)
      ((contrEquiv1 dot_S32x128x32_S32x32x64_S32x128x64_2_1_1_2_0_0 32 rfl rfl).symm k) = ix3 r k c :=
    funext fun a => Fin.ext (by
      match a with
      | ⟨0, _⟩ => rfl
      | ⟨1, _⟩ => exact (dot_S32x128x32_S32x32x64_S32x128x64_2_1_1_2_0_0.rhsIdx_val_of_single rfl _ _).trans hk
      | ⟨2, _⟩ => rfl)
  rw [el, er]

end Cert.KernelIdeal.Body

end
-- ==== Proof.KTile.lean ====
/-
  The normalisation of a tile, read at an entry. The kernel sums a [32, P, 64] tile lane-wise and then row-wise,
  keeping unit axes, divides by the count, spreads the [32, 1, 1] result back over the tile and subtracts; it does the
  same with the squares of the centred tile, adds eps and takes the reciprocal root. At row r these are the
  specification's mean, centred tile and reciprocal root of that row's P x 64 tile.
-/
import proofs.«133475_j28819230556787_2_alg».proof.Proof.KStages
import proofs.«133475_j28819230556787_2_alg».proof.Proof.MixSpec
import Idealize.ShloMosaic.PureOps.Ideal.Laws
import Idealize.ShloMosaic.Lib.ValueIdx
import Idealize.ShloMosaic.Lib.Pipeline.Value

open scoped BigOperators

noncomputable section

namespace Cert.KernelIdeal.Body

open Idealize.ShloMosaic Idealize.ShloMosaic.ValueIdx Cert.KernelIdeal Cert.KernelIdeal.Gen

/-- The [32, 32, 64] tile's sum over its two trailing axes (lanes first, then rows; each kept as a unit axis) at row r:
    the nested sum over the 32 rows and 64 lanes. -/
theorem sum1_apply (t : FVec Ideal S32x32x64 .f32) (r : Fin 32) :
    (shapeCast S32x1x1 (multiReduction .add [1] S32x1 (shapeCast S32x32x1 (multiReduction .add [2] S32x32 t 0x00000000#32 reduces_S32x32x64_S32x32 (.inl rfl) rfl) shapeCasts_S32x32_S32x32x1) 0x00000000#32 reduces_S32x32x1_S32x1 (.inl rfl) rfl) shapeCasts_S32x1_S32x1x1 : FVec Ideal S32x1x1 .f32)
        (ix3 r (0 : Fin 1) (0 : Fin 1))
      = ∑ p : Fin 32, ∑ c : Fin 64, t (ix3 r p c) := by
  refine (shapeCast_apply _ shapeCasts_S32x1_S32x1x1 (ix3 r (0 : Fin 1) (0 : Fin 1)) (ix2 r (0 : Fin 1)) (by
    rw [Shape.rowMajor_val_two, Shape.rowMajor_val_three]
    show r.val * 1 + 0 = (r.val * 1 + 0) * 1 + 0
    omega)).trans ?_
  refine (Ideal.multiReduction_add_single _ 0x00000000#32 reduces_S32x32x1_S32x1 (.inl rfl) rfl (ix2 r (0 : Fin 1))).trans ?_
  refine Finset.sum_congr rfl fun p _ => ?_
  refine (shapeCast_apply _ shapeCasts_S32x32_S32x32x1 _ (ix2 r p) (by
    rw [Shape.rowMajor_val_two, Shape.rowMajor_val_three]
    show r.val * 32 + p.val = (r.val * 32 + p.val) * 1 + 0
    omega)).trans ?_
  refine (Ideal.multiReduction_add_single t 0x00000000#32 reduces_S32x32x64_S32x32 (.inl rfl) rfl (ix2 r p)).trans ?_
  refine Finset.sum_congr rfl fun c _ => ?_
  exact congrArg t (funext fun a => Fin.ext (by
    match a with
    | ⟨0, _⟩ => rfl
    | ⟨1, _⟩ => rfl
    | ⟨2, _⟩ => rfl))

/-- The tile's mean at row r. -/
theorem mean1_apply (t : FVec Ideal S32x32x64 .f32) (T : Fin 32 → Fin 64 → EReal) (r : Fin 32)
    (hT : ∀ p c, t (ix3 r p c) = T p c) :
    mean1 t (ix3 r (0 : Fin 1) (0 : Fin 1)) = Cert.Mix.mean Cert.Mix.n1 T := by
  unfold mean1 Cert.Mix.mean
  rw [divf_apply, sum1_apply]
  simp only [hT]
  rfl

/-- A [32, 1, 1] column spread over the tile reads its row's entry. -/
theorem spread1_apply (v : FVec Ideal S32x1x1 .f32) (r : Fin 32) (p : Fin 32) (c : Fin 64) :
    broadcastTo S32x32x64 v broadcasts_S32x1x1_S32x32x64 (ix3 r p c) = v (ix3 r (0 : Fin 1) (0 : Fin 1)) :=
  broadcastTo_apply v broadcasts_S32x1x1_S32x32x64 (ix3 r p c) (ix3 r (0 : Fin 1) (0 : Fin 1)) (fun a => by
    match a with
    | ⟨0, _⟩ => rfl
    | ⟨1, _⟩ => rfl
    | ⟨2, _⟩ => rfl)

/-- The centred tile at an entry. -/
theorem ctr1_apply (t : FVec Ideal S32x32x64 .f32) (T : Fin 32 → Fin 64 → EReal) (r : Fin 32)
    (hT : ∀ p c, t (ix3 r p c) = T p c) (p : Fin 32) (c : Fin 64) :
    ctr1 t (ix3 r p c) = Cert.Mix.centred Cert.Mix.n1 T p c := by
  unfold ctr1 Cert.Mix.centred
  rw [subf_apply, spread1_apply, mean1_apply t T r hT, hT]

/-- The reciprocal root of the centred tile's mean square plus eps, at row r. -/
theorem rs1_apply (t : FVec Ideal S32x32x64 .f32) (T : Fin 32 → Fin 64 → EReal) (r : Fin 32)
    (hT : ∀ p c, t (ix3 r p c) = T p c) :
    rs1 (ctr1 t) (ix3 r (0 : Fin 1) (0 : Fin 1))
      = Ideal.rsqrt (Cert.Mix.mean Cert.Mix.n1 (fun a b => Cert.Mix.centred Cert.Mix.n1 T a b * Cert.Mix.centred Cert.Mix.n1 T a b) + Cert.Mix.eps) := by
  unfold rs1
  show Ideal.rsqrt (mean1 (mulf (ctr1 t) (ctr1 t)) (ix3 r (0 : Fin 1) (0 : Fin 1)) + Cert.Mix.eps) = _
  rw [mean1_apply (mulf (ctr1 t) (ctr1 t)) (fun a b => Cert.Mix.centred Cert.Mix.n1 T a b * Cert.Mix.centred Cert.Mix.n1 T a b) r
    (fun p c => by rw [mulf_apply, ctr1_apply t T r hT])]

/-- The [32, 128, 64] tile's sum over its two trailing axes (lanes first, then rows; each kept as a unit axis) at row r:
    the nested sum over the 128 rows and 64 lanes. -/
theorem sum2_apply (t : FVec Ideal S32x128x64 .f32) (r : Fin 32) :
    (shapeCast S32x1x1 (multiReduction .add [1] S32x1 (shapeCast S32x128x1 (multiReduction .add [2] S32x128 t 0x00000000#32 reduces_S32x128x64_S32x128 (.inl rfl) rfl) shapeCasts_S32x128_S32x128x1) 0x00000000#32 reduces_S32x128x1_S32x1 (.inl rfl) rfl) shapeCasts_S32x1_S32x1x1 : FVec Ideal S32x1x1 .f32)
        (ix3 r (0 : Fin 1) (0 : Fin 1))
      = ∑ p : Fin 128, ∑ c : Fin 64, t (ix3 r p c) := by
  refine (shapeCast_apply _ shapeCasts_S32x1_S32x1x1 (ix3 r (0 : Fin 1) (0 : Fin 1)) (ix2 r (0 : Fin 1)) (by
    rw [Shape.rowMajor_val_two, Shape.rowMajor_val_three]
    show r.val * 1 + 0 = (r.val * 1 + 0) * 1 + 0
    omega)).trans ?_
  refine (Ideal.multiReduction_add_single _ 0x00000000#32 reduces_S32x128x1_S32x1 (.inl rfl) rfl (ix2 r (0 : Fin 1))).trans ?_
  refine Finset.sum_congr rfl fun p _ => ?_
  refine (shapeCast_apply _ shapeCasts_S32x128_S32x128x1 _ (ix2 r p) (by
    rw [Shape.rowMajor_val_two, Shape.rowMajor_val_three]
    show r.val * 128 + p.val = (r.val * 128 + p.val) * 1 + 0
    omega)).trans ?_
  refine (Ideal.multiReduction_add_single t 0x00000000#32 reduces_S32x128x64_S32x128 (.inl rfl) rfl (ix2 r p)).trans ?_
  refine Finset.sum_congr rfl fun c _ => ?_
  exact congrArg t (funext fun a => Fin.ext (by
    match a with
    | ⟨0, _⟩ => rfl
    | ⟨1, _⟩ => rfl
    | ⟨2, _⟩ => rfl))

/-- The tile's mean at row r. -/
theorem mean2_apply (t : FVec Ideal S32x128x64 .f32) (T : Fin 128 → Fin 64 → EReal) (r : Fin 32)
    (hT : ∀ p c, t (ix3 r p c) = T p c) :
    mean2 t (ix3 r (0 : Fin 1) (0 : Fin 1)) = Cert.Mix.mean Cert.Mix.n2 T := by
  unfold mean2 Cert.Mix.mean
  rw [divf_apply, sum2_apply]
  simp only [hT]
  rfl

/-- A [32, 1, 1] column spread over the tile reads its row's entry. -/
theorem spread2_apply (v : FVec Ideal S32x1x1 .f32) (r : Fin 32) (p : Fin 128) (c : Fin 64) :
    broadcastTo S32x128x64 v broadcasts_S32x1x1_S32x128x64 (ix3 r p c) = v (ix3 r (0 : Fin 1) (0 : Fin 1)) :=
  broadcastTo_apply v broadcasts_S32x1x1_S32x128x64 (ix3 r p c) (ix3 r (0 : Fin 1) (0 : Fin 1)) (fun a => by
    match a with
    | ⟨0, _⟩ => rfl
    | ⟨1, _⟩ => rfl
    | ⟨2, _⟩ => rfl)

/-- The centred tile at an entry. -/
theorem ctr2_apply (t : FVec Ideal S32x128x64 .f32) (T : Fin 128 → Fin 64 → EReal) (r : Fin 32)
    (hT : ∀ p c, t (ix3 r p c) = T p c) (p : Fin 128) (c : Fin 64) :
    ctr2 t (ix3 r p c) = Cert.Mix.centred Cert.Mix.n2 T p c := by
  unfold ctr2 Cert.Mix.centred
  rw [subf_apply, spread2_apply, mean2_apply t T r hT, hT]

/-- The reciprocal root of the centred tile's mean square plus eps, at row r. -/
theorem rs2_apply (t : FVec Ideal S32x128x64 .f32) (T : Fin 128 → Fin 64 → EReal) (r : Fin 32)
    (hT : ∀ p c, t (ix3 r p c) = T p c) :
    rs2 (ctr2 t) (ix3 r (0 : Fin 1) (0 : Fin 1))
      = Ideal.rsqrt (Cert.Mix.mean Cert.Mix.n2 (fun a b => Cert.Mix.centred Cert.Mix.n2 T a b * Cert.Mix.centred Cert.Mix.n2 T a b) + Cert.Mix.eps) := by
  unfold rs2
  show Ideal.rsqrt (mean2 (mulf (ctr2 t) (ctr2 t)) (ix3 r (0 : Fin 1) (0 : Fin 1)) + Cert.Mix.eps) = _
  rw [mean2_apply (mulf (ctr2 t) (ctr2 t)) (fun a b => Cert.Mix.centred Cert.Mix.n2 T a b * Cert.Mix.centred Cert.Mix.n2 T a b) r
    (fun p c => by rw [mulf_apply, ctr2_apply t T r hT])]

end Cert.KernelIdeal.Body

end
-- ==== Proof.KGroup.lean ====
/-
  One group's five stages at an entry, and their composition: for row r of the block, a group's contribution to
  output entry d is the specification's `proj` of that row, once the loaded slabs are known to hold the group's rows
  of the generator's weight and bias and of the output weight.
-/
import proofs.«133475_j28819230556787_2_alg».proof.Proof.KDots
import proofs.«133475_j28819230556787_2_alg».proof.Proof.KTile
import proofs.«133475_j28819230556787_2_alg».proof.Proof.MixKernelSide

open scoped BigOperators

noncomputable section

namespace Cert.KernelIdeal.Body

open Idealize.ShloMosaic Idealize.ShloMosaic.ValueIdx Cert.KernelIdeal Cert.KernelIdeal.Gen

/-- Position of entry (c, d) of a 64 x 64 matrix, of entry (o, p) of a 128 x 32 matrix, among a slab's 4096 rows. -/
abbrev i64 (c d : Fin 64) : Fin 4096 := ⟨c.val * 64 + d.val, by have := c.isLt; have := d.isLt; omega⟩
abbrev i32 (o : Fin 128) (p : Fin 32) : Fin 4096 := ⟨o.val * 32 + p.val, by have := o.isLt; have := p.isLt; omega⟩
/-- Position of entry (o, c) of a flattened 128 x 64 tile. -/
abbrev iF (o : Fin 128) (c : Fin 64) : Fin 8192 := ⟨o.val * 64 + c.val, by have := o.isLt; have := c.isLt; omega⟩

theorem qbf_apply (l0 : Vec Ideal S32x256 .f32) (i : S32x256.Idx) : qbf l0 i = l0 i := by
  unfold qbf
  rw [truncf_apply, shapeCast_self]

/-- The generator at (r, j): row r of the query against weight row j, plus bias j. -/
theorem gen_apply (qb : FVec Ideal S32x256 .bf16) (w : Vec Ideal S4096x256 .bf16) (b : Vec Ideal S4096 .f32) (r : Fin 32) (j : Fin 4096) :
    gen qb w b (ix2 r j) = (∑ k : Fin 256, qb (ix2 r k) * w (ix2 j k)) + b (ix1 j) := by
  unfold gen
  rw [addf_apply, dotQ_apply, shapeCast_self, shapeCast_self, broadcastTo_1b_ab_apply, shapeCast_a_1a_apply]

theorem xs0_apply (l1 : Vec Ideal S32x4x32x64 .f32) (r : Fin 32) (p : Fin 32) (c : Fin 64) :
    xs0 l1 (ix4 r (0 : Fin 1) p c) = l1 (ix4 r (0 : Fin 4) p c) := by
  refine (extractStridedSlice_apply _ (xbf l1) slices_S32x4x32x64_o0_0_0_0_S32x1x32x64 (ix4 r (0 : Fin 1) p c) (ix4 r (0 : Fin 4) p c) (fun a => by
    match a with
    | ⟨0, _⟩ => show r.val = 0 + r.val; omega
    | ⟨1, _⟩ => show 0 = 0 + 0; omega
    | ⟨2, _⟩ => show p.val = 0 + p.val; omega
    | ⟨3, _⟩ => show c.val = 0 + c.val; omega)).trans ?_
  unfold xbf
  rw [truncf_apply, shapeCast_self]

theorem xs1_apply (l1 : Vec Ideal S32x4x32x64 .f32) (r : Fin 32) (p : Fin 32) (c : Fin 64) :
    xs1 l1 (ix4 r (0 : Fin 1) p c) = l1 (ix4 r (1 : Fin 4) p c) := by
  refine (extractStridedSlice_apply _ (xbf l1) slices_S32x4x32x64_o0_1_0_0_S32x1x32x64 (ix4 r (0 : Fin 1) p c) (ix4 r (1 : Fin 4) p c) (fun a => by
    match a with
    | ⟨0, _⟩ => show r.val = 0 + r.val; omega
    | ⟨1, _⟩ => show 1 = 1 + 0; omega
    | ⟨2, _⟩ => show p.val = 0 + p.val; omega
    | ⟨3, _⟩ => show c.val = 0 + c.val; omega)).trans ?_
  unfold xbf
  rw [truncf_apply, shapeCast_self]

theorem xs2_apply (l1 : Vec Ideal S32x4x32x64 .f32) (r : Fin 32) (p : Fin 32) (c : Fin 64) :
    xs2 l1 (ix4 r (0 : Fin 1) p c) = l1 (ix4 r (2 : Fin 4) p c) := by
  refine (extractStridedSlice_apply _ (xbf l1) slices_S32x4x32x64_o0_2_0_0_S32x1x32x64 (ix4 r (0 : Fin 1) p c) (ix4 r (2 : Fin 4) p c) (fun a => by
    match a with
    | ⟨0, _⟩ => show r.val = 0 + r.val; omega
    | ⟨1, _⟩ => show 2 = 2 + 0; omega
    | ⟨2, _⟩ => show p.val = 0 + p.val; omega
    | ⟨3, _⟩ => show c.val = 0 + c.val; omega)).trans ?_
  unfold xbf
  rw [truncf_apply, shapeCast_self]

theorem xs3_apply (l1 : Vec Ideal S32x4x32x64 .f32) (r : Fin 32) (p : Fin 32) (c : Fin 64) :
    xs3 l1 (ix4 r (0 : Fin 1) p c) = l1 (ix4 r (3 : Fin 4) p c) := by
  refine (extractStridedSlice_apply _ (xbf l1) slices_S32x4x32x64_o0_3_0_0_S32x1x32x64 (ix4 r (0 : Fin 1) p c) (ix4 r (3 : Fin 4) p c) (fun a => by
    match a with
    | ⟨0, _⟩ => show r.val = 0 + r.val; omega
    | ⟨1, _⟩ => show 3 = 3 + 0; omega
    | ⟨2, _⟩ => show p.val = 0 + p.val; omega
    | ⟨3, _⟩ => show c.val = 0 + c.val; omega)).trans ?_
  unfold xbf
  rw [truncf_apply, shapeCast_self]

/-- Channel mixing at (r, p, d): the sum over the 64 channels of the tile's entry times the generated matrix's entry,
    which sits at position c * 64 + d of the row's 4096 generated numbers. -/
theorem chanProd_apply (xs : FVec Ideal S32x1x32x64 .bf16) (mm : FVec Ideal S32x4096 .f32) (r : Fin 32) (p : Fin 32) (d : Fin 64) :
    chanProd xs mm (ix3 r p d) = ∑ c : Fin 64, xs (ix4 r (0 : Fin 1) p c) * mm (ix2 r (i64 c d)) := by
  unfold chanProd
  rw [dotC_apply]
  refine Finset.sum_congr rfl fun c _ => ?_
  rw [shapeCast_apply xs shapeCasts_S32x1x32x64_S32x32x64 (ix3 r p c) (ix4 r (0 : Fin 1) p c) (by
      rw [Shape.rowMajor_val_four, Shape.rowMajor_val_three]
      show ((r.val * 1 + 0) * 32 + p.val) * 64 + c.val = (r.val * 32 + p.val) * 64 + c.val
      omega),
    shapeCast_apply (truncf .bf16 mm bitsLt_bf16_f32) shapeCasts_S32x4096_S32x64x64 (ix3 r c d) (ix2 r (i64 c d)) (by
      rw [Shape.rowMajor_val_two, Shape.rowMajor_val_three]
      show r.val * 4096 + (c.val * 64 + d.val) = (r.val * 64 + c.val) * 64 + d.val
      omega),
    truncf_apply]

/-- Point mixing at (r, o, c): the sum over the 32 points of the generated matrix's entry (position o * 32 + p of the
    row's 4096 generated numbers) times the first stage's entry. -/
theorem pntProd_apply (ss : FVec Ideal S32x4096 .f32) (y : FVec Ideal S32x32x64 .bf16) (r : Fin 32) (o : Fin 128) (c : Fin 64) :
    pntProd ss y (ix3 r o c) = ∑ p : Fin 32, ss (ix2 r (i32 o p)) * y (ix3 r p c) := by
  unfold pntProd
  rw [dotP_apply]
  refine Finset.sum_congr rfl fun p _ => ?_
  rw [shapeCast_apply (truncf .bf16 ss bitsLt_bf16_f32) shapeCasts_S32x4096_S32x128x32 (ix3 r o p) (ix2 r (i32 o p)) (by
      rw [Shape.rowMajor_val_two, Shape.rowMajor_val_three]
      show r.val * 4096 + (o.val * 32 + p.val) = (r.val * 128 + o.val) * 32 + p.val
      omega),
    truncf_apply]

/-- The first stage's normalised, clipped tile at an entry. -/
theorem lnRelu1_apply (t : FVec Ideal S32x32x64 .f32) (T : Fin 32 → Fin 64 → EReal) (r : Fin 32)
    (hT : ∀ p c, t (ix3 r p c) = T p c) (p : Fin 32) (c : Fin 64) :
    relu1 (nrm1 (ctr1 t)) (ix3 r p c) = Cert.Mix.lnRelu Cert.Mix.n1 Cert.Mix.eps T p c := by
  unfold relu1 nrm1 Cert.Mix.lnRelu
  rw [truncf_apply, maximumf_apply, mulf_apply, spread1_apply, ctr1_apply t T r hT, rs1_apply t T r hT, broadcast_apply]
  show max _ (Ideal.ofBits .f32 0x00000000#32) = _
  rw [Ideal.ofBits_zero_f32]

/-- The second stage's normalised, clipped, flattened tile at (r, o * 64 + c). -/
theorem flat2_apply (t : FVec Ideal S32x128x64 .f32) (T : Fin 128 → Fin 64 → EReal) (r : Fin 32)
    (hT : ∀ o c, t (ix3 r o c) = T o c) (o : Fin 128) (c : Fin 64) :
    flat2 (ctr2 t) (rs2 (ctr2 t)) (ix2 r (iF o c)) = Cert.Mix.lnRelu Cert.Mix.n2 Cert.Mix.eps T o c := by
  unfold flat2 Cert.Mix.lnRelu
  rw [shapeCast_apply _ shapeCasts_S32x128x64_S32x8192 (ix2 r (iF o c)) (ix3 r o c) (by
      rw [Shape.rowMajor_val_two, Shape.rowMajor_val_three]
      show (r.val * 128 + o.val) * 64 + c.val = r.val * 8192 + (o.val * 64 + c.val)
      omega),
    truncf_apply, maximumf_apply, mulf_apply, spread2_apply, ctr2_apply t T r hT, rs2_apply t T r hT, broadcast_apply]
  show max _ (Ideal.ofBits .f32 0x00000000#32) = _
  rw [Ideal.ofBits_zero_f32]

/-- A sum over the 8192 positions of a flattened 128 x 64 tile, by rows and lanes. -/
theorem sum8192 (h : Fin 8192 → EReal) : ∑ k : Fin 8192, h k = ∑ o : Fin 128, ∑ c : Fin 64, h (iF o c) :=
  Cert.Mix.sum_fin_mul 128 64 h

/-- The projection at (r, d): the flattened tile against row d of the group's output weight. -/
theorem prj_apply (f : FVec Ideal S32x8192 .bf16) (w : Vec Ideal S1x256x8192 .bf16) (r : Fin 32) (d : Fin 256) :
    prj f w (ix2 r d) = ∑ o : Fin 128, ∑ c : Fin 64, f (ix2 r (iF o c)) * w (ix3 (0 : Fin 1) d (iF o c)) := by
  unfold prj
  rw [dotO_apply, sum8192]
  refine Finset.sum_congr rfl fun o _ => Finset.sum_congr rfl fun c _ => ?_
  rw [shapeCast_1ab_ab_apply]

/-- One group's contribution at (r, d), given what the loaded slabs hold. -/
theorem contrib_apply (l0 : Vec Ideal S32x256 .f32) (xs : FVec Ideal S32x1x32x64 .bf16) (wm : Vec Ideal S4096x256 .bf16) (bm : Vec Ideal S4096 .f32)
    (ws : Vec Ideal S4096x256 .bf16) (bs : Vec Ideal S4096 .f32) (wo : Vec Ideal S1x256x8192 .bf16)
    (q : Fin 256 → EReal) (x : Fin 4 → Fin 32 → Fin 64 → EReal) (wp : Fin 32768 → Fin 256 → EReal) (bp : Fin 32768 → EReal)
    (woF : Fin 256 → Fin 32768 → EReal) (g : Fin 4) (r : Fin 32)
    (hq : ∀ k, l0 (ix2 r k) = q k)
    (hx : ∀ p c, xs (ix4 r (0 : Fin 1) p c) = x g p c)
    (hwm : ∀ c d k, wm (ix2 (i64 c d) k) = wp (Cert.Mix.pIdx g (Cert.Mix.mIdx c d)) k)
    (hbm : ∀ c d, bm (ix1 (i64 c d)) = bp (Cert.Mix.pIdx g (Cert.Mix.mIdx c d)))
    (hws : ∀ o p k, ws (ix2 (i32 o p) k) = wp (Cert.Mix.pIdx g (Cert.Mix.sIdx o p)) k)
    (hbs : ∀ o p, bs (ix1 (i32 o p)) = bp (Cert.Mix.pIdx g (Cert.Mix.sIdx o p)))
    (hwo : ∀ e o c, wo (ix3 (0 : Fin 1) e (iF o c)) = woF e (Cert.Mix.pIdx g (Cert.Mix.fIdx o c)))
    (d : Fin 256) :
    contrib l0 xs wm bm ws bs wo (ix2 r d) = Cert.Mix.proj q x wp bp woF g d := by
  have hgm : ∀ c e, gen (qbf l0) wm bm (ix2 r (i64 c e)) = Cert.Mix.par q wp bp (Cert.Mix.pIdx g (Cert.Mix.mIdx c e)) := fun c e => by
    rw [gen_apply]
    unfold Cert.Mix.par
    simp only [qbf_apply, hq, hwm, hbm]
  have hgs : ∀ o p, gen (qbf l0) ws bs (ix2 r (i32 o p)) = Cert.Mix.par q wp bp (Cert.Mix.pIdx g (Cert.Mix.sIdx o p)) := fun o p => by
    rw [gen_apply]
    unfold Cert.Mix.par
    simp only [qbf_apply, hq, hws, hbs]
  have hchan : ∀ p e, chanProd xs (gen (qbf l0) wm bm) (ix3 r p e) = Cert.Mix.chan q x wp bp g p e := fun p e => by
    rw [chanProd_apply]
    unfold Cert.Mix.chan
    simp only [hx, hgm]
  have hy1 : ∀ p c, stage1 l0 xs wm bm (ix3 r p c) = Cert.Mix.y1 q x wp bp g p c := fun p c => by
    unfold stage1 Cert.Mix.y1
    exact lnRelu1_apply _ _ r hchan p c
  have hpnt : ∀ o c, pntProd (gen (qbf l0) ws bs) (stage1 l0 xs wm bm) (ix3 r o c) = Cert.Mix.pnt q x wp bp g o c := fun o c => by
    rw [pntProd_apply]
    unfold Cert.Mix.pnt
    simp only [hgs, hy1]
  unfold contrib Cert.Mix.proj
  rw [prj_apply]
  refine Finset.sum_congr rfl fun o _ => Finset.sum_congr rfl fun c _ => ?_
  rw [flat2_apply _ _ r hpnt o c, hwo]
  rfl

end Cert.KernelIdeal.Body

end
-- ==== Proof.KBody.lean ====
/-
  What one grid point's body leaves in the output block, read at an entry: row r of the block, entry d, is the
  specification's row result of row r of the query block and of the feature block, with the generator's weight and
  bias read back from their halves and the output weight from its group-major copy. Group g's three slabs are rows
  g * 4096 … of each half and plane g of the output weight; the four contributions are accumulated from zero, left to
  right, under the query and before the bias, which is the specification's sum over the groups re-bracketed.
-/
import proofs.«133475_j28819230556787_2_alg».proof.Proof.KGroup

open scoped BigOperators

noncomputable section

namespace Cert.KernelIdeal.Body

open Idealize.ShloMosaic Idealize.ShloMosaic.ValueIdx Cert.KernelIdeal Cert.KernelIdeal.Gen

/-- The query block and the feature block are loaded whole. -/
theorem ld0 (x : Vec Ideal S32x256 .f32) (r : Fin 32) (k : Fin 256) : View.ld x r0_0 (ix2 r k) = x (ix2 r k) :=
  congrArg x (funext fun a => Fin.ext (by
    match a with
    | ⟨0, _⟩ => show 0 + 1 * r.val = r.val; omega
    | ⟨1, _⟩ => show 0 + 1 * k.val = k.val; omega))

theorem ld1 (x : Vec Ideal S32x4x32x64 .f32) (r : Fin 32) (g : Fin 4) (p : Fin 32) (c : Fin 64) :
    View.ld x r0_1 (ix4 r g p c) = x (ix4 r g p c) :=
  congrArg x (funext fun a => Fin.ext (by
    match a with
    | ⟨0, _⟩ => show 0 + 1 * r.val = r.val; omega
    | ⟨1, _⟩ => show 0 + 1 * g.val = g.val; omega
    | ⟨2, _⟩ => show 0 + 1 * p.val = p.val; omega
    | ⟨3, _⟩ => show 0 + 1 * c.val = c.val; omega))

theorem ld7 (x : Vec Ideal S256 .f32) (e : Fin 256) : View.ld x r0_14 (ix1 e) = x (ix1 e) :=
  congrArg x (funext fun a => Fin.ext (by
    match a with
    | ⟨0, _⟩ => show 0 + 1 * e.val = e.val; omega))

theorem ldW0 (x : Vec Ideal S16384x256 .bf16) (j : Fin 4096) (k : Fin 256) :
    View.ld x r0_2 (ix2 j k) = x (ix2 ⟨0 + j.val, by have := j.isLt; omega⟩ k) :=
  congrArg x (funext fun a => Fin.ext (by
    match a with
    | ⟨0, _⟩ => show 0 + 1 * j.val = 0 + j.val; omega
    | ⟨1, _⟩ => show 0 + 1 * k.val = k.val; omega))

theorem ldB0 (x : Vec Ideal S16384 .f32) (j : Fin 4096) :
    View.ld x r0_3 (ix1 j) = x (ix1 ⟨0 + j.val, by have := j.isLt; omega⟩) :=
  congrArg x (funext fun a => Fin.ext (by
    match a with
    | ⟨0, _⟩ => show 0 + 1 * j.val = 0 + j.val; omega))

theorem ldO0 (x : Vec Ideal S4x256x8192 .bf16) (e : Fin 256) (f : Fin 8192) :
    View.ld x r0_4 (ix3 (0 : Fin 1) e f) = x (ix3 (0 : Fin 4) e f) :=
  congrArg x (funext fun a => Fin.ext (by
    match a with
    | ⟨0, _⟩ => show 0 + 1 * 0 = 0; omega
    | ⟨1, _⟩ => show 0 + 1 * e.val = e.val; omega
    | ⟨2, _⟩ => show 0 + 1 * f.val = f.val; omega))

theorem ldW1 (x : Vec Ideal S16384x256 .bf16) (j : Fin 4096) (k : Fin 256) :
    View.ld x r0_5 (ix2 j k) = x (ix2 ⟨4096 + j.val, by have := j.isLt; omega⟩ k) :=
  congrArg x (funext fun a => Fin.ext (by
    match a with
    | ⟨0, _⟩ => show 4096 + 1 * j.val = 4096 + j.val; omega
    | ⟨1, _⟩ => show 0 + 1 * k.val = k.val; omega))

theorem ldB1 (x : Vec Ideal S16384 .f32) (j : Fin 4096) :
    View.ld x r0_6 (ix1 j) = x (ix1 ⟨4096 + j.val, by have := j.isLt; omega⟩) :=
  congrArg x (funext fun a => Fin.ext (by
    match a with
    | ⟨0, _⟩ => show 4096 + 1 * j.val = 4096 + j.val; omega))

theorem ldO1 (x : Vec Ideal S4x256x8192 .bf16) (e : Fin 256) (f : Fin 8192) :
    View.ld x r0_7 (ix3 (0 : Fin 1) e f) = x (ix3 (1 : Fin 4) e f) :=
  congrArg x (funext fun a => Fin.ext (by
    match a with
    | ⟨0, _⟩ => show 1 + 1 * 0 = 1; omega
    | ⟨1, _⟩ => show 0 + 1 * e.val = e.val; omega
    | ⟨2, _⟩ => show 0 + 1 * f.val = f.val; omega))

theorem ldW2 (x : Vec Ideal S16384x256 .bf16) (j : Fin 4096) (k : Fin 256) :
    View.ld x r0_8 (ix2 j k) = x (ix2 ⟨8192 + j.val, by have := j.isLt; omega⟩ k) :=
  congrArg x (funext fun a => Fin.ext (by
    match a with
    | ⟨0, _⟩ => show 8192 + 1 * j.val = 8192 + j.val; omega
    | ⟨1, _⟩ => show 0 + 1 * k.val = k.val; omega))

theorem ldB2 (x : Vec Ideal S16384 .f32) (j : Fin 4096) :
    View.ld x r0_9 (ix1 j) = x (ix1 ⟨8192 + j.val, by have := j.isLt; omega⟩) :=
  congrArg x (funext fun a => Fin.ext (by
    match a with
    | ⟨0, _⟩ => show 8192 + 1 * j.val = 8192 + j.val; omega))

theorem ldO2 (x : Vec Ideal S4x256x8192 .bf16) (e : Fin 256) (f : Fin 8192) :
    View.ld x r0_10 (ix3 (0 : Fin 1) e f) = x (ix3 (2 : Fin 4) e f) :=
  congrArg x (funext fun a => Fin.ext (by
    match a with
    | ⟨0, _⟩ => show 2 + 1 * 0 = 2; omega
    | ⟨1, _⟩ => show 0 + 1 * e.val = e.val; omega
    | ⟨2, _⟩ => show 0 + 1 * f.val = f.val; omega))

theorem ldW3 (x : Vec Ideal S16384x256 .bf16) (j : Fin 4096) (k : Fin 256) :
    View.ld x r0_11 (ix2 j k) = x (ix2 ⟨12288 + j.val, by have := j.isLt; omega⟩ k) :=
  congrArg x (funext fun a => Fin.ext (by
    match a with
    | ⟨0, _⟩ => show 12288 + 1 * j.val = 12288 + j.val; omega
    | ⟨1, _⟩ => show 0 + 1 * k.val = k.val; omega))

theorem ldB3 (x : Vec Ideal S16384 .f32) (j : Fin 4096) :
    View.ld x r0_12 (ix1 j) = x (ix1 ⟨12288 + j.val, by have := j.isLt; omega⟩) :=
  congrArg x (funext fun a => Fin.ext (by
    match a with
    | ⟨0, _⟩ => show 12288 + 1 * j.val = 12288 + j.val; omega))

theorem ldO3 (x : Vec Ideal S4x256x8192 .bf16) (e : Fin 256) (f : Fin 8192) :
    View.ld x r0_13 (ix3 (0 : Fin 1) e f) = x (ix3 (3 : Fin 4) e f) :=
  congrArg x (funext fun a => Fin.ext (by
    match a with
    | ⟨0, _⟩ => show 3 + 1 * 0 = 3; omega
    | ⟨1, _⟩ => show 0 + 1 * e.val = e.val; omega
    | ⟨2, _⟩ => show 0 + 1 * f.val = f.val; omega))

/-- Group 0's contribution. -/
theorem contrib0_apply (x0 : Vec Ideal S32x256 .f32) (x1 : Vec Ideal S32x4x32x64 .f32) (x2 x3 : Vec Ideal S16384x256 .bf16)
    (x4 x5 : Vec Ideal S16384 .f32) (x6 : Vec Ideal S4x256x8192 .bf16) (r : Fin 32) (d : Fin 256) :
    contrib (View.ld x0 r0_0) (xs0 (View.ld x1 r0_1)) (View.ld x2 r0_2) (View.ld x4 r0_3) (View.ld x3 r0_2) (View.ld x5 r0_3) (View.ld x6 r0_4) (ix2 r d)
      = Cert.Mix.proj (fun k => x0 (ix2 r k)) (fun g p c => x1 (ix4 r g p c)) (Cert.Mix.wpK x2 x3) (Cert.Mix.bpK x4 x5) (Cert.Mix.woK x6) (0 : Fin 4) d :=
  contrib_apply _ _ _ _ _ _ _ _ _ _ _ _ (0 : Fin 4) r
    (fun k => ld0 x0 r k)
    (fun p c => (xs0_apply _ r p c).trans (ld1 x1 r (0 : Fin 4) p c))
    (fun c e k => by
      rw [ldW0, Cert.Mix.wpK_m]
      exact congrArg x2 (congrArg (fun z => ix2 z k) (Fin.ext (by show 0 + (c.val * 64 + e.val) = 0 * 4096 + (c.val * 64 + e.val); omega))))
    (fun c e => by
      rw [ldB0, Cert.Mix.bpK_m]
      exact congrArg x4 (congrArg (fun z => ix1 z) (Fin.ext (by show 0 + (c.val * 64 + e.val) = 0 * 4096 + (c.val * 64 + e.val); omega))))
    (fun o p k => by
      rw [ldW0, Cert.Mix.wpK_s]
      exact congrArg x3 (congrArg (fun z => ix2 z k) (Fin.ext (by show 0 + (o.val * 32 + p.val) = 0 * 4096 + (o.val * 32 + p.val); omega))))
    (fun o p => by
      rw [ldB0, Cert.Mix.bpK_s]
      exact congrArg x5 (congrArg (fun z => ix1 z) (Fin.ext (by show 0 + (o.val * 32 + p.val) = 0 * 4096 + (o.val * 32 + p.val); omega))))
    (fun e o c => by
      rw [ldO0, Cert.Mix.woK_f])
    d

/-- Group 1's contribution. -/
theorem contrib1_apply (x0 : Vec Ideal S32x256 .f32) (x1 : Vec Ideal S32x4x32x64 .f32) (x2 x3 : Vec Ideal S16384x256 .bf16)
    (x4 x5 : Vec Ideal S16384 .f32) (x6 : Vec Ideal S4x256x8192 .bf16) (r : Fin 32) (d : Fin 256) :
    contrib (View.ld x0 r0_0) (xs1 (View.ld x1 r0_1)) (View.ld x2 r0_5) (View.ld x4 r0_6) (View.ld x3 r0_5) (View.ld x5 r0_6) (View.ld x6 r0_7) (ix2 r d)
      = Cert.Mix.proj (fun k => x0 (ix2 r k)) (fun g p c => x1 (ix4 r g p c)) (Cert.Mix.wpK x2 x3) (Cert.Mix.bpK x4 x5) (Cert.Mix.woK x6) (1 : Fin 4) d :=
  contrib_apply _ _ _ _ _ _ _ _ _ _ _ _ (1 : Fin 4) r
    (fun k => ld0 x0 r k)
    (fun p c => (xs1_apply _ r p c).trans (ld1 x1 r (1 : Fin 4) p c))
    (fun c e k => by
      rw [ldW1, Cert.Mix.wpK_m]
      exact congrArg x2 (congrArg (fun z => ix2 z k) (Fin.ext (by show 4096 + (c.val * 64 + e.val) = 1 * 4096 + (c.val * 64 + e.val); omega))))
    (fun c e => by
      rw [ldB1, Cert.Mix.bpK_m]
      exact congrArg x4 (congrArg (fun z => ix1 z) (Fin.ext (by show 4096 + (c.val * 64 + e.val) = 1 * 4096 + (c.val * 64 + e.val); omega))))
    (fun o p k => by
      rw [ldW1, Cert.Mix.wpK_s]
      exact congrArg x3 (congrArg (fun z => ix2 z k) (Fin.ext (by show 4096 + (o.val * 32 + p.val) = 1 * 4096 + (o.val * 32 + p.val); omega))))
    (fun o p => by
      rw [ldB1, Cert.Mix.bpK_s]
      exact congrArg x5 (congrArg (fun z => ix1 z) (Fin.ext (by show 4096 + (o.val * 32 + p.val) = 1 * 4096 + (o.val * 32 + p.val); omega))))
    (fun e o c => by
      rw [ldO1, Cert.Mix.woK_f])
    d

/-- Group 2's contribution. -/
theorem contrib2_apply (x0 : Vec Ideal S32x256 .f32) (x1 : Vec Ideal S32x4x32x64 .f32) (x2 x3 : Vec Ideal S16384x256 .bf16)
    (x4 x5 : Vec Ideal S16384 .f32) (x6 : Vec Ideal S4x256x8192 .bf16) (r : Fin 32) (d : Fin 256) :
    contrib (View.ld x0 r0_0) (xs2 (View.ld x1 r0_1)) (View.ld x2 r0_8) (View.ld x4 r0_9) (View.ld x3 r0_8) (View.ld x5 r0_9) (View.ld x6 r0_10) (ix2 r d)
      = Cert.Mix.proj (fun k => x0 (ix2 r k)) (fun g p c => x1 (ix4 r g p c)) (Cert.Mix.wpK x2 x3) (Cert.Mix.bpK x4 x5) (Cert.Mix.woK x6) (2 : Fin 4) d :=
  contrib_apply _ _ _ _ _ _ _ _ _ _ _ _ (2 : Fin 4) r
    (fun k => ld0 x0 r k)
    (fun p c => (xs2_apply _ r p c).trans (ld1 x1 r (2 : Fin 4) p c))
    (fun c e k => by
      rw [ldW2, Cert.Mix.wpK_m]
      exact congrArg x2 (congrArg (fun z => ix2 z k) (Fin.ext (by show 8192 + (c.val * 64 + e.val) = 2 * 4096 + (c.val * 64 + e.val); omega))))
    (fun c e => by
      rw [ldB2, Cert.Mix.bpK_m]
      exact congrArg x4 (congrArg (fun z => ix1 z) (Fin.ext (by show 8192 + (c.val * 64 + e.val) = 2 * 4096 + (c.val * 64 + e.val); omega))))
    (fun o p k => by
      rw [ldW2, Cert.Mix.wpK_s]
      exact congrArg x3 (congrArg (fun z => ix2 z k) (Fin.ext (by show 8192 + (o.val * 32 + p.val) = 2 * 4096 + (o.val * 32 + p.val); omega))))
    (fun o p => by
      rw [ldB2, Cert.Mix.bpK_s]
      exact congrArg x5 (congrArg (fun z => ix1 z) (Fin.ext (by show 8192 + (o.val * 32 + p.val) = 2 * 4096 + (o.val * 32 + p.val); omega))))
    (fun e o c => by
      rw [ldO2, Cert.Mix.woK_f])
    d

/-- Group 3's contribution. -/
theorem contrib3_apply (x0 : Vec Ideal S32x256 .f32) (x1 : Vec Ideal S32x4x32x64 .f32) (x2 x3 : Vec Ideal S16384x256 .bf16)
    (x4 x5 : Vec Ideal S16384 .f32) (x6 : Vec Ideal S4x256x8192 .bf16) (r : Fin 32) (d : Fin 256) :
    contrib (View.ld x0 r0_0) (xs3 (View.ld x1 r0_1)) (View.ld x2 r0_11) (View.ld x4 r0_12) (View.ld x3 r0_11) (View.ld x5 r0_12) (View.ld x6 r0_13) (ix2 r d)
      = Cert.Mix.proj (fun k => x0 (ix2 r k)) (fun g p c => x1 (ix4 r g p c)) (Cert.Mix.wpK x2 x3) (Cert.Mix.bpK x4 x5) (Cert.Mix.woK x6) (3 : Fin 4) d :=
  contrib_apply _ _ _ _ _ _ _ _ _ _ _ _ (3 : Fin 4) r
    (fun k => ld0 x0 r k)
    (fun p c => (xs3_apply _ r p c).trans (ld1 x1 r (3 : Fin 4) p c))
    (fun c e k => by
      rw [ldW3, Cert.Mix.wpK_m]
      exact congrArg x2 (congrArg (fun z => ix2 z k) (Fin.ext (by show 12288 + (c.val * 64 + e.val) = 3 * 4096 + (c.val * 64 + e.val); omega))))
    (fun c e => by
      rw [ldB3, Cert.Mix.bpK_m]
      exact congrArg x4 (congrArg (fun z => ix1 z) (Fin.ext (by show 12288 + (c.val * 64 + e.val) = 3 * 4096 + (c.val * 64 + e.val); omega))))
    (fun o p k => by
      rw [ldW3, Cert.Mix.wpK_s]
      exact congrArg x3 (congrArg (fun z => ix2 z k) (Fin.ext (by show 12288 + (o.val * 32 + p.val) = 3 * 4096 + (o.val * 32 + p.val); omega))))
    (fun o p => by
      rw [ldB3, Cert.Mix.bpK_s]
      exact congrArg x5 (congrArg (fun z => ix1 z) (Fin.ext (by show 12288 + (o.val * 32 + p.val) = 3 * 4096 + (o.val * 32 + p.val); omega))))
    (fun e o c => by
      rw [ldO3, Cert.Mix.woK_f])
    d

theorem out_apply (x0 : Vec Ideal S32x256 .f32) (x1 : Vec Ideal S32x4x32x64 .f32) (x2 x3 : Vec Ideal S16384x256 .bf16)
    (x4 x5 : Vec Ideal S16384 .f32) (x6 : Vec Ideal S4x256x8192 .bf16) (x7 : Vec Ideal S256 .f32) (r : Fin 32) (d : Fin 256) :
    Gen.out0_8 (F := Ideal) x0 x1 x2 x3 x4 x5 x6 x7 (ix2 r d)
      = Cert.Mix.res (fun k => x0 (ix2 r k)) (fun g p c => x1 (ix4 r g p c)) (Cert.Mix.wpK x2 x3) (Cert.Mix.bpK x4 x5)
          (Cert.Mix.woK x6) (fun e => x7 (ix1 e)) d := by
  rw [out_eq]
  unfold outBlock Cert.Mix.res
  rw [addf_apply, addf_apply, addf_apply, addf_apply, addf_apply, addf_apply, shapeCast_self, ld0, broadcast_apply,
    broadcastTo_1b_ab_apply, shapeCast_a_1a_apply, ld7,
    contrib0_apply, contrib1_apply, contrib2_apply, contrib3_apply, Fin.sum_univ_four]
  show x0 (ix2 r d) + ((((Ideal.ofBits .f32 0x00000000#32 + _) + _) + _) + _) + x7 (ix1 d) = _
  rw [Ideal.ofBits_zero_f32, zero_add, add_assoc (x0 (ix2 r d))]

end Cert.KernelIdeal.Body

end
-- ==== Proof.KValue.lean ====
/-
  The kernel's result array as one function of the six argument arrays.

  At grid point t the body leaves in the output block, at row r and entry d, the specification's row result of the
  blocks' row r; by the block reads that is the specification's flat result at row 32 t + r. So every point writes
  back block t of the flat result; the 125 blocks of 32 rows cover the 4000 rows (row i lies in block i / 32), hence
  the output array ends holding the flat result. The host then reshapes [4000, 256] to [8, 500, 256]: entry
  (b, n, d) is flat entry (500 b + n, d), which is the specification's result at row (b, n). The six argument arrays
  are written by nobody.
-/
import proofs.«133475_j28819230556787_2_alg».proof.Proof.KBlocks
import proofs.«133475_j28819230556787_2_alg».proof.Proof.KBody

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification's flat result [4000, 256] of the arguments as launched on core c. -/
def flatOf (c : Dev nD) : S4000x256.Idx → EReal :=
  Cert.Mix.GFlat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The specification's result [8, 500, 256] of the arguments as launched on core c. -/
def resultOf (c : Dev nD) : S8x500x256.Idx → EReal :=
  Cert.Mix.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-! ## What a point writes back -/

/-- At point t the body's output block, at row r and entry d, is the flat result at row 32 t + r. -/
theorem out_point (c : Dev nD) (t : Fin cfg0.N) (r : Fin 32) (d : Fin 256) :
    out0_8 (F := Ideal) (iblk m c 0 t) (iblk m c 1 t) (iblk m c 2 t) (iblk m c 3 t) (iblk m c 4 t) (iblk m c 5 t) (iblk m c 6 t)
        (iblk m c 7 t) (ix2 r d)
      = flatOf m c (ix2 (rowAt t r) d) := by
  refine (Cert.KernelIdeal.Body.out_apply (iblk m c 0 t) (iblk m c 1 t) (iblk m c 2 t) (iblk m c 3 t) (iblk m c 4 t) (iblk m c 5 t)
    (iblk m c 6 t) (iblk m c 7 t) r d).trans ?_
  rw [blk_q m c t r, blk_x m c t r, blk_wp m c t, blk_bp m c t, blk_wo m c t, blk_bo m c t]
  rfl

/-- Point t writes back block t of the flat result. -/
theorem flushed_eq (c : Dev nD) (t : Fin cfg0.N) :
    (dats m 0 c).flushed 8 t = ((cfg0.win 8).blk t).view.read (Elt Ideal) (flatOf m c) := by
  show (cfg0.win 8).cut (grid0.coords t) ((dats m 0 c).after 8 t) = _
  rw [after0_8]
  funext j
  obtain ⟨r, d, rfl⟩ : ∃ (r : Fin 32) (d : Fin 256), j = ix2 r d := ⟨j 0, j 1, eq_ix2 j⟩
  rw [View.read_apply]
  show out0_8 (F := Ideal) (iblk m c 0 t) (iblk m c 1 t) (iblk m c 2 t) (iblk m c 3 t) (iblk m c 4 t) (iblk m c 5 t) (iblk m c 6 t)
      (iblk m c 7 t) (ix2 r d) = flatOf m c (((cfg0.win 8).blk t).view.emb (ix2 r d))
  refine (out_point m c t r d).trans ?_
  obtain ⟨-, -, -, -, -, -, e0, e1⟩ := idx_rows t
  refine congrArg (flatOf m c) ?_
  funext a
  apply Fin.ext
  match a with
  | ⟨0, _⟩ => show 32 * t.val + r.val = win0_8.index t 0 * 32 + 1 * r.val; rw [e0]; omega
  | ⟨1, _⟩ => show d.val = win0_8.index t 1 * 256 + 1 * d.val; rw [e1]; omega

/-! ## The blocks cover the array -/

/-- An index of the array is in point t's block iff each coordinate is in the block's range on its axis. -/
theorem mem_blk (t : Fin cfg0.N) (i : S4000x256.Idx) :
    i ∈ ((cfg0.win 8).blk t).view.set ↔ ∀ a : Fin 2, win0_8.index t a * S32x256.size a ≤ (i a).val
      ∧ (i a).val < win0_8.index t a * S32x256.size a + S32x256.size a := by
  show i ∈ ((View.whole main_v17).slice (win0_8.rect t)).set ↔ _
  rw [View.set_slice_whole, Rect.mem_set_unit]
  exact Iff.rfl

/-- Row i of the array lies in the block of point i / 32. -/
theorem cover (i : S4000x256.Idx) : ∃ t : Fin cfg0.N, (cfg0.win 8).flush t = true ∧ i ∈ ((cfg0.win 8).blk t).view.set := by
  have hi0 : (i 0).val < 4000 := (i 0).isLt
  have hi1 : (i 1).val < 256 := (i 1).isLt
  obtain ⟨t, ht⟩ : ∃ t : Fin cfg0.N, t.val = (i 0).val / 32 :=
    ⟨⟨(i 0).val / 32, Nat.lt_of_lt_of_eq (by omega : (i 0).val / 32 < 125) N_0.symm⟩, rfl⟩
  refine ⟨t, flush0_8 t, ?_⟩
  rw [mem_blk]
  obtain ⟨-, -, -, -, -, -, e0, e1⟩ := idx_rows t
  intro a
  match a with
  | ⟨0, _⟩ =>
    show win0_8.index t 0 * 32 ≤ (i 0).val ∧ (i 0).val < win0_8.index t 0 * 32 + 32
    rw [e0]; omega
  | ⟨1, _⟩ =>
    show win0_8.index t 1 * 256 ≤ (i 1).val ∧ (i 1).val < win0_8.index t 1 * 256 + 256
    rw [e1]; omega

/-- The output array after the region is the flat result. -/
theorem final (c : Dev nD) : (dats m 0 c).arrAt 8 cfg0.N = flatOf m c :=
  (dats m 0 c).arrAt_eq_of_cover 8 (flatOf m c) (fun t _ => flushed_eq m c t) cover

/-! ## The reshape after the region -/

/-- Entry (b, n, d) of the flat result reshaped to [8, 500, 256] is the result at row (b, n). -/
theorem reshape_flat (c : Dev nD) (h : S4000x256.ShapeCasts S8x500x256) :
    shapeCast S8x500x256 (flatOf m c) h = resultOf m c := by
  funext i
  obtain ⟨b, n, d, rfl⟩ : ∃ (b : Fin 8) (n : Fin 500) (d : Fin 256), i = ix3 b n d := ⟨i 0, i 1, i 2, eq_ix3 i⟩
  have hb := b.isLt
  have hn := n.isLt
  refine (shapeCast_apply (flatOf m c) h (ix3 b n d) (ix2 (⟨b.val * 500 + n.val, by omega⟩ : Fin 4000) d) ?_).trans ?_
  · rw [Shape.rowMajor_val_two, Shape.rowMajor_val_three]
    rfl
  have e1 : Cert.Mix.rowB (⟨b.val * 500 + n.val, by omega⟩ : Fin 4000) = b :=
    Fin.ext (by show (b.val * 500 + n.val) / 500 = b.val; omega)
  have e2 : Cert.Mix.rowN (⟨b.val * 500 + n.val, by omega⟩ : Fin 4000) = n :=
    Fin.ext (by show (b.val * 500 + n.val) % 500 = n.val; omega)
  unfold flatOf resultOf
  rw [Cert.Mix.GFlat_ix2, Cert.Mix.G_ix3, e1, e2]

/-- What the host's last line leaves in the result buffer. -/
theorem tail_eq (c : Dev nD) :
    Pipeline.afterTail₀ cfgs (dats m) 0 (V0 m) [hostOps1] c main_v18 = resultOf m c := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.devRef .tc main_v17)
      = flatOf m c :=
    (Pipeline.withArrays_arr spec0 launch0.win.arr_inj c _ _ 8).trans (final m c)
  rw [hw]
  exact reshape_flat m c shapeCasts_S4000x256_S8x500x256

/-! ## The run -/

/-- Every weakly fair execution of the kernel's @main terminates with the result buffer at the specification's
    result of the arguments as launched, and the arguments unchanged. -/
theorem run : θ_run (defs (F := Ideal)) (onTc (τ := τ) (main (F := Ideal))) ⟨m, fun _ => 0, ρ⟩ (fun r => ∀ c : Dev nD,
      r.2.mem ((c.tc : Thread nD τ).loc main_v18) = Cert.Mix.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 7).trans (((dats m 0 c).arrAt_in 7 rfl _).trans ((A_eq m c 7).trans (V_main_arg5 m c)))⟩) (run_main m ρ)

end Cert.KernelIdeal.KValue

end
-- ==== Proof.RefOps.lean ====
/-
  The reference program's @main as ONE straight line: the four helper calls (variance, relu, variance, relu;
  each variance itself calling the select helper) replaced by their bodies over the buffers of that call.
  Ninety-nine operations, in program order.
-/
import proofs.«133475_j28819230556787_2_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations with every call replaced by the callee's operations, in order. -/
abbrev ops : List (HloOp τ sig (Elt F)) :=
  [
    StableHlo.binary main_arg1 main_arg2 main_v0 ((fun l r => Host.dotGeneral dot_S8x500x256_S32768x256_S8x500x32768_2_1_01_0_n_n none l r) : (⟨S8x500x256, .f32⟩ : BufTy).Contents (Elt F) → (⟨S32768x256, .f32⟩ : BufTy).Contents (Elt F) → (⟨S8x500x32768, .f32⟩ : BufTy).Contents (Elt F)),
    StableHlo.unary main_arg3 main_v1 (broadcastInDim S1x1x32768 ![2] bcast_S32768_S1x1x32768_2 : (⟨S32768, .f32⟩ : BufTy).Contents (Elt F) → (⟨S1x1x32768, .f32⟩ : BufTy).Contents (Elt F)),
    StableHlo.unary main_v1 main_v2 (broadcastInDim S8x500x32768 ![0, 1, 2] bcast_S1x1x32768_S8x500x32768_0_1_2 : (⟨S1x1x32768, .f32⟩ : BufTy).Contents (Elt F) → (⟨S8x500x32768, .f32⟩ : BufTy).Contents (Elt F)),
    StableHlo.binary main_v0 main_v2 main_v3 (addf : (⟨S8x500x32768, .f32⟩ : BufTy).Contents (Elt F) → (⟨S8x500x32768, .f32⟩ : BufTy).Contents (Elt F) → (⟨S8x500x32768, .f32⟩ : BufTy).Contents (Elt F)),
    StableHlo.reshape main_v3 main_v4 rfl shapeCasts_S8x500x32768_S8x500x4x8192,
    StableHlo.unary main_v4 main_v5 ((extractStridedSlice S8x500x4x4096 ![0, 0, 0, 0] · slices_S8x500x4x8192_S8x500x4x4096_0_0_0_0) : (⟨S8x500x4x8192, .f32⟩ : BufTy).Contents (Elt F) → (⟨S8x500x4x4096, .f32⟩ : BufTy).Contents (Elt F)),
    StableHlo.reshape main_v5 main_v6 rfl shapeCasts_S8x500x4x4096_S8x500x4x64x64,
    StableHlo.unary main_v4 main_v7 ((extractStridedSlice S8x500x4x4096 ![0, 0, 0, 4096] · slices_S8x500x4x8192_S8x500x4x4096_0_0_0_4096) : (⟨S8x500x4x8192, .f32⟩ : BufTy).Contents (Elt F) → (⟨S8x500x4x4096, .f32⟩ : BufTy).Contents (Elt F)),
    StableHlo.reshape main_v7 main_v8 rfl shapeCasts_S8x500x4x4096_S8x500x4x128x32,
    StableHlo.binary main_arg0 main_v6 main_v9 ((fun l r => Host.dotGeneral dot_S8x500x4x32x64_S8x500x4x64x64_S8x500x4x32x64_4_3_3_4_012_012 none l r) : (⟨S8x500x4x32x64, .f32⟩ : BufTy).Contents (Elt F) → (⟨S8x500x4x64x64, .f32⟩ : BufTy).Contents (Elt F) → (⟨S8x500x4x32x64, .f32⟩ : BufTy).Contents (Elt F)),
    StableHlo.nullary main_cst (constant S_ .f32 0x00000000#32),
    StableHlo.binary main_v9 main_cst main_v10 ((fun x v => Host.reduceAdd x v reducesTo_S8x500x4x32x64_S8x500x4_d3_4 h_S_) : (⟨S8x500x4x32x64, .f32⟩ : BufTy).Contents (Elt F) → (⟨S_, .f32⟩ : BufTy).Contents (Elt F) → (⟨S8x500x4, .f32⟩ : BufTy).Contents (Elt F)),
    StableHlo.unary main_v10 main_v11 (broadcastInDim S8x500x4x1x1 ![0, 1, 2] bcast_S8x500x4_S8x500x4x1x1_0_1_2 : (⟨S8x500x4, .f32⟩ : BufTy).Contents (Elt F) → (⟨S8x500x4x1x1, .f32⟩ : BufTy).Contents (Elt F)),
    StableHlo.nullary main_cst_0 (constant S_ .f32 0x45000000#32),
    StableHlo.unary main_cst_0 main_v12 (broadcastInDim S8x500x4x1x1 ![] bcast_S_S8x500x4x1x1 : (⟨S_, .f32⟩ : BufTy).Contents (Elt F) → (⟨S8x500x4x1x1, .f32⟩ : BufTy).Contents (Elt F)),
    StableHlo.binary main_v11 main_v12 main_v13 (Host.divf : (⟨S8x500x4x1x1, .f32⟩ : BufTy).Contents (Elt F) → (⟨S8x500x4x1x1, .f32⟩ : BufTy).Contents (Elt F) → (⟨S8x500x4x1x1, .f32⟩ : BufTy).Contents (Elt F)),
    StableHlo.nullary main_c (constantI S_ 32 0#32),
    StableHlo.TRef.nullary main_call0.cst (constant S_ .f32 0x00000000#32),
    StableHlo.TRef.binary (.of main_v9) main_call0.cst main_call0.v0 (fun x v => Host.reduceAdd x v reducesTo_S8x500x4x32x64_S8x500x4_d3_4 h_S_),
    StableHlo.TRef.unary main_call0.v0 main_call0.v1 (broadcastInDim S8x500x4x1x1 ![0, 1, 2] bcast_S8x500x4_S8x500x4x1x1_0_1_2),
    StableHlo.TRef.nullary main_call0.cst_0 (constant S_ .f32 0x45000000#32),
    StableHlo.TRef.unary main_call0.cst_0 main_call0.v2 (broadcastInDim S8x500x4x1x1 ![] bcast_S_S8x500x4x1x1),
    StableHlo.TRef.binary main_call0.v1 main_call0.v2 main_call0.v3 Host.divf,
    StableHlo.TRef.unary main_call0.v3 main_call0.v4 (broadcastInDim S8x500x4x32x64 ![0, 1, 2, 3, 4] bcast_S8x500x4x1x1_S8x500x4x32x64_0_1_2_3_4),
    StableHlo.TRef.binary (.of main_v9) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x45000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8x500x4x32x64_S8x500x4_d3_4 h_S_),
    StableHlo.TRef.unary main_call0.v9 main_call0.v10 (broadcastInDim S8x500x4x1x1 ![0, 1, 2] bcast_S8x500x4_S8x500x4x1x1_0_1_2),
    StableHlo.TRef.unary main_call0.v8 main_call0.v11 (broadcastInDim S8x500x4x1x1 ![] bcast_S_S8x500x4x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8x500x4x1x1 ![] bcast_S_S8x500x4x1x1),
    StableHlo.TRef.ternary main_call0.v13 main_call0.v12 main_call0.call0.v1 main_call0.call0.v2 (fun p a b => select (broadcastInDim S8x500x4x1x1 ![] bcast_S_S8x500x4x1x1 p) a b),
    StableHlo.unary main_v13 main_v15 (broadcastInDim S8x500x4x32x64 ![0, 1, 2, 3, 4] bcast_S8x500x4x1x1_S8x500x4x32x64_0_1_2_3_4 : (⟨S8x500x4x1x1, .f32⟩ : BufTy).Contents (Elt F) → (⟨S8x500x4x32x64, .f32⟩ : BufTy).Contents (Elt F)),
    StableHlo.binary main_v9 main_v15 main_v16 (subf : (⟨S8x500x4x32x64, .f32⟩ : BufTy).Contents (Elt F) → (⟨S8x500x4x32x64, .f32⟩ : BufTy).Contents (Elt F) → (⟨S8x500x4x32x64, .f32⟩ : BufTy).Contents (Elt F)),
    StableHlo.nullary main_cst_1 (constant S_ .f32 0x3727C5AC#32),
    StableHlo.unary main_cst_1 main_v17 (broadcastInDim S8x500x4x1x1 ![] bcast_S_S8x500x4x1x1 : (⟨S_, .f32⟩ : BufTy).Contents (Elt F) → (⟨S8x500x4x1x1, .f32⟩ : BufTy).Contents (Elt F)),
    StableHlo.binary main_v14 main_v17 main_v18 (addf : (⟨S8x500x4x1x1, .f32⟩ : BufTy).Contents (Elt F) → (⟨S8x500x4x1x1, .f32⟩ : BufTy).Contents (Elt F) → (⟨S8x500x4x1x1, .f32⟩ : BufTy).Contents (Elt F)),
    StableHlo.unary main_v18 main_v19 (Host.rsqrt : (⟨S8x500x4x1x1, .f32⟩ : BufTy).Contents (Elt F) → (⟨S8x500x4x1x1, .f32⟩ : BufTy).Contents (Elt F)),
    StableHlo.unary main_v19 main_v20 (broadcastInDim S8x500x4x32x64 ![0, 1, 2, 3, 4] bcast_S8x500x4x1x1_S8x500x4x32x64_0_1_2_3_4 : (⟨S8x500x4x1x1, .f32⟩ : BufTy).Contents (Elt F) → (⟨S8x500x4x32x64, .f32⟩ : BufTy).Contents (Elt F)),
    StableHlo.binary main_v16 main_v20 main_v21 (mulf : (⟨S8x500x4x32x64, .f32⟩ : BufTy).Contents (Elt F) → (⟨S8x500x4x32x64, .f32⟩ : BufTy).Contents (Elt F) → (⟨S8x500x4x32x64, .f32⟩ : BufTy).Contents (Elt F)),
    StableHlo.TRef.nullary main_call1.cst (constant S_ .f32 0x00000000#32),
    StableHlo.TRef.unary main_call1.cst main_call1.v0 (broadcastInDim S8x500x4x32x64 ![] bcast_S_S8x500x4x32x64),
    StableHlo.TRef.binary (.of main_v21) main_call1.v0 main_call1.v1 maximumf,
    StableHlo.binary main_v8 main_v22 main_v23 ((fun l r => Host.dotGeneral dot_S8x500x4x128x32_S8x500x4x32x64_S8x500x4x128x64_4_3_3_4_012_012 none l r) : (⟨S8x500x4x128x32, .f32⟩ : BufTy).Contents (Elt F) → (⟨S8x500x4x32x64, .f32⟩ : BufTy).Contents (Elt F) → (⟨S8x500x4x128x64, .f32⟩ : BufTy).Contents (Elt F)),
    StableHlo.nullary main_cst_2 (constant S_ .f32 0x00000000#32),
    StableHlo.binary main_v23 main_cst_2 main_v24 ((fun x v => Host.reduceAdd x v reducesTo_S8x500x4x128x64_S8x500x4_d3_4 h_S_) : (⟨S8x500x4x128x64, .f32⟩ : BufTy).Contents (Elt F) → (⟨S_, .f32⟩ : BufTy).Contents (Elt F) → (⟨S8x500x4, .f32⟩ : BufTy).Contents (Elt F)),
    StableHlo.unary main_v24 main_v25 (broadcastInDim S8x500x4x1x1 ![0, 1, 2] bcast_S8x500x4_S8x500x4x1x1_0_1_2 : (⟨S8x500x4, .f32⟩ : BufTy).Contents (Elt F) → (⟨S8x500x4x1x1, .f32⟩ : BufTy).Contents (Elt F)),
    StableHlo.nullary main_cst_3 (constant S_ .f32 0x46000000#32),
    StableHlo.unary main_cst_3 main_v26 (broadcastInDim S8x500x4x1x1 ![] bcast_S_S8x500x4x1x1 : (⟨S_, .f32⟩ : BufTy).Contents (Elt F) → (⟨S8x500x4x1x1, .f32⟩ : BufTy).Contents (Elt F)),
    StableHlo.binary main_v25 main_v26 main_v27 (Host.divf : (⟨S8x500x4x1x1, .f32⟩ : BufTy).Contents (Elt F) → (⟨S8x500x4x1x1, .f32⟩ : BufTy).Contents (Elt F) → (⟨S8x500x4x1x1, .f32⟩ : BufTy).Contents (Elt F)),
    StableHlo.nullary main_c_4 (constantI S_ 32 0#32),
    StableHlo.TRef.nullary main_call2.cst (constant S_ .f32 0x00000000#32),
    StableHlo.TRef.binary (.of main_v23) main_call2.cst main_call2.v0 (fun x v => Host.reduceAdd x v reducesTo_S8x500x4x128x64_S8x500x4_d3_4 h_S_),
    StableHlo.TRef.unary main_call2.v0 main_call2.v1 (broadcastInDim S8x500x4x1x1 ![0, 1, 2] bcast_S8x500x4_S8x500x4x1x1_0_1_2),
    StableHlo.TRef.nullary main_call2.cst_0 (constant S_ .f32 0x46000000#32),
    StableHlo.TRef.unary main_call2.cst_0 main_call2.v2 (broadcastInDim S8x500x4x1x1 ![] bcast_S_S8x500x4x1x1),
    StableHlo.TRef.binary main_call2.v1 main_call2.v2 main_call2.v3 Host.divf,
    StableHlo.TRef.unary main_call2.v3 main_call2.v4 (broadcastInDim S8x500x4x128x64 ![0, 1, 2, 3, 4] bcast_S8x500x4x1x1_S8x500x4x128x64_0_1_2_3_4),
    StableHlo.TRef.binary (.of main_v23) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x46000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S8x500x4x128x64_S8x500x4_d3_4 h_S_),
    StableHlo.TRef.unary main_call2.v9 main_call2.v10 (broadcastInDim S8x500x4x1x1 ![0, 1, 2] bcast_S8x500x4_S8x500x4x1x1_0_1_2),
    StableHlo.TRef.unary main_call2.v8 main_call2.v11 (broadcastInDim S8x500x4x1x1 ![] bcast_S_S8x500x4x1x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S8x500x4x1x1 ![] bcast_S_S8x500x4x1x1),
    StableHlo.TRef.ternary main_call2.v13 main_call2.v12 main_call2.call0.v1 main_call2.call0.v2 (fun p a b => select (broadcastInDim S8x500x4x1x1 ![] bcast_S_S8x500x4x1x1 p) a b),
    StableHlo.unary main_v27 main_v29 (broadcastInDim S8x500x4x128x64 ![0, 1, 2, 3, 4] bcast_S8x500x4x1x1_S8x500x4x128x64_0_1_2_3_4 : (⟨S8x500x4x1x1, .f32⟩ : BufTy).Contents (Elt F) → (⟨S8x500x4x128x64, .f32⟩ : BufTy).Contents (Elt F)),
    StableHlo.binary main_v23 main_v29 main_v30 (subf : (⟨S8x500x4x128x64, .f32⟩ : BufTy).Contents (Elt F) → (⟨S8x500x4x128x64, .f32⟩ : BufTy).Contents (Elt F) → (⟨S8x500x4x128x64, .f32⟩ : BufTy).Contents (Elt F)),
    StableHlo.nullary main_cst_5 (constant S_ .f32 0x3727C5AC#32),
    StableHlo.unary main_cst_5 main_v31 (broadcastInDim S8x500x4x1x1 ![] bcast_S_S8x500x4x1x1 : (⟨S_, .f32⟩ : BufTy).Contents (Elt F) → (⟨S8x500x4x1x1, .f32⟩ : BufTy).Contents (Elt F)),
    StableHlo.binary main_v28 main_v31 main_v32 (addf : (⟨S8x500x4x1x1, .f32⟩ : BufTy).Contents (Elt F) → (⟨S8x500x4x1x1, .f32⟩ : BufTy).Contents (Elt F) → (⟨S8x500x4x1x1, .f32⟩ : BufTy).Contents (Elt F)),
    StableHlo.unary main_v32 main_v33 (Host.rsqrt : (⟨S8x500x4x1x1, .f32⟩ : BufTy).Contents (Elt F) → (⟨S8x500x4x1x1, .f32⟩ : BufTy).Contents (Elt F)),
    StableHlo.unary main_v33 main_v34 (broadcastInDim S8x500x4x128x64 ![0, 1, 2, 3, 4] bcast_S8x500x4x1x1_S8x500x4x128x64_0_1_2_3_4 : (⟨S8x500x4x1x1, .f32⟩ : BufTy).Contents (Elt F) → (⟨S8x500x4x128x64, .f32⟩ : BufTy).Contents (Elt F)),
    StableHlo.binary main_v30 main_v34 main_v35 (mulf : (⟨S8x500x4x128x64, .f32⟩ : BufTy).Contents (Elt F) → (⟨S8x500x4x128x64, .f32⟩ : BufTy).Contents (Elt F) → (⟨S8x500x4x128x64, .f32⟩ : BufTy).Contents (Elt F)),
    StableHlo.TRef.nullary main_call3.cst (constant S_ .f32 0x00000000#32),
    StableHlo.TRef.unary main_call3.cst main_call3.v0 (broadcastInDim S8x500x4x128x64 ![] bcast_S_S8x500x4x128x64),
    StableHlo.TRef.binary (.of main_v35) main_call3.v0 main_call3.v1 maximumf,
    StableHlo.reshape main_v36 main_v37 rfl shapeCasts_S8x500x4x128x64_S8x500x32768,
    StableHlo.binary main_v37 main_arg4 main_v38 ((fun l r => Host.dotGeneral dot_S8x500x32768_S256x32768_S8x500x256_2_1_01_0_n_n none l r) : (⟨S8x500x32768, .f32⟩ : BufTy).Contents (Elt F) → (⟨S256x32768, .f32⟩ : BufTy).Contents (Elt F) → (⟨S8x500x256, .f32⟩ : BufTy).Contents (Elt F)),
    StableHlo.unary main_arg5 main_v39 (broadcastInDim S1x1x256 ![2] bcast_S256_S1x1x256_2 : (⟨S256, .f32⟩ : BufTy).Contents (Elt F) → (⟨S1x1x256, .f32⟩ : BufTy).Contents (Elt F)),
    StableHlo.unary main_v39 main_v40 (broadcastInDim S8x500x256 ![0, 1, 2] bcast_S1x1x256_S8x500x256_0_1_2 : (⟨S1x1x256, .f32⟩ : BufTy).Contents (Elt F) → (⟨S8x500x256, .f32⟩ : BufTy).Contents (Elt F)),
    StableHlo.binary main_v38 main_v40 main_v41 (addf : (⟨S8x500x256, .f32⟩ : BufTy).Contents (Elt F) → (⟨S8x500x256, .f32⟩ : BufTy).Contents (Elt F) → (⟨S8x500x256, .f32⟩ : BufTy).Contents (Elt F)),
    StableHlo.binary main_arg1 main_v41 main_v42 (addf : (⟨S8x500x256, .f32⟩ : BufTy).Contents (Elt F) → (⟨S8x500x256, .f32⟩ : BufTy).Contents (Elt F) → (⟨S8x500x256, .f32⟩ : BufTy).Contents (Elt F)) ]

set_option maxRecDepth 4096 in
/-- @main is that straight line: unfold each helper at its call and reassociate the sequencing. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., unary_bufs_sub .., unary_bufs_sub .., binary_bufs_sub .., reshape_bufs_sub .., unary_bufs_sub ..,
    reshape_bufs_sub .., unary_bufs_sub .., reshape_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    nullary_bufs_sub .., unary_bufs_sub .., binary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    nullary_bufs_sub .., unary_bufs_sub .., binary_bufs_sub .., reshape_bufs_sub .., binary_bufs_sub .., unary_bufs_sub ..,
    unary_bufs_sub .., binary_bufs_sub .., binary_bufs_sub ..⟩

end Cert.ReferenceIdeal.RefValue

end
-- ==== Proof.RefTerm.lean ====
/-
  The value the reference program computes, as a function of its six argument arrays: the operations of the
  program in the program's own order, grouped into named stages. Each stage unfolds to exactly the operations
  printed; nothing is rearranged.
-/
import proofs.«133475_j28819230556787_2_alg».proof.Proof.Gen.ReferenceIdeal
import proofs.«133475_j28819230556787_2_alg».proof.Proof.MixSpec

noncomputable section

namespace Cert.ReferenceIdeal.RefValue

open Cert.ReferenceIdeal Idealize.ShloMosaic
open Cert.ReferenceIdeal.Facts₀

/-! ## The generated parameters -/

/-- The 32768 generated parameters of every row: the query against the generator's weight, plus its bias
    broadcast over the rows. -/
def params (q : FVec Ideal S8x500x256 .f32) (wp : FVec Ideal S32768x256 .f32) (bp : FVec Ideal S32768 .f32) :
    FVec Ideal S8x500x32768 .f32 :=
  addf (Host.dotGeneral (F := Ideal) dot_S8x500x256_S32768x256_S8x500x32768_2_1_01_0_n_n none q wp)
    (broadcastInDim S8x500x32768 ![0, 1, 2] bcast_S1x1x32768_S8x500x32768_0_1_2
      (broadcastInDim S1x1x32768 ![2] bcast_S32768_S1x1x32768_2 bp))

/-- The parameters split by group: [8, 500, 4, 8192]. -/
def paramsG (q : FVec Ideal S8x500x256 .f32) (wp : FVec Ideal S32768x256 .f32) (bp : FVec Ideal S32768 .f32) :
    FVec Ideal S8x500x4x8192 .f32 :=
  shapeCast S8x500x4x8192 (params q wp bp) shapeCasts_S8x500x32768_S8x500x4x8192

/-- Each group's first 4096 parameters as a 64 x 64 channel-mixing matrix. -/
def chanMat (q : FVec Ideal S8x500x256 .f32) (wp : FVec Ideal S32768x256 .f32) (bp : FVec Ideal S32768 .f32) :
    FVec Ideal S8x500x4x64x64 .f32 :=
  shapeCast S8x500x4x64x64
    (extractStridedSlice S8x500x4x4096 ![0, 0, 0, 0] (paramsG q wp bp) slices_S8x500x4x8192_S8x500x4x4096_0_0_0_0)
    shapeCasts_S8x500x4x4096_S8x500x4x64x64

/-- Each group's last 4096 parameters as a 128 x 32 point-mixing matrix. -/
def pntMat (q : FVec Ideal S8x500x256 .f32) (wp : FVec Ideal S32768x256 .f32) (bp : FVec Ideal S32768 .f32) :
    FVec Ideal S8x500x4x128x32 .f32 :=
  shapeCast S8x500x4x128x32
    (extractStridedSlice S8x500x4x4096 ![0, 0, 0, 4096] (paramsG q wp bp) slices_S8x500x4x8192_S8x500x4x4096_0_0_0_4096)
    shapeCasts_S8x500x4x4096_S8x500x4x128x32

/-! ## Normalisation over a 32 x 64 tile, then the positive part -/

/-- The mean of every 32 x 64 tile: the tile's sum over the count 2048. -/
def mean1 (t : FVec Ideal S8x500x4x32x64 .f32) : FVec Ideal S8x500x4x1x1 .f32 :=
  Host.divf
    (broadcastInDim S8x500x4x1x1 ![0, 1, 2] bcast_S8x500x4_S8x500x4x1x1_0_1_2
      (Host.reduceAdd t (constant (F := Ideal) S_ .f32 0x00000000#32) reducesTo_S8x500x4x32x64_S8x500x4_d3_4 h_S_))
    (broadcastInDim S8x500x4x1x1 ![] bcast_S_S8x500x4x1x1 (constant (F := Ideal) S_ .f32 0x45000000#32))

/-- The squared deviations of a 32 x 64 tile from its mean. -/
def sqDev1 (t : FVec Ideal S8x500x4x32x64 .f32) : FVec Ideal S8x500x4x32x64 .f32 :=
  mulf
    (subf t (broadcastInDim S8x500x4x32x64 ![0, 1, 2, 3, 4] bcast_S8x500x4x1x1_S8x500x4x32x64_0_1_2_3_4 (mean1 t)))
    (subf t (broadcastInDim S8x500x4x32x64 ![0, 1, 2, 3, 4] bcast_S8x500x4x1x1_S8x500x4x32x64_0_1_2_3_4 (mean1 t)))

/-- The normaliser of the variance: the count 2048 less the (zero) degrees-of-freedom correction. -/
def normaliser1 : FVec Ideal S_ .f32 :=
  subf (constant (F := Ideal) S_ .f32 0x45000000#32) (sitofp (F := Ideal) .f32 (constantI S_ 32 0#32))

/-- The variance of every 32 x 64 tile: the mean squared deviation where the normaliser is positive, the
    not-a-number word elsewhere. -/
def var1 (t : FVec Ideal S8x500x4x32x64 .f32) : FVec Ideal S8x500x4x1x1 .f32 :=
  select
    (broadcastInDim S8x500x4x1x1 ![] bcast_S_S8x500x4x1x1
      (cmpf .ogt normaliser1 (constant (F := Ideal) S_ .f32 0x00000000#32)))
    (Host.divf
      (broadcastInDim S8x500x4x1x1 ![0, 1, 2] bcast_S8x500x4_S8x500x4x1x1_0_1_2
        (Host.reduceAdd (sqDev1 t) (constant (F := Ideal) S_ .f32 0x00000000#32)
          reducesTo_S8x500x4x32x64_S8x500x4_d3_4 h_S_))
      (broadcastInDim S8x500x4x1x1 ![] bcast_S_S8x500x4x1x1 normaliser1))
    (broadcastInDim S8x500x4x1x1 ![] bcast_S_S8x500x4x1x1 (id (constant (F := Ideal) S_ .f32 0x7FC00000#32)))

/-- A 32 x 64 tile normalised over the whole tile, then clipped at zero. -/
def norm1 (t : FVec Ideal S8x500x4x32x64 .f32) : FVec Ideal S8x500x4x32x64 .f32 :=
  maximumf
    (mulf
      (subf t (broadcastInDim S8x500x4x32x64 ![0, 1, 2, 3, 4] bcast_S8x500x4x1x1_S8x500x4x32x64_0_1_2_3_4 (mean1 t)))
      (broadcastInDim S8x500x4x32x64 ![0, 1, 2, 3, 4] bcast_S8x500x4x1x1_S8x500x4x32x64_0_1_2_3_4
        (Host.rsqrt
          (addf (var1 t)
            (broadcastInDim S8x500x4x1x1 ![] bcast_S_S8x500x4x1x1 (constant (F := Ideal) S_ .f32 0x3727C5AC#32))))))
    (broadcastInDim S8x500x4x32x64 ![] bcast_S_S8x500x4x32x64 (constant (F := Ideal) S_ .f32 0x00000000#32))

/-! ## Normalisation over a 128 x 64 tile, then the positive part -/

/-- The mean of every 128 x 64 tile: the tile's sum over the count 8192. -/
def mean2 (t : FVec Ideal S8x500x4x128x64 .f32) : FVec Ideal S8x500x4x1x1 .f32 :=
  Host.divf
    (broadcastInDim S8x500x4x1x1 ![0, 1, 2] bcast_S8x500x4_S8x500x4x1x1_0_1_2
      (Host.reduceAdd t (constant (F := Ideal) S_ .f32 0x00000000#32) reducesTo_S8x500x4x128x64_S8x500x4_d3_4 h_S_))
    (broadcastInDim S8x500x4x1x1 ![] bcast_S_S8x500x4x1x1 (constant (F := Ideal) S_ .f32 0x46000000#32))

/-- The squared deviations of a 128 x 64 tile from its mean. -/
def sqDev2 (t : FVec Ideal S8x500x4x128x64 .f32) : FVec Ideal S8x500x4x128x64 .f32 :=
  mulf
    (subf t (broadcastInDim S8x500x4x128x64 ![0, 1, 2, 3, 4] bcast_S8x500x4x1x1_S8x500x4x128x64_0_1_2_3_4 (mean2 t)))
    (subf t (broadcastInDim S8x500x4x128x64 ![0, 1, 2, 3, 4] bcast_S8x500x4x1x1_S8x500x4x128x64_0_1_2_3_4 (mean2 t)))

/-- The normaliser of the variance: the count 8192 less the (zero) degrees-of-freedom correction. -/
def normaliser2 : FVec Ideal S_ .f32 :=
  subf (constant (F := Ideal) S_ .f32 0x46000000#32) (sitofp (F := Ideal) .f32 (constantI S_ 32 0#32))

/-- The variance of every 128 x 64 tile, guarded as for the smaller tile. -/
def var2 (t : FVec Ideal S8x500x4x128x64 .f32) : FVec Ideal S8x500x4x1x1 .f32 :=
  select
    (broadcastInDim S8x500x4x1x1 ![] bcast_S_S8x500x4x1x1
      (cmpf .ogt normaliser2 (constant (F := Ideal) S_ .f32 0x00000000#32)))
    (Host.divf
      (broadcastInDim S8x500x4x1x1 ![0, 1, 2] bcast_S8x500x4_S8x500x4x1x1_0_1_2
        (Host.reduceAdd (sqDev2 t) (constant (F := Ideal) S_ .f32 0x00000000#32)
          reducesTo_S8x500x4x128x64_S8x500x4_d3_4 h_S_))
      (broadcastInDim S8x500x4x1x1 ![] bcast_S_S8x500x4x1x1 normaliser2))
    (broadcastInDim S8x500x4x1x1 ![] bcast_S_S8x500x4x1x1 (id (constant (F := Ideal) S_ .f32 0x7FC00000#32)))

/-- A 128 x 64 tile normalised over the whole tile, then clipped at zero. -/
def norm2 (t : FVec Ideal S8x500x4x128x64 .f32) : FVec Ideal S8x500x4x128x64 .f32 :=
  maximumf
    (mulf
      (subf t (broadcastInDim S8x500x4x128x64 ![0, 1, 2, 3, 4] bcast_S8x500x4x1x1_S8x500x4x128x64_0_1_2_3_4 (mean2 t)))
      (broadcastInDim S8x500x4x128x64 ![0, 1, 2, 3, 4] bcast_S8x500x4x1x1_S8x500x4x128x64_0_1_2_3_4
        (Host.rsqrt
          (addf (var2 t)
            (broadcastInDim S8x500x4x1x1 ![] bcast_S_S8x500x4x1x1 (constant (F := Ideal) S_ .f32 0x3727C5AC#32))))))
    (broadcastInDim S8x500x4x128x64 ![] bcast_S_S8x500x4x128x64 (constant (F := Ideal) S_ .f32 0x00000000#32))

/-! ## The two mixing products and the projection -/

/-- Channel mixing: every group's 32 x 64 tile against its 64 x 64 matrix. -/
def chanMix (x : FVec Ideal S8x500x4x32x64 .f32) (q : FVec Ideal S8x500x256 .f32) (wp : FVec Ideal S32768x256 .f32)
    (bp : FVec Ideal S32768 .f32) : FVec Ideal S8x500x4x32x64 .f32 :=
  Host.dotGeneral (F := Ideal) dot_S8x500x4x32x64_S8x500x4x64x64_S8x500x4x32x64_4_3_3_4_012_012 none x (chanMat q wp bp)

/-- Point mixing: every group's 128 x 32 matrix against the normalised, clipped first-stage tile. -/
def pntMix (x : FVec Ideal S8x500x4x32x64 .f32) (q : FVec Ideal S8x500x256 .f32) (wp : FVec Ideal S32768x256 .f32)
    (bp : FVec Ideal S32768 .f32) : FVec Ideal S8x500x4x128x64 .f32 :=
  Host.dotGeneral (F := Ideal) dot_S8x500x4x128x32_S8x500x4x32x64_S8x500x4x128x64_4_3_3_4_012_012 none
    (pntMat q wp bp) (norm1 (chanMix x q wp bp))

/-- The second stage's output, flattened per row to 32768 entries. -/
def flat (x : FVec Ideal S8x500x4x32x64 .f32) (q : FVec Ideal S8x500x256 .f32) (wp : FVec Ideal S32768x256 .f32)
    (bp : FVec Ideal S32768 .f32) : FVec Ideal S8x500x32768 .f32 :=
  shapeCast S8x500x32768 (norm2 (pntMix x q wp bp)) shapeCasts_S8x500x4x128x64_S8x500x32768

/-- The whole result: the query plus (the projection of the flattened output plus the output bias). -/
def term (x : FVec Ideal S8x500x4x32x64 .f32) (q : FVec Ideal S8x500x256 .f32) (wp : FVec Ideal S32768x256 .f32)
    (bp : FVec Ideal S32768 .f32) (wo : FVec Ideal S256x32768 .f32) (bo : FVec Ideal S256 .f32) :
    FVec Ideal S8x500x256 .f32 :=
  addf q
    (addf
      (Host.dotGeneral (F := Ideal) dot_S8x500x32768_S256x32768_S8x500x256_2_1_01_0_n_n none (flat x q wp bp) wo)
      (broadcastInDim S8x500x256 ![0, 1, 2] bcast_S1x1x256_S8x500x256_0_1_2
        (broadcastInDim S1x1x256 ![2] bcast_S256_S1x1x256_2 bo)))

end Cert.ReferenceIdeal.RefValue

end
-- ==== Proof.RefRun.lean ====
/-
  What the reference program leaves in its result buffer, and that it leaves its six arguments alone.

  The straight line of ninety-nine operations is cut at the places where one array carries everything the
  rest needs: after the channel-mixing product (A), after the first normalise-and-clip (B), after the second
  (D), and the projection with the residual sum (E). For each piece, what each buffer still read afterwards
  holds at the end of the piece is computed from what the buffers hold at its start; composing the four gives
  the result as the staged term of the six argument arrays.
-/
import proofs.«133475_j28819230556787_2_alg».proof.Proof.RefOps
import proofs.«133475_j28819230556787_2_alg».proof.Proof.RefTerm
import Idealize.ShloMosaic.Lib.Pipeline.Frame

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-- A: the generated parameters, their two matrices, and the channel-mixing product (operations 1 to 10). -/
abbrev opsA : List (HloOp τ sig (Elt F)) :=
  [
    StableHlo.binary main_arg1 main_arg2 main_v0 ((fun l r => Host.dotGeneral dot_S8x500x256_S32768x256_S8x500x32768_2_1_01_0_n_n none l r) : (⟨S8x500x256, .f32⟩ : BufTy).Contents (Elt F) → (⟨S32768x256, .f32⟩ : BufTy).Contents (Elt F) → (⟨S8x500x32768, .f32⟩ : BufTy).Contents (Elt F)),
    StableHlo.unary main_arg3 main_v1 (broadcastInDim S1x1x32768 ![2] bcast_S32768_S1x1x32768_2 : (⟨S32768, .f32⟩ : BufTy).Contents (Elt F) → (⟨S1x1x32768, .f32⟩ : BufTy).Contents (Elt F)),
    StableHlo.unary main_v1 main_v2 (broadcastInDim S8x500x32768 ![0, 1, 2] bcast_S1x1x32768_S8x500x32768_0_1_2 : (⟨S1x1x32768, .f32⟩ : BufTy).Contents (Elt F) → (⟨S8x500x32768, .f32⟩ : BufTy).Contents (Elt F)),
    StableHlo.binary main_v0 main_v2 main_v3 (addf : (⟨S8x500x32768, .f32⟩ : BufTy).Contents (Elt F) → (⟨S8x500x32768, .f32⟩ : BufTy).Contents (Elt F) → (⟨S8x500x32768, .f32⟩ : BufTy).Contents (Elt F)),
    StableHlo.reshape main_v3 main_v4 rfl shapeCasts_S8x500x32768_S8x500x4x8192,
    StableHlo.unary main_v4 main_v5 ((extractStridedSlice S8x500x4x4096 ![0, 0, 0, 0] · slices_S8x500x4x8192_S8x500x4x4096_0_0_0_0) : (⟨S8x500x4x8192, .f32⟩ : BufTy).Contents (Elt F) → (⟨S8x500x4x4096, .f32⟩ : BufTy).Contents (Elt F)),
    StableHlo.reshape main_v5 main_v6 rfl shapeCasts_S8x500x4x4096_S8x500x4x64x64,
    StableHlo.unary main_v4 main_v7 ((extractStridedSlice S8x500x4x4096 ![0, 0, 0, 4096] · slices_S8x500x4x8192_S8x500x4x4096_0_0_0_4096) : (⟨S8x500x4x8192, .f32⟩ : BufTy).Contents (Elt F) → (⟨S8x500x4x4096, .f32⟩ : BufTy).Contents (Elt F)),
    StableHlo.reshape main_v7 main_v8 rfl shapeCasts_S8x500x4x4096_S8x500x4x128x32,
    StableHlo.binary main_arg0 main_v6 main_v9 ((fun l r => Host.dotGeneral dot_S8x500x4x32x64_S8x500x4x64x64_S8x500x4x32x64_4_3_3_4_012_012 none l r) : (⟨S8x500x4x32x64, .f32⟩ : BufTy).Contents (Elt F) → (⟨S8x500x4x64x64, .f32⟩ : BufTy).Contents (Elt F) → (⟨S8x500x4x32x64, .f32⟩ : BufTy).Contents (Elt F)) ]

/-- B: mean, variance, normalisation and clipping of the 32 x 64 tiles (operations 11 to 51). -/
abbrev opsB : List (HloOp τ sig (Elt F)) :=
  [
    StableHlo.nullary main_cst (constant S_ .f32 0x00000000#32),
    StableHlo.binary main_v9 main_cst main_v10 ((fun x v => Host.reduceAdd x v reducesTo_S8x500x4x32x64_S8x500x4_d3_4 h_S_) : (⟨S8x500x4x32x64, .f32⟩ : BufTy).Contents (Elt F) → (⟨S_, .f32⟩ : BufTy).Contents (Elt F) → (⟨S8x500x4, .f32⟩ : BufTy).Contents (Elt F)),
    StableHlo.unary main_v10 main_v11 (broadcastInDim S8x500x4x1x1 ![0, 1, 2] bcast_S8x500x4_S8x500x4x1x1_0_1_2 : (⟨S8x500x4, .f32⟩ : BufTy).Contents (Elt F) → (⟨S8x500x4x1x1, .f32⟩ : BufTy).Contents (Elt F)),
    StableHlo.nullary main_cst_0 (constant S_ .f32 0x45000000#32),
    StableHlo.unary main_cst_0 main_v12 (broadcastInDim S8x500x4x1x1 ![] bcast_S_S8x500x4x1x1 : (⟨S_, .f32⟩ : BufTy).Contents (Elt F) → (⟨S8x500x4x1x1, .f32⟩ : BufTy).Contents (Elt F)),
    StableHlo.binary main_v11 main_v12 main_v13 (Host.divf : (⟨S8x500x4x1x1, .f32⟩ : BufTy).Contents (Elt F) → (⟨S8x500x4x1x1, .f32⟩ : BufTy).Contents (Elt F) → (⟨S8x500x4x1x1, .f32⟩ : BufTy).Contents (Elt F)),
    StableHlo.nullary main_c (constantI S_ 32 0#32),
    StableHlo.TRef.nullary main_call0.cst (constant S_ .f32 0x00000000#32),
    StableHlo.TRef.binary (.of main_v9) main_call0.cst main_call0.v0 (fun x v => Host.reduceAdd x v reducesTo_S8x500x4x32x64_S8x500x4_d3_4 h_S_),
    StableHlo.TRef.unary main_call0.v0 main_call0.v1 (broadcastInDim S8x500x4x1x1 ![0, 1, 2] bcast_S8x500x4_S8x500x4x1x1_0_1_2),
    StableHlo.TRef.nullary main_call0.cst_0 (constant S_ .f32 0x45000000#32),
    StableHlo.TRef.unary main_call0.cst_0 main_call0.v2 (broadcastInDim S8x500x4x1x1 ![] bcast_S_S8x500x4x1x1),
    StableHlo.TRef.binary main_call0.v1 main_call0.v2 main_call0.v3 Host.divf,
    StableHlo.TRef.unary main_call0.v3 main_call0.v4 (broadcastInDim S8x500x4x32x64 ![0, 1, 2, 3, 4] bcast_S8x500x4x1x1_S8x500x4x32x64_0_1_2_3_4),
    StableHlo.TRef.binary (.of main_v9) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x45000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8x500x4x32x64_S8x500x4_d3_4 h_S_),
    StableHlo.TRef.unary main_call0.v9 main_call0.v10 (broadcastInDim S8x500x4x1x1 ![0, 1, 2] bcast_S8x500x4_S8x500x4x1x1_0_1_2),
    StableHlo.TRef.unary main_call0.v8 main_call0.v11 (broadcastInDim S8x500x4x1x1 ![] bcast_S_S8x500x4x1x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8x500x4x1x1 ![] bcast_S_S8x500x4x1x1),
    StableHlo.TRef.ternary main_call0.v13 main_call0.v12 main_call0.call0.v1 main_call0.call0.v2 (fun p a b => select (broadcastInDim S8x500x4x1x1 ![] bcast_S_S8x500x4x1x1 p) a b),
    StableHlo.unary main_v13 main_v15 (broadcastInDim S8x500x4x32x64 ![0, 1, 2, 3, 4] bcast_S8x500x4x1x1_S8x500x4x32x64_0_1_2_3_4 : (⟨S8x500x4x1x1, .f32⟩ : BufTy).Contents (Elt F) → (⟨S8x500x4x32x64, .f32⟩ : BufTy).Contents (Elt F)),
    StableHlo.binary main_v9 main_v15 main_v16 (subf : (⟨S8x500x4x32x64, .f32⟩ : BufTy).Contents (Elt F) → (⟨S8x500x4x32x64, .f32⟩ : BufTy).Contents (Elt F) → (⟨S8x500x4x32x64, .f32⟩ : BufTy).Contents (Elt F)),
    StableHlo.nullary main_cst_1 (constant S_ .f32 0x3727C5AC#32),
    StableHlo.unary main_cst_1 main_v17 (broadcastInDim S8x500x4x1x1 ![] bcast_S_S8x500x4x1x1 : (⟨S_, .f32⟩ : BufTy).Contents (Elt F) → (⟨S8x500x4x1x1, .f32⟩ : BufTy).Contents (Elt F)),
    StableHlo.binary main_v14 main_v17 main_v18 (addf : (⟨S8x500x4x1x1, .f32⟩ : BufTy).Contents (Elt F) → (⟨S8x500x4x1x1, .f32⟩ : BufTy).Contents (Elt F) → (⟨S8x500x4x1x1, .f32⟩ : BufTy).Contents (Elt F)),
    StableHlo.unary main_v18 main_v19 (Host.rsqrt : (⟨S8x500x4x1x1, .f32⟩ : BufTy).Contents (Elt F) → (⟨S8x500x4x1x1, .f32⟩ : BufTy).Contents (Elt F)),
    StableHlo.unary main_v19 main_v20 (broadcastInDim S8x500x4x32x64 ![0, 1, 2, 3, 4] bcast_S8x500x4x1x1_S8x500x4x32x64_0_1_2_3_4 : (⟨S8x500x4x1x1, .f32⟩ : BufTy).Contents (Elt F) → (⟨S8x500x4x32x64, .f32⟩ : BufTy).Contents (Elt F)),
    StableHlo.binary main_v16 main_v20 main_v21 (mulf : (⟨S8x500x4x32x64, .f32⟩ : BufTy).Contents (Elt F) → (⟨S8x500x4x32x64, .f32⟩ : BufTy).Contents (Elt F) → (⟨S8x500x4x32x64, .f32⟩ : BufTy).Contents (Elt F)),
    StableHlo.TRef.nullary main_call1.cst (constant S_ .f32 0x00000000#32),
    StableHlo.TRef.unary main_call1.cst main_call1.v0 (broadcastInDim S8x500x4x32x64 ![] bcast_S_S8x500x4x32x64),
    StableHlo.TRef.binary (.of main_v21) main_call1.v0 main_call1.v1 maximumf ]

/-- D: the point-mixing product, then mean, variance, normalisation and clipping of the 128 x 64 tiles
    (operations 52 to 93). -/
abbrev opsD : List (HloOp τ sig (Elt F)) :=
  [
    StableHlo.binary main_v8 main_v22 main_v23 ((fun l r => Host.dotGeneral dot_S8x500x4x128x32_S8x500x4x32x64_S8x500x4x128x64_4_3_3_4_012_012 none l r) : (⟨S8x500x4x128x32, .f32⟩ : BufTy).Contents (Elt F) → (⟨S8x500x4x32x64, .f32⟩ : BufTy).Contents (Elt F) → (⟨S8x500x4x128x64, .f32⟩ : BufTy).Contents (Elt F)),
    StableHlo.nullary main_cst_2 (constant S_ .f32 0x00000000#32),
    StableHlo.binary main_v23 main_cst_2 main_v24 ((fun x v => Host.reduceAdd x v reducesTo_S8x500x4x128x64_S8x500x4_d3_4 h_S_) : (⟨S8x500x4x128x64, .f32⟩ : BufTy).Contents (Elt F) → (⟨S_, .f32⟩ : BufTy).Contents (Elt F) → (⟨S8x500x4, .f32⟩ : BufTy).Contents (Elt F)),
    StableHlo.unary main_v24 main_v25 (broadcastInDim S8x500x4x1x1 ![0, 1, 2] bcast_S8x500x4_S8x500x4x1x1_0_1_2 : (⟨S8x500x4, .f32⟩ : BufTy).Contents (Elt F) → (⟨S8x500x4x1x1, .f32⟩ : BufTy).Contents (Elt F)),
    StableHlo.nullary main_cst_3 (constant S_ .f32 0x46000000#32),
    StableHlo.unary main_cst_3 main_v26 (broadcastInDim S8x500x4x1x1 ![] bcast_S_S8x500x4x1x1 : (⟨S_, .f32⟩ : BufTy).Contents (Elt F) → (⟨S8x500x4x1x1, .f32⟩ : BufTy).Contents (Elt F)),
    StableHlo.binary main_v25 main_v26 main_v27 (Host.divf : (⟨S8x500x4x1x1, .f32⟩ : BufTy).Contents (Elt F) → (⟨S8x500x4x1x1, .f32⟩ : BufTy).Contents (Elt F) → (⟨S8x500x4x1x1, .f32⟩ : BufTy).Contents (Elt F)),
    StableHlo.nullary main_c_4 (constantI S_ 32 0#32),
    StableHlo.TRef.nullary main_call2.cst (constant S_ .f32 0x00000000#32),
    StableHlo.TRef.binary (.of main_v23) main_call2.cst main_call2.v0 (fun x v => Host.reduceAdd x v reducesTo_S8x500x4x128x64_S8x500x4_d3_4 h_S_),
    StableHlo.TRef.unary main_call2.v0 main_call2.v1 (broadcastInDim S8x500x4x1x1 ![0, 1, 2] bcast_S8x500x4_S8x500x4x1x1_0_1_2),
    StableHlo.TRef.nullary main_call2.cst_0 (constant S_ .f32 0x46000000#32),
    StableHlo.TRef.unary main_call2.cst_0 main_call2.v2 (broadcastInDim S8x500x4x1x1 ![] bcast_S_S8x500x4x1x1),
    StableHlo.TRef.binary main_call2.v1 main_call2.v2 main_call2.v3 Host.divf,
    StableHlo.TRef.unary main_call2.v3 main_call2.v4 (broadcastInDim S8x500x4x128x64 ![0, 1, 2, 3, 4] bcast_S8x500x4x1x1_S8x500x4x128x64_0_1_2_3_4),
    StableHlo.TRef.binary (.of main_v23) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x46000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S8x500x4x128x64_S8x500x4_d3_4 h_S_),
    StableHlo.TRef.unary main_call2.v9 main_call2.v10 (broadcastInDim S8x500x4x1x1 ![0, 1, 2] bcast_S8x500x4_S8x500x4x1x1_0_1_2),
    StableHlo.TRef.unary main_call2.v8 main_call2.v11 (broadcastInDim S8x500x4x1x1 ![] bcast_S_S8x500x4x1x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S8x500x4x1x1 ![] bcast_S_S8x500x4x1x1),
    StableHlo.TRef.ternary main_call2.v13 main_call2.v12 main_call2.call0.v1 main_call2.call0.v2 (fun p a b => select (broadcastInDim S8x500x4x1x1 ![] bcast_S_S8x500x4x1x1 p) a b),
    StableHlo.unary main_v27 main_v29 (broadcastInDim S8x500x4x128x64 ![0, 1, 2, 3, 4] bcast_S8x500x4x1x1_S8x500x4x128x64_0_1_2_3_4 : (⟨S8x500x4x1x1, .f32⟩ : BufTy).Contents (Elt F) → (⟨S8x500x4x128x64, .f32⟩ : BufTy).Contents (Elt F)),
    StableHlo.binary main_v23 main_v29 main_v30 (subf : (⟨S8x500x4x128x64, .f32⟩ : BufTy).Contents (Elt F) → (⟨S8x500x4x128x64, .f32⟩ : BufTy).Contents (Elt F) → (⟨S8x500x4x128x64, .f32⟩ : BufTy).Contents (Elt F)),
    StableHlo.nullary main_cst_5 (constant S_ .f32 0x3727C5AC#32),
    StableHlo.unary main_cst_5 main_v31 (broadcastInDim S8x500x4x1x1 ![] bcast_S_S8x500x4x1x1 : (⟨S_, .f32⟩ : BufTy).Contents (Elt F) → (⟨S8x500x4x1x1, .f32⟩ : BufTy).Contents (Elt F)),
    StableHlo.binary main_v28 main_v31 main_v32 (addf : (⟨S8x500x4x1x1, .f32⟩ : BufTy).Contents (Elt F) → (⟨S8x500x4x1x1, .f32⟩ : BufTy).Contents (Elt F) → (⟨S8x500x4x1x1, .f32⟩ : BufTy).Contents (Elt F)),
    StableHlo.unary main_v32 main_v33 (Host.rsqrt : (⟨S8x500x4x1x1, .f32⟩ : BufTy).Contents (Elt F) → (⟨S8x500x4x1x1, .f32⟩ : BufTy).Contents (Elt F)),
    StableHlo.unary main_v33 main_v34 (broadcastInDim S8x500x4x128x64 ![0, 1, 2, 3, 4] bcast_S8x500x4x1x1_S8x500x4x128x64_0_1_2_3_4 : (⟨S8x500x4x1x1, .f32⟩ : BufTy).Contents (Elt F) → (⟨S8x500x4x128x64, .f32⟩ : BufTy).Contents (Elt F)),
    StableHlo.binary main_v30 main_v34 main_v35 (mulf : (⟨S8x500x4x128x64, .f32⟩ : BufTy).Contents (Elt F) → (⟨S8x500x4x128x64, .f32⟩ : BufTy).Contents (Elt F) → (⟨S8x500x4x128x64, .f32⟩ : BufTy).Contents (Elt F)),
    StableHlo.TRef.nullary main_call3.cst (constant S_ .f32 0x00000000#32),
    StableHlo.TRef.unary main_call3.cst main_call3.v0 (broadcastInDim S8x500x4x128x64 ![] bcast_S_S8x500x4x128x64),
    StableHlo.TRef.binary (.of main_v35) main_call3.v0 main_call3.v1 maximumf ]

/-- E: flattening, the projection, its bias, and the residual sum (operations 94 to 99). -/
abbrev opsE : List (HloOp τ sig (Elt F)) :=
  [
    StableHlo.reshape main_v36 main_v37 rfl shapeCasts_S8x500x4x128x64_S8x500x32768,
    StableHlo.binary main_v37 main_arg4 main_v38 ((fun l r => Host.dotGeneral dot_S8x500x32768_S256x32768_S8x500x256_2_1_01_0_n_n none l r) : (⟨S8x500x32768, .f32⟩ : BufTy).Contents (Elt F) → (⟨S256x32768, .f32⟩ : BufTy).Contents (Elt F) → (⟨S8x500x256, .f32⟩ : BufTy).Contents (Elt F)),
    StableHlo.unary main_arg5 main_v39 (broadcastInDim S1x1x256 ![2] bcast_S256_S1x1x256_2 : (⟨S256, .f32⟩ : BufTy).Contents (Elt F) → (⟨S1x1x256, .f32⟩ : BufTy).Contents (Elt F)),
    StableHlo.unary main_v39 main_v40 (broadcastInDim S8x500x256 ![0, 1, 2] bcast_S1x1x256_S8x500x256_0_1_2 : (⟨S1x1x256, .f32⟩ : BufTy).Contents (Elt F) → (⟨S8x500x256, .f32⟩ : BufTy).Contents (Elt F)),
    StableHlo.binary main_v38 main_v40 main_v41 (addf : (⟨S8x500x256, .f32⟩ : BufTy).Contents (Elt F) → (⟨S8x500x256, .f32⟩ : BufTy).Contents (Elt F) → (⟨S8x500x256, .f32⟩ : BufTy).Contents (Elt F)),
    StableHlo.binary main_arg1 main_v41 main_v42 (addf : (⟨S8x500x256, .f32⟩ : BufTy).Contents (Elt F) → (⟨S8x500x256, .f32⟩ : BufTy).Contents (Elt F) → (⟨S8x500x256, .f32⟩ : BufTy).Contents (Elt F)) ]

theorem ops_split : (ops : List (HloOp τ sig (Elt F))) = opsA ++ (opsB ++ (opsD ++ opsE)) := rfl

/-! ## A -/

theorem A_v9 (W : Valuation τ sig (Elt Ideal)) :
    after opsA W (main_v9 : DevRef τ sig) = chanMix (W (main_arg0 : DevRef τ sig)) (W (main_arg1 : DevRef τ sig)) (W (main_arg2 : DevRef τ sig)) (W (main_arg3 : DevRef τ sig)) := by
  after_results_simp
  rfl

theorem A_v8 (W : Valuation τ sig (Elt Ideal)) :
    after opsA W (main_v8 : DevRef τ sig) = pntMat (W (main_arg1 : DevRef τ sig)) (W (main_arg2 : DevRef τ sig)) (W (main_arg3 : DevRef τ sig)) := by
  after_results_simp
  rfl

theorem A_arg1 (W : Valuation τ sig (Elt Ideal)) :
    after opsA W (main_arg1 : DevRef τ sig) = W (main_arg1 : DevRef τ sig) := by
  after_results_simp
theorem A_arg4 (W : Valuation τ sig (Elt Ideal)) :
    after opsA W (main_arg4 : DevRef τ sig) = W (main_arg4 : DevRef τ sig) := by
  after_results_simp
theorem A_arg5 (W : Valuation τ sig (Elt Ideal)) :
    after opsA W (main_arg5 : DevRef τ sig) = W (main_arg5 : DevRef τ sig) := by
  after_results_simp

/-! ## B -/

theorem B_v22 (W : Valuation τ sig (Elt Ideal)) :
    after opsB W (main_v22 : DevRef τ sig) = norm1 (W (main_v9 : DevRef τ sig)) := by
  after_results_simp
  rfl

theorem B_v8 (W : Valuation τ sig (Elt Ideal)) :
    after opsB W (main_v8 : DevRef τ sig) = W (main_v8 : DevRef τ sig) := by
  after_results_simp
theorem B_arg1 (W : Valuation τ sig (Elt Ideal)) :
    after opsB W (main_arg1 : DevRef τ sig) = W (main_arg1 : DevRef τ sig) := by
  after_results_simp
theorem B_arg4 (W : Valuation τ sig (Elt Ideal)) :
    after opsB W (main_arg4 : DevRef τ sig) = W (main_arg4 : DevRef τ sig) := by
  after_results_simp
theorem B_arg5 (W : Valuation τ sig (Elt Ideal)) :
    after opsB W (main_arg5 : DevRef τ sig) = W (main_arg5 : DevRef τ sig) := by
  after_results_simp

/-! ## D -/

theorem D_v36 (W : Valuation τ sig (Elt Ideal)) :
    after opsD W (main_v36 : DevRef τ sig)
      = norm2 (Host.dotGeneral (F := Ideal) (φ₁ := .f32) (φ₂ := .f32) dot_S8x500x4x128x32_S8x500x4x32x64_S8x500x4x128x64_4_3_3_4_012_012 none
          (W (main_v8 : DevRef τ sig) : FVec Ideal S8x500x4x128x32 .f32) (W (main_v22 : DevRef τ sig) : FVec Ideal S8x500x4x32x64 .f32)) := by
  after_results_simp
  rfl

theorem D_arg1 (W : Valuation τ sig (Elt Ideal)) :
    after opsD W (main_arg1 : DevRef τ sig) = W (main_arg1 : DevRef τ sig) := by
  after_results_simp
theorem D_arg4 (W : Valuation τ sig (Elt Ideal)) :
    after opsD W (main_arg4 : DevRef τ sig) = W (main_arg4 : DevRef τ sig) := by
  after_results_simp
theorem D_arg5 (W : Valuation τ sig (Elt Ideal)) :
    after opsD W (main_arg5 : DevRef τ sig) = W (main_arg5 : DevRef τ sig) := by
  after_results_simp

/-! ## E -/

theorem E_v42 (W : Valuation τ sig (Elt Ideal)) :
    after opsE W (main_v42 : DevRef τ sig)
      = addf (W (main_arg1 : DevRef τ sig) : FVec Ideal S8x500x256 .f32)
          (addf
            (Host.dotGeneral (F := Ideal) (φ₁ := .f32) (φ₂ := .f32) dot_S8x500x32768_S256x32768_S8x500x256_2_1_01_0_n_n none
              (shapeCast (α := Ideal .f32) S8x500x32768 (W (main_v36 : DevRef τ sig) : FVec Ideal S8x500x4x128x64 .f32) shapeCasts_S8x500x4x128x64_S8x500x32768)
              (W (main_arg4 : DevRef τ sig) : FVec Ideal S256x32768 .f32))
            (broadcastInDim S8x500x256 ![0, 1, 2] bcast_S1x1x256_S8x500x256_0_1_2
              (broadcastInDim S1x1x256 ![2] bcast_S256_S1x1x256_2 (W (main_arg5 : DevRef τ sig) : FVec Ideal S256 .f32)))) := by
  after_results_simp
  rfl

/-! ## The whole line -/

/-- The result buffer ends at the staged term of the six arguments. -/
theorem value (V : Valuation τ sig (Elt Ideal)) :
    after ops V (main_v42 : DevRef τ sig)
      = term (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [ops_split, after_append, after_append, after_append]
  rw [E_v42, D_v36, D_arg1, D_arg4, D_arg5, B_v22, B_v8, B_arg1, B_arg4, B_arg5, A_v9, A_v8, A_arg1, A_arg4, A_arg5]
  rfl

/-! ## The arguments -/

-- no operation of the line writes an argument's buffer: each writes its own result buffer only
theorem keep_arg0 (V : Valuation τ sig (Elt Ideal)) :
    after ops V (main_arg0 : DevRef τ sig) = V (main_arg0 : DevRef τ sig) := by
  after_results_simp
theorem keep_arg1 (V : Valuation τ sig (Elt Ideal)) :
    after ops V (main_arg1 : DevRef τ sig) = V (main_arg1 : DevRef τ sig) := by
  after_results_simp
theorem keep_arg2 (V : Valuation τ sig (Elt Ideal)) :
    after ops V (main_arg2 : DevRef τ sig) = V (main_arg2 : DevRef τ sig) := by
  after_results_simp
theorem keep_arg3 (V : Valuation τ sig (Elt Ideal)) :
    after ops V (main_arg3 : DevRef τ sig) = V (main_arg3 : DevRef τ sig) := by
  after_results_simp
theorem keep_arg4 (V : Valuation τ sig (Elt Ideal)) :
    after ops V (main_arg4 : DevRef τ sig) = V (main_arg4 : DevRef τ sig) := by
  after_results_simp
theorem keep_arg5 (V : Valuation τ sig (Elt Ideal)) :
    after ops V (main_arg5 : DevRef τ sig) = V (main_arg5 : DevRef τ sig) := by
  after_results_simp

/-! ## The run -/

/-- From any memory with zero counters: every weakly fair execution of the reference program terminates with the
    result buffer at the staged term of the six argument arrays as launched, and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42) = term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c => ⟨(h c main_v42).trans (value _),
      (h c main_arg0).trans (keep_arg0 _), (h c main_arg1).trans (keep_arg1 _), (h c main_arg2).trans (keep_arg2 _),
      (h c main_arg3).trans (keep_arg3 _), (h c main_arg4).trans (keep_arg4 _), (h c main_arg5).trans (keep_arg5 _)⟩)
    (run_seq scopedRefs_eq scopedSems_eq defs main (fun _ => ops) main_eq (fun _ => ops_sub) m ρ)

end Cert.ReferenceIdeal.RefValue

end
-- ==== Proof.RefReadOps.lean ====
/-
  Reading the reference's non-pointwise operations at an index, at the ideal values: a product contracting one axis
  as the sum over that axis's coordinate, a sum over the two trailing axes of a rank-5 array as the nested sum over
  their coordinates, a broadcast as the operand at the kept coordinates.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«133475_j28819230556787_2_alg».proof.Proof.MixSpec

noncomputable section

namespace Cert.ReadOps

open Idealize.ShloMosaic Idealize.ShloMosaic.ValueIdx
open scoped BigOperators

/-! ## Products -/

/-- Rows against the rows of a weight: [A, B, K] by [N, K], contracting the last axis of each. At (a, b, j) it is
    the sum over k of the row's entry k times the weight row j's entry k. -/
theorem dotGeneral_rows_apply {A B K N : ℕ}
    (w : DotDims.WF ⟨3, ![A, B, K]⟩ ⟨2, ![N, K]⟩ ⟨3, ![A, B, N]⟩ [2] [1] [0, 1] [0] [] [])
    (prec : Option ContractPrecision) (X : FVec Ideal ⟨3, ![A, B, K]⟩ .f32) (W : FVec Ideal ⟨2, ![N, K]⟩ .f32)
    (a : Fin A) (b : Fin B) (j : Fin N) :
    Host.dotGeneral (⟨[2], [1], [0, 1], [0], [], [], w⟩ : DotDims _ _ _) prec X W (ix3 a b j)
      = ∑ k : Fin K, X (ix3 a b k) * W (ix2 j k) := by
  show FloatOps.dotGeneral _ prec _ X W (ix3 a b j) = _
  rw [Ideal.dotGeneral_apply,
    ← Equiv.sum_comp (contrEquiv1 (⟨[2], [1], [0, 1], [0], [], [], w⟩ : DotDims _ _ _) K rfl rfl).symm]
  refine Finset.sum_congr rfl fun c _ => ?_
  have c3 := contrEquiv1_symm_val
    (⟨[2], [1], [0, 1], [0], [], [], w⟩ : DotDims ⟨3, ![A, B, K]⟩ ⟨2, ![N, K]⟩ ⟨3, ![A, B, N]⟩) K rfl rfl c
  have l3 : (⟨[2], [1], [0, 1], [0], [], [], w⟩ : DotDims ⟨3, ![A, B, K]⟩ ⟨2, ![N, K]⟩ ⟨3, ![A, B, N]⟩).lhsIdx (ix3 a b j)
      ((contrEquiv1 _ K rfl rfl).symm c) = ix3 a b c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![A, B, K]⟩ ⟨2, ![N, K]⟩ ⟨3, ![A, B, N]⟩).rhsIdx (ix3 a b j)
      ((contrEquiv1 _ K rfl rfl).symm c) = ix2 j c := by
    funext ax; apply Fin.ext
    match ax with
    | ⟨0, _⟩ => simp [DotDims.rhsIdx]; rfl
    | ⟨1, _⟩ => simp [DotDims.rhsIdx]; exact c3
  rw [l3, r3]

/-- A stack of products over three leading axes: [A, B, G, M, K] by [A, B, G, K, N]. At (a, b, g, m, n) it is the
    sum over k of the left member's (m, k) entry times the right member's (k, n) entry. -/
theorem dotGeneral_stack3_apply {A B G M K N : ℕ}
    (w : DotDims.WF ⟨5, ![A, B, G, M, K]⟩ ⟨5, ![A, B, G, K, N]⟩ ⟨5, ![A, B, G, M, N]⟩ [4] [3] [3] [4] [0, 1, 2] [0, 1, 2])
    (prec : Option ContractPrecision) (X : FVec Ideal ⟨5, ![A, B, G, M, K]⟩ .f32) (Y : FVec Ideal ⟨5, ![A, B, G, K, N]⟩ .f32)
    (a : Fin A) (b : Fin B) (g : Fin G) (m : Fin M) (n : Fin N) :
    Host.dotGeneral (⟨[4], [3], [3], [4], [0, 1, 2], [0, 1, 2], w⟩ : DotDims _ _ _) prec X Y (ix5 a b g m n)
      = ∑ k : Fin K, X (ix5 a b g m k) * Y (ix5 a b g k n) := by
  show FloatOps.dotGeneral _ prec _ X Y (ix5 a b g m n) = _
  rw [Ideal.dotGeneral_apply,
    ← Equiv.sum_comp (contrEquiv1 (⟨[4], [3], [3], [4], [0, 1, 2], [0, 1, 2], w⟩ : DotDims _ _ _) K rfl rfl).symm]
  refine Finset.sum_congr rfl fun c _ => ?_
  have c3 := contrEquiv1_symm_val
    (⟨[4], [3], [3], [4], [0, 1, 2], [0, 1, 2], w⟩ :
      DotDims ⟨5, ![A, B, G, M, K]⟩ ⟨5, ![A, B, G, K, N]⟩ ⟨5, ![A, B, G, M, N]⟩) K rfl rfl c
  have l3 : (⟨[4], [3], [3], [4], [0, 1, 2], [0, 1, 2], w⟩ :
      DotDims ⟨5, ![A, B, G, M, K]⟩ ⟨5, ![A, B, G, K, N]⟩ ⟨5, ![A, B, G, M, N]⟩).lhsIdx (ix5 a b g m n)
      ((contrEquiv1 _ K rfl rfl).symm c) = ix5 a b g m c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; rfl
    | ⟨4, _⟩ => simp [DotDims.lhsIdx]; exact c3
  have r3 : (⟨[4], [3], [3], [4], [0, 1, 2], [0, 1, 2], w⟩ :
      DotDims ⟨5, ![A, B, G, M, K]⟩ ⟨5, ![A, B, G, K, N]⟩ ⟨5, ![A, B, G, M, N]⟩).rhsIdx (ix5 a b g m n)
      ((contrEquiv1 _ K rfl rfl).symm c) = ix5 a b g c n := by
    funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact c3
    | ⟨4, _⟩ => simp [DotDims.rhsIdx]; rfl
  rw [l3, r3]

/-! ## A sum over the two trailing axes -/

/-- The host's sum of a rank-5 array over its two trailing axes, at (a, b, g): the initial value plus the nested sum
    over the two dropped coordinates. -/
theorem hostReduceAdd_trailing2 {A B G P C : ℕ}
    (h : (⟨5, ![A, B, G, P, C]⟩ : Shape).ReducesTo [3, 4] ⟨3, ![A, B, G]⟩)
    (x : (⟨5, ![A, B, G, P, C]⟩ : Shape).Idx → EReal) (init : EReal) (a : Fin A) (b : Fin B) (g : Fin G) :
    Ideal.hostReduceAdd h x init (ix3 a b g) = init + ∑ p : Fin P, ∑ c : Fin C, x (ix5 a b g p c) := by
  unfold Ideal.hostReduceAdd
  refine congrArg (init + ·) ?_
  rw [← Fintype.sum_prod_type' (f := fun p c => x (ix5 a b g p c))]
  have hd : ∀ i : (⟨5, ![A, B, G, P, C]⟩ : Shape).Idx, h.drop i = ix3 (i 0) (i 1) (i 2) := by
    intro i; funext ax; apply Fin.ext
    match ax with
    | ⟨0, _⟩ => rfl
    | ⟨1, _⟩ => rfl
    | ⟨2, _⟩ => rfl
  refine Finset.sum_nbij' (fun i => (i 3, i 4)) (fun pc => ix5 a b g pc.1 pc.2) ?_ ?_ ?_ ?_ ?_
  · intro i _; exact Finset.mem_univ _
  · intro pc _; exact Finset.mem_filter.2 ⟨Finset.mem_univ _, hd _⟩
  · intro i hi
    have hj := (Finset.mem_filter.1 hi).2
    rw [hd i] at hj
    have h0 : i 0 = a := congrFun hj 0
    have h1 : i 1 = b := congrFun hj 1
    have h2 : i 2 = g := congrFun hj 2
    show ix5 a b g (i 3) (i 4) = i
    rw [← h0, ← h1, ← h2]; exact (eq_ix5 i).symm
  · intro pc _; rfl
  · intro i hi
    have hj := (Finset.mem_filter.1 hi).2
    rw [hd i] at hj
    have h0 : i 0 = a := congrFun hj 0
    have h1 : i 1 = b := congrFun hj 1
    have h2 : i 2 = g := congrFun hj 2
    show x i = x (ix5 a b g (i 3) (i 4))
    rw [← h0, ← h1, ← h2]; exact congrArg x (eq_ix5 i)

/-! ## Pointwise host operations and the scalar words -/

/-- The host's reciprocal square root at an index is the ideal values' function of the element. -/
theorem hostRsqrt_apply {s : Shape} (x : FVec Ideal s .f32) (i : s.Idx) : Host.rsqrt x i = Ideal.rsqrt (x i) := rfl

/-- The word 0x45000000 (the count 2048) is above zero. -/
theorem w2048_pos : (0 : EReal) < Ideal.ofBits .f32 0x45000000#32 := by
  simp [Ideal.ofBits, Ideal.ieee]
  rw [← EReal.coe_mul]
  exact EReal.coe_pos.mpr (by positivity)

/-- The word 0x46000000 (the count 8192) is above zero. -/
theorem w8192_pos : (0 : EReal) < Ideal.ofBits .f32 0x46000000#32 := by
  simp [Ideal.ofBits, Ideal.ieee]
  rw [← EReal.coe_mul]
  exact EReal.coe_pos.mpr (by positivity)

/-- A count less the integer zero, converted, is the count. -/
theorem sub_sitofp_zero (w : EReal) : w - (((0#32 : BitVec 32).toInt : ℝ) : EReal) = w := by simp

/-- The comparison "above zero" of a value above zero is the set bit. -/
theorem cmp_ogt_zero_of_pos {w : EReal} (h : 0 < w) : Ideal.cmp .ogt w 0 = 1#1 := by
  show BitVec.ofBool (decide ((0 : EReal) < w)) = 1#1
  rw [decide_eq_true h]; rfl

/-! ## A sum over 32768 = 4 x 128 x 64 flattened positions -/

/-- A sum over the 32768 flattened positions of four 128 x 64 tiles is the nested sum over group, row and column. -/
theorem sum_flat (F : Fin 32768 → EReal) :
    ∑ f : Fin 32768, F f = ∑ g : Fin 4, ∑ o : Fin 128, ∑ c : Fin 64, F (Cert.Mix.pIdx g (Cert.Mix.fIdx o c)) := by
  refine (Cert.Mix.sum_fin_mul 4 8192 F).trans ?_
  refine Finset.sum_congr rfl fun g _ => ?_
  refine (Cert.Mix.sum_fin_mul 128 64 (fun j : Fin (128 * 64) => F (Cert.Mix.pIdx g j))).trans ?_
  rfl

end Cert.ReadOps

end
-- ==== Proof.RefNorm.lean ====
/-
  The reference's two normalisation stages read at an entry.

  For a tile of P x 64 entries the reference sums the tile over its two axes and divides by the count for the mean,
  subtracts the mean, sums the squared deviations and divides by the count again for the variance (behind a guard
  "the count is above zero", which holds), multiplies the centred entry by the reciprocal square root of the
  variance plus eps, and takes the maximum with zero. Entry by entry that is the specification's lnRelu of the tile.
-/
import proofs.«133475_j28819230556787_2_alg».proof.Proof.RefTerm
import proofs.«133475_j28819230556787_2_alg».proof.Proof.RefReadOps
import proofs.«133475_j28819230556787_2_alg».proof.Proof.MixSpec
import Idealize.ShloMosaic.Lib.IdealHost
import Idealize.ShloMosaic.Lib.Pipeline.Value

open scoped BigOperators

noncomputable section

namespace Cert.ReferenceIdeal.RefValue

open Cert.ReferenceIdeal Idealize.ShloMosaic Idealize.ShloMosaic.ValueIdx
open Cert.ReferenceIdeal.Facts₀

/-! ## The layout operations around a tile -/

/-- A per-tile number, carried on two unit axes and spread over the tile, reads the tile's number at every entry. -/
theorem spread_apply {P C : ℕ} {α : Type}
    (h : (⟨5, ![8, 500, 4, 1, 1]⟩ : Shape).BroadcastsInDim ⟨5, ![8, 500, 4, P, C]⟩ ![0, 1, 2, 3, 4])
    (x : (⟨5, ![8, 500, 4, 1, 1]⟩ : Shape).Idx → α) (b : Fin 8) (n : Fin 500) (g : Fin 4) (p : Fin P) (c : Fin C) :
    broadcastInDim ⟨5, ![8, 500, 4, P, C]⟩ ![0, 1, 2, 3, 4] h x (ix5 b n g p c) = x (ix5 b n g (0 : Fin 1) (0 : Fin 1)) := by
  refine broadcastInDim_apply _ h x _ _ (fun a => ?_)
  match a with
  | ⟨0, _⟩ => rfl
  | ⟨1, _⟩ => rfl
  | ⟨2, _⟩ => rfl
  | ⟨3, _⟩ => rfl
  | ⟨4, _⟩ => rfl

/-- A per-tile number given two trailing unit axes reads the same number. -/
theorem lift3_apply {α : Type}
    (h : (⟨3, ![8, 500, 4]⟩ : Shape).BroadcastsInDim ⟨5, ![8, 500, 4, 1, 1]⟩ ![0, 1, 2])
    (x : (⟨3, ![8, 500, 4]⟩ : Shape).Idx → α) (b : Fin 8) (n : Fin 500) (g : Fin 4) (u v : Fin 1) :
    broadcastInDim ⟨5, ![8, 500, 4, 1, 1]⟩ ![0, 1, 2] h x (ix5 b n g u v) = x (ix3 b n g) := by
  refine broadcastInDim_apply _ h x _ _ (fun a => ?_)
  match a with
  | ⟨0, _⟩ => rfl
  | ⟨1, _⟩ => rfl
  | ⟨2, _⟩ => rfl

/-- The host's sum of every tile over its two axes, from the zero word, at tile (b, n, g): the nested sum over the
    tile's rows and columns. -/
theorem tileSum_apply {P C : ℕ} (h : (⟨5, ![8, 500, 4, P, C]⟩ : Shape).ReducesTo [3, 4] ⟨3, ![8, 500, 4]⟩)
    (hu : 0 < (⟨0, ![]⟩ : Shape).numel) (t : FVec Ideal ⟨5, ![8, 500, 4, P, C]⟩ .f32) (b : Fin 8) (n : Fin 500) (g : Fin 4) :
    Host.reduceAdd t (constant (F := Ideal) ⟨0, ![]⟩ .f32 0x00000000#32) h hu (ix3 b n g)
      = ∑ p : Fin P, ∑ c : Fin C, t (ix5 b n g p c) := by
  rw [hostReduceAdd_apply, Cert.ReadOps.hostReduceAdd_trailing2, constant_apply, Ideal.ofBits_zero_f32, zero_add]

/-! ## Tiles of 32 x 64 -/

/-- The mean of tile (b, n, g) is the specification's mean of the tile's entries. -/
theorem mean1_apply (t : FVec Ideal S8x500x4x32x64 .f32) (T : Fin 32 → Fin 64 → EReal) (b : Fin 8) (n : Fin 500) (g : Fin 4)
    (hT : ∀ p c, t (ix5 b n g p c) = T p c) (u v : Fin 1) :
    mean1 t (ix5 b n g u v) = Cert.Mix.mean Cert.Mix.n1 T := by
  unfold mean1 Cert.Mix.mean Cert.Mix.n1
  rw [hostDivf_apply, lift3_apply, tileSum_apply, broadcastInDim_scalar_apply, constant_apply]
  simp only [hT]

/-- The variance's normaliser is the tile's count: the integer zero converts to zero. -/
theorem normaliser1_apply : normaliser1 ix0 = Cert.Mix.n1 := by
  unfold normaliser1 Cert.Mix.n1
  rw [subf_apply, constant_apply, sitofp_apply]
  show Ideal.ofBits .f32 0x45000000#32 - (((0#32 : BitVec 32).toInt : ℝ) : EReal) = _
  exact Cert.ReadOps.sub_sitofp_zero _

/-- The count is above zero, so the variance's guard is set. -/
theorem guard1 : cmpf .ogt normaliser1 (constant (F := Ideal) S_ .f32 0x00000000#32) ix0 = 1#1 := by
  rw [cmpf_apply, normaliser1_apply, constant_apply, Ideal.ofBits_zero_f32]
  show Ideal.cmp .ogt Cert.Mix.n1 0 = 1#1
  exact Cert.ReadOps.cmp_ogt_zero_of_pos Cert.ReadOps.w2048_pos

/-- An entry less its tile's mean. -/
theorem centre1_apply (t : FVec Ideal S8x500x4x32x64 .f32) (T : Fin 32 → Fin 64 → EReal) (b : Fin 8) (n : Fin 500) (g : Fin 4)
    (hT : ∀ p c, t (ix5 b n g p c) = T p c) (p : Fin 32) (c : Fin 64) :
    subf t (broadcastInDim S8x500x4x32x64 ![0, 1, 2, 3, 4] bcast_S8x500x4x1x1_S8x500x4x32x64_0_1_2_3_4 (mean1 t)) (ix5 b n g p c)
      = Cert.Mix.centred Cert.Mix.n1 T p c := by
  unfold Cert.Mix.centred
  rw [subf_apply, spread_apply, mean1_apply t T b n g hT, hT]

/-- The squared deviation of an entry. -/
theorem sqDev1_apply (t : FVec Ideal S8x500x4x32x64 .f32) (T : Fin 32 → Fin 64 → EReal) (b : Fin 8) (n : Fin 500) (g : Fin 4)
    (hT : ∀ p c, t (ix5 b n g p c) = T p c) (p : Fin 32) (c : Fin 64) :
    sqDev1 t (ix5 b n g p c) = Cert.Mix.centred Cert.Mix.n1 T p c * Cert.Mix.centred Cert.Mix.n1 T p c := by
  unfold sqDev1
  rw [mulf_apply, centre1_apply t T b n g hT]

/-- The variance of tile (b, n, g) is the specification's mean of the squared deviations. -/
theorem var1_apply (t : FVec Ideal S8x500x4x32x64 .f32) (T : Fin 32 → Fin 64 → EReal) (b : Fin 8) (n : Fin 500) (g : Fin 4)
    (hT : ∀ p c, t (ix5 b n g p c) = T p c) (u v : Fin 1) :
    var1 t (ix5 b n g u v)
      = Cert.Mix.mean Cert.Mix.n1 (fun a b' => Cert.Mix.centred Cert.Mix.n1 T a b' * Cert.Mix.centred Cert.Mix.n1 T a b') := by
  unfold var1
  rw [select_apply, hostDivf_apply, lift3_apply]
  repeat rw [broadcastInDim_scalar_apply]
  rw [guard1, select_one, normaliser1_apply, tileSum_apply]
  unfold Cert.Mix.mean
  simp only [sqDev1_apply t T b n g hT]

/-- The normalised, clipped tile at an entry is the specification's. -/
theorem norm1_apply (t : FVec Ideal S8x500x4x32x64 .f32) (T : Fin 32 → Fin 64 → EReal) (b : Fin 8) (n : Fin 500) (g : Fin 4)
    (hT : ∀ p c, t (ix5 b n g p c) = T p c) (p : Fin 32) (c : Fin 64) :
    norm1 t (ix5 b n g p c) = Cert.Mix.lnRelu Cert.Mix.n1 Cert.Mix.eps T p c := by
  unfold norm1 Cert.Mix.lnRelu
  rw [maximumf_apply, mulf_apply, centre1_apply t T b n g hT, spread_apply, Cert.ReadOps.hostRsqrt_apply, addf_apply,
    var1_apply t T b n g hT]
  repeat rw [broadcastInDim_scalar_apply]
  rw [constant_apply, constant_apply, Ideal.ofBits_zero_f32]
  rfl

/-! ## Tiles of 128 x 64 -/

/-- The mean of tile (b, n, g) is the specification's mean of the tile's entries. -/
theorem mean2_apply (t : FVec Ideal S8x500x4x128x64 .f32) (T : Fin 128 → Fin 64 → EReal) (b : Fin 8) (n : Fin 500) (g : Fin 4)
    (hT : ∀ p c, t (ix5 b n g p c) = T p c) (u v : Fin 1) :
    mean2 t (ix5 b n g u v) = Cert.Mix.mean Cert.Mix.n2 T := by
  unfold mean2 Cert.Mix.mean Cert.Mix.n2
  rw [hostDivf_apply, lift3_apply, tileSum_apply, broadcastInDim_scalar_apply, constant_apply]
  simp only [hT]

/-- The variance's normaliser is the tile's count: the integer zero converts to zero. -/
theorem normaliser2_apply : normaliser2 ix0 = Cert.Mix.n2 := by
  unfold normaliser2 Cert.Mix.n2
  rw [subf_apply, constant_apply, sitofp_apply]
  show Ideal.ofBits .f32 0x46000000#32 - (((0#32 : BitVec 32).toInt : ℝ) : EReal) = _
  exact Cert.ReadOps.sub_sitofp_zero _

/-- The count is above zero, so the variance's guard is set. -/
theorem guard2 : cmpf .ogt normaliser2 (constant (F := Ideal) S_ .f32 0x00000000#32) ix0 = 1#1 := by
  rw [cmpf_apply, normaliser2_apply, constant_apply, Ideal.ofBits_zero_f32]
  show Ideal.cmp .ogt Cert.Mix.n2 0 = 1#1
  exact Cert.ReadOps.cmp_ogt_zero_of_pos Cert.ReadOps.w8192_pos

/-- An entry less its tile's mean. -/
theorem centre2_apply (t : FVec Ideal S8x500x4x128x64 .f32) (T : Fin 128 → Fin 64 → EReal) (b : Fin 8) (n : Fin 500) (g : Fin 4)
    (hT : ∀ p c, t (ix5 b n g p c) = T p c) (p : Fin 128) (c : Fin 64) :
    subf t (broadcastInDim S8x500x4x128x64 ![0, 1, 2, 3, 4] bcast_S8x500x4x1x1_S8x500x4x128x64_0_1_2_3_4 (mean2 t)) (ix5 b n g p c)
      = Cert.Mix.centred Cert.Mix.n2 T p c := by
  unfold Cert.Mix.centred
  rw [subf_apply, spread_apply, mean2_apply t T b n g hT, hT]

/-- The squared deviation of an entry. -/
theorem sqDev2_apply (t : FVec Ideal S8x500x4x128x64 .f32) (T : Fin 128 → Fin 64 → EReal) (b : Fin 8) (n : Fin 500) (g : Fin 4)
    (hT : ∀ p c, t (ix5 b n g p c) = T p c) (p : Fin 128) (c : Fin 64) :
    sqDev2 t (ix5 b n g p c) = Cert.Mix.centred Cert.Mix.n2 T p c * Cert.Mix.centred Cert.Mix.n2 T p c := by
  unfold sqDev2
  rw [mulf_apply, centre2_apply t T b n g hT]

/-- The variance of tile (b, n, g) is the specification's mean of the squared deviations. -/
theorem var2_apply (t : FVec Ideal S8x500x4x128x64 .f32) (T : Fin 128 → Fin 64 → EReal) (b : Fin 8) (n : Fin 500) (g : Fin 4)
    (hT : ∀ p c, t (ix5 b n g p c) = T p c) (u v : Fin 1) :
    var2 t (ix5 b n g u v)
      = Cert.Mix.mean Cert.Mix.n2 (fun a b' => Cert.Mix.centred Cert.Mix.n2 T a b' * Cert.Mix.centred Cert.Mix.n2 T a b') := by
  unfold var2
  rw [select_apply, hostDivf_apply, lift3_apply]
  repeat rw [broadcastInDim_scalar_apply]
  rw [guard2, select_one, normaliser2_apply, tileSum_apply]
  unfold Cert.Mix.mean
  simp only [sqDev2_apply t T b n g hT]

/-- The normalised, clipped tile at an entry is the specification's. -/
theorem norm2_apply (t : FVec Ideal S8x500x4x128x64 .f32) (T : Fin 128 → Fin 64 → EReal) (b : Fin 8) (n : Fin 500) (g : Fin 4)
    (hT : ∀ p c, t (ix5 b n g p c) = T p c) (p : Fin 128) (c : Fin 64) :
    norm2 t (ix5 b n g p c) = Cert.Mix.lnRelu Cert.Mix.n2 Cert.Mix.eps T p c := by
  unfold norm2 Cert.Mix.lnRelu
  rw [maximumf_apply, mulf_apply, centre2_apply t T b n g hT, spread_apply, Cert.ReadOps.hostRsqrt_apply, addf_apply,
    var2_apply t T b n g hT]
  repeat rw [broadcastInDim_scalar_apply]
  rw [constant_apply, constant_apply, Ideal.ofBits_zero_f32]
  rfl

end Cert.ReferenceIdeal.RefValue

end
-- ==== Proof.RefRead.lean ====
/-
  The reference's value equals the specification: every stage of the reference read at an index built from its
  coordinates, from the generated parameters to the final projection.
-/
import proofs.«133475_j28819230556787_2_alg».proof.Proof.RefTerm
import proofs.«133475_j28819230556787_2_alg».proof.Proof.RefReadOps
import proofs.«133475_j28819230556787_2_alg».proof.Proof.RefNorm

noncomputable section

namespace Cert.ReferenceIdeal.RefValue

open Cert.ReferenceIdeal Idealize.ShloMosaic Idealize.ShloMosaic.ValueIdx Cert.ReadOps
open Cert.ReferenceIdeal.Facts₀
open scoped BigOperators

variable (x : FVec Ideal S8x500x4x32x64 .f32) (q : FVec Ideal S8x500x256 .f32) (wp : FVec Ideal S32768x256 .f32)
  (bp : FVec Ideal S32768 .f32) (wo : FVec Ideal S256x32768 .f32) (bo : FVec Ideal S256 .f32)

/-! ## The two biases broadcast over the rows -/

/-- The generator's bias, broadcast to every row, read at (b, n, j): entry j. -/
theorem bcast_bp_apply (h1 : S32768.BroadcastsInDim S1x1x32768 ![2]) (h2 : S1x1x32768.BroadcastsInDim S8x500x32768 ![0, 1, 2])
    (b : Fin 8) (n : Fin 500) (j : Fin 32768) :
    broadcastInDim S8x500x32768 ![0, 1, 2] h2 (broadcastInDim S1x1x32768 ![2] h1 bp) (ix3 b n j) = bp (ix1 j) := by
  refine (broadcastInDim_apply _ h2 _ (ix3 b n j) (ix3 0 0 j)
    fun a => match a with | ⟨0, _⟩ => rfl | ⟨1, _⟩ => rfl | ⟨2, _⟩ => rfl).trans ?_
  exact broadcastInDim_apply _ h1 bp (ix3 0 0 j) (ix1 j) fun a => match a with | ⟨0, _⟩ => rfl

/-- The output bias, broadcast to every row, read at (b, n, d): entry d. -/
theorem bcast_bo_apply (h1 : S256.BroadcastsInDim S1x1x256 ![2]) (h2 : S1x1x256.BroadcastsInDim S8x500x256 ![0, 1, 2])
    (b : Fin 8) (n : Fin 500) (d : Fin 256) :
    broadcastInDim S8x500x256 ![0, 1, 2] h2 (broadcastInDim S1x1x256 ![2] h1 bo) (ix3 b n d) = bo (ix1 d) := by
  refine (broadcastInDim_apply _ h2 _ (ix3 b n d) (ix3 0 0 d)
    fun a => match a with | ⟨0, _⟩ => rfl | ⟨1, _⟩ => rfl | ⟨2, _⟩ => rfl).trans ?_
  exact broadcastInDim_apply _ h1 bo (ix3 0 0 d) (ix1 d) fun a => match a with | ⟨0, _⟩ => rfl

/-! ## The generated parameters -/

/-- Parameter j of row (b, n). -/
theorem params_apply (b : Fin 8) (n : Fin 500) (j : Fin 32768) :
    params q wp bp (ix3 b n j) = Cert.Mix.par (Cert.Mix.qRow q b n) (Cert.Mix.wpOf wp) (Cert.Mix.bpOf bp) j := by
  show _ = (∑ k : Fin 256, q (ix3 b n k) * wp (ix2 j k)) + bp (ix1 j)
  unfold params
  rw [addf_apply, bcast_bp_apply]
  refine congrArg (· + bp (ix1 j)) ?_
  exact dotGeneral_rows_apply dot_S8x500x256_S32768x256_S8x500x32768_2_1_01_0_n_n_wf none q wp b n j

/-- The parameters by group: entry r of group g is parameter g * 8192 + r. -/
theorem paramsG_apply (b : Fin 8) (n : Fin 500) (g : Fin 4) (r : Fin 8192) :
    paramsG q wp bp (ix4 b n g r) = params q wp bp (ix3 b n (Cert.Mix.pIdx g r)) := by
  unfold paramsG
  refine shapeCast_apply _ _ (ix4 b n g r) (ix3 b n (Cert.Mix.pIdx g r)) ?_
  rw [Shape.rowMajor_val_three, Shape.rowMajor_val_four]
  show (b.val * 500 + n.val) * 32768 + (g.val * 8192 + r.val) = ((b.val * 500 + n.val) * 4 + g.val) * 8192 + r.val
  omega

/-- Entry (c, d) of group g's channel-mixing matrix. -/
theorem chanMat_apply (b : Fin 8) (n : Fin 500) (g : Fin 4) (c d : Fin 64) :
    chanMat q wp bp (ix5 b n g c d)
      = Cert.Mix.par (Cert.Mix.qRow q b n) (Cert.Mix.wpOf wp) (Cert.Mix.bpOf bp) (Cert.Mix.pIdx g (Cert.Mix.mIdx c d)) := by
  have hc := c.isLt
  have hd := d.isLt
  unfold chanMat
  refine (shapeCast_apply _ _ (ix5 b n g c d) (ix4 b n g (⟨c.val * 64 + d.val, by omega⟩ : Fin 4096)) ?_).trans ?_
  · rw [Shape.rowMajor_val_four, Shape.rowMajor_val_five]
    show ((b.val * 500 + n.val) * 4 + g.val) * 4096 + (c.val * 64 + d.val)
      = (((b.val * 500 + n.val) * 4 + g.val) * 64 + c.val) * 64 + d.val
    omega
  refine (extractStridedSlice_apply _ _ _ _ (ix4 b n g (Cert.Mix.mIdx c d)) fun a => match a with
    | ⟨0, _⟩ => by show b.val = 0 + b.val; omega
    | ⟨1, _⟩ => by show n.val = 0 + n.val; omega
    | ⟨2, _⟩ => by show g.val = 0 + g.val; omega
    | ⟨3, _⟩ => by show c.val * 64 + d.val = 0 + (c.val * 64 + d.val); omega).trans ?_
  rw [paramsG_apply, params_apply]

/-- Entry (o, p) of group g's point-mixing matrix. -/
theorem pntMat_apply (b : Fin 8) (n : Fin 500) (g : Fin 4) (o : Fin 128) (p : Fin 32) :
    pntMat q wp bp (ix5 b n g o p)
      = Cert.Mix.par (Cert.Mix.qRow q b n) (Cert.Mix.wpOf wp) (Cert.Mix.bpOf bp) (Cert.Mix.pIdx g (Cert.Mix.sIdx o p)) := by
  have ho := o.isLt
  have hp := p.isLt
  unfold pntMat
  refine (shapeCast_apply _ _ (ix5 b n g o p) (ix4 b n g (⟨o.val * 32 + p.val, by omega⟩ : Fin 4096)) ?_).trans ?_
  · rw [Shape.rowMajor_val_four, Shape.rowMajor_val_five]
    show ((b.val * 500 + n.val) * 4 + g.val) * 4096 + (o.val * 32 + p.val)
      = (((b.val * 500 + n.val) * 4 + g.val) * 128 + o.val) * 32 + p.val
    omega
  refine (extractStridedSlice_apply _ _ _ _ (ix4 b n g (Cert.Mix.sIdx o p)) fun a => match a with
    | ⟨0, _⟩ => by show b.val = 0 + b.val; omega
    | ⟨1, _⟩ => by show n.val = 0 + n.val; omega
    | ⟨2, _⟩ => by show g.val = 0 + g.val; omega
    | ⟨3, _⟩ => by show 4096 + (o.val * 32 + p.val) = 4096 + (o.val * 32 + p.val); omega).trans ?_
  rw [paramsG_apply, params_apply]

/-! ## The two mixing stages -/

/-- Channel mixing of row (b, n), group g, at (p, d). -/
theorem chanMix_apply (b : Fin 8) (n : Fin 500) (g : Fin 4) (p : Fin 32) (d : Fin 64) :
    chanMix x q wp bp (ix5 b n g p d)
      = Cert.Mix.chan (Cert.Mix.qRow q b n) (Cert.Mix.xRow x b n) (Cert.Mix.wpOf wp) (Cert.Mix.bpOf bp) g p d := by
  unfold chanMix
  refine (dotGeneral_stack3_apply dot_S8x500x4x32x64_S8x500x4x64x64_S8x500x4x32x64_4_3_3_4_012_012_wf none x
    (chanMat q wp bp) b n g p d).trans ?_
  unfold Cert.Mix.chan
  refine Finset.sum_congr rfl fun c _ => ?_
  rw [chanMat_apply]; rfl

/-- The first stage's output of row (b, n), group g, at (p, c). -/
theorem y1_apply (b : Fin 8) (n : Fin 500) (g : Fin 4) (p : Fin 32) (c : Fin 64) :
    norm1 (chanMix x q wp bp) (ix5 b n g p c)
      = Cert.Mix.y1 (Cert.Mix.qRow q b n) (Cert.Mix.xRow x b n) (Cert.Mix.wpOf wp) (Cert.Mix.bpOf bp) g p c :=
  norm1_apply (chanMix x q wp bp) _ b n g (fun p c => chanMix_apply x q wp bp b n g p c) p c

/-- Point mixing of row (b, n), group g, at (o, c). -/
theorem pntMix_apply (b : Fin 8) (n : Fin 500) (g : Fin 4) (o : Fin 128) (c : Fin 64) :
    pntMix x q wp bp (ix5 b n g o c)
      = Cert.Mix.pnt (Cert.Mix.qRow q b n) (Cert.Mix.xRow x b n) (Cert.Mix.wpOf wp) (Cert.Mix.bpOf bp) g o c := by
  unfold pntMix
  refine (dotGeneral_stack3_apply dot_S8x500x4x128x32_S8x500x4x32x64_S8x500x4x128x64_4_3_3_4_012_012_wf none
    (pntMat q wp bp) (norm1 (chanMix x q wp bp)) b n g o c).trans ?_
  unfold Cert.Mix.pnt
  refine Finset.sum_congr rfl fun p _ => ?_
  rw [pntMat_apply, y1_apply]

/-- The second stage's output of row (b, n), group g, at (o, c). -/
theorem y2_apply (b : Fin 8) (n : Fin 500) (g : Fin 4) (o : Fin 128) (c : Fin 64) :
    norm2 (pntMix x q wp bp) (ix5 b n g o c)
      = Cert.Mix.y2 (Cert.Mix.qRow q b n) (Cert.Mix.xRow x b n) (Cert.Mix.wpOf wp) (Cert.Mix.bpOf bp) g o c :=
  norm2_apply (pntMix x q wp bp) _ b n g (fun o c => pntMix_apply x q wp bp b n g o c) o c

/-- The flattened second-stage output of row (b, n) at position g * 8192 + (o * 64 + c). -/
theorem flat_apply (b : Fin 8) (n : Fin 500) (g : Fin 4) (o : Fin 128) (c : Fin 64) :
    flat x q wp bp (ix3 b n (Cert.Mix.pIdx g (Cert.Mix.fIdx o c)))
      = Cert.Mix.y2 (Cert.Mix.qRow q b n) (Cert.Mix.xRow x b n) (Cert.Mix.wpOf wp) (Cert.Mix.bpOf bp) g o c := by
  unfold flat
  refine (shapeCast_apply _ _ (ix3 b n (Cert.Mix.pIdx g (Cert.Mix.fIdx o c))) (ix5 b n g o c) ?_).trans ?_
  · rw [Shape.rowMajor_val_five, Shape.rowMajor_val_three]
    show (((b.val * 500 + n.val) * 4 + g.val) * 128 + o.val) * 64 + c.val
      = (b.val * 500 + n.val) * 32768 + (g.val * 8192 + (o.val * 64 + c.val))
    omega
  exact y2_apply x q wp bp b n g o c

/-! ## The whole result -/

/-- The reference's value is the specification's result array. -/
theorem term_eq_G : term x q wp bp wo bo = Cert.Mix.G x q wp bp wo bo := by
  funext i
  obtain ⟨b, n, d, rfl⟩ : ∃ (b : Fin 8) (n : Fin 500) (d : Fin 256), i = ix3 b n d := ⟨i 0, i 1, i 2, eq_ix3 i⟩
  rw [Cert.Mix.G_ix3]
  show _ = q (ix3 b n d)
    + ((∑ g : Fin 4, Cert.Mix.proj (Cert.Mix.qRow q b n) (Cert.Mix.xRow x b n) (Cert.Mix.wpOf wp) (Cert.Mix.bpOf bp)
        (Cert.Mix.woOf wo) g d) + bo (ix1 d))
  unfold term
  rw [addf_apply, addf_apply, bcast_bo_apply]
  refine congrArg (q (ix3 b n d) + ·) ?_
  refine congrArg (· + bo (ix1 d)) ?_
  refine (dotGeneral_rows_apply dot_S8x500x32768_S256x32768_S8x500x256_2_1_01_0_n_n_wf none (flat x q wp bp) wo b n d).trans ?_
  rw [sum_flat]
  refine Finset.sum_congr rfl fun g _ => ?_
  unfold Cert.Mix.proj
  refine Finset.sum_congr rfl fun o _ => Finset.sum_congr rfl fun c _ => ?_
  rw [flat_apply]; rfl

end Cert.ReferenceIdeal.RefValue

end
-- ==== Proof.lean ====
/-
  The claim for the adaptive mixing layer: the Pallas kernel, its idealization and the jnp reference.

  Both idealized programs compute, at every row (b, n) and entry d, the specification `Cert.Mix.G` of the six argument
  arrays (Proof/MixSpec.lean): the generator's 32768 numbers per row, each group's tile mixed over channels,
  normalised over the tile and clipped at zero, mixed over points, normalised and clipped again, and the flattened
  tiles projected back and added to the query. The kernel gets there block by block: a grid point's body leaves the
  specification's rows in its output block (Proof/KBody.lean, from the stages of Proof/KStages.lean read at an entry
  in KDots, KTile, KGroup), the blocks cover the [4000, 256] array and the host reshapes it (Proof/KHost.lean,
  KBlocks.lean, KValue.lean). The reference's run ends at its own composed term (Proof/RefOps.lean, RefRun.lean over
  RefTerm.lean), which read at an entry is the same specification (Proof/RefRead.lean and the modules it imports).
  The two sides differ only in the order and grouping of sums and in a variance guard that always takes the
  quotient, so neither finiteness of the inputs nor any law beyond commutativity and associativity of addition on the
  extended reals is used. The ideal pass rewrote nothing, so the idealization claim is trivial, and the three frames
  are the two generated kernel frames and the reference's run with its value dropped.
-/
import proofs.«133475_j28819230556787_2_alg».proof.Defs
import proofs.«133475_j28819230556787_2_alg».proof.Proof.Gen.Kernel
import proofs.«133475_j28819230556787_2_alg».proof.Proof.Gen.Kernel.Frame
import proofs.«133475_j28819230556787_2_alg».proof.Proof.Gen.KernelIdeal
import proofs.«133475_j28819230556787_2_alg».proof.Proof.Gen.KernelIdeal.Frame
import proofs.«133475_j28819230556787_2_alg».proof.Proof.Gen.ReferenceIdeal
import proofs.«133475_j28819230556787_2_alg».proof.Proof.Gen.Pre_finite_inputs
import proofs.«133475_j28819230556787_2_alg».proof.Proof.KValue
import proofs.«133475_j28819230556787_2_alg».proof.Proof.RefRun
import proofs.«133475_j28819230556787_2_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- The kernel's result array ends at the specification of its arguments, the reference's at its composed term of its
    own, which is the same specification; and the arguments agree. -/
theorem algebraic : Cert.algebraic_KernelIdeal_ReferenceIdeal := by
  intro m ρ m' ρ' _ hagree
  refine ⟨fun c => Cert.KernelIdeal.KValue.resultOf m c, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [Cert.ReferenceIdeal.RefValue.term_eq_G, (hagree c).1, (hagree c).2.1, (hagree c).2.2.1, (hagree c).2.2.2.1,
    (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
